-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x50000 : Shape := ⟨2, ![512, 50000]⟩
abbrev S32x512 : Shape := ⟨2, ![32, 512]⟩
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S_ : Shape := ⟨0, ![]⟩

class Facts : Prop where
  bcast_S_S512x50000 : S_.BroadcastsInDim S512x50000 (![] : Fin 0 → Fin S512x50000.rank)
  reducesTo_S512x50000_S_d0_1 : S512x50000.ReducesTo [0, 1] S_
  h_S_ : 0 < S_.numel
  bcast_S_S32x512 : S_.BroadcastsInDim S32x512 (![] : Fin 0 → Fin S32x512.rank)
  reducesTo_S32x512_S_d0_1 : S32x512.ReducesTo [0, 1] S_
  bcast_S_S50000x128 : S_.BroadcastsInDim S50000x128 (![] : Fin 0 → Fin S50000x128.rank)
  reducesTo_S50000x128_S_d0_1 : S50000x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg14 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg11 : FVec F S64x64 .f32) (main_arg12 : FVec F S64 .f32) (main_arg13 : FVec F S64x64 .f32) (main_arg14 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_v63 main_v67

def fn_part2 {F : FTy → Type} [FloatOps F] (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S512x50000 .f32) (main_arg1 : FVec F S32x512 .f32) (main_arg2 : FVec F S50000x128 .f32) (main_arg3 : FVec F S128x64 .f32) (main_arg4 : FVec F S64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) : IVec S_ 1 :=
  let main_v0 : FVec F S512x50000 .f32 := Host.absf main_arg0
  let main_cst : FVec F S_ .f32 := constant S_ .f32 0x7F800000#32
  let main_v1 : FVec F S512x50000 .f32 := broadcastInDim S512x50000 ![] bcast_S_S512x50000 main_cst
  let main_v2 : IVec S512x50000 1 := cmpf .olt main_v0 main_v1
  let main_c : IVec S_ 1 := constantI S_ 1 1#1
  let main_v3 : IVec S_ 1 := (fun x v => Host.reduce IntOp.andi x v reducesTo_S512x50000_S_d0_1 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S50000x128 .f32 := Host.absf main_arg2
  let main_cst_2 : FVec F S_ .f32 := constant S_ .f32 0x7F800000#32
  let main_v10 : FVec F S50000x128 .f32 := broadcastInDim S50000x128 ![] bcast_S_S50000x128 main_cst_2
  let main_v11 : IVec S50000x128 1 := cmpf .olt main_v9 main_v10
  let main_c_3 : IVec S_ 1 := constantI S_ 1 1#1
  let main_v12 : IVec S_ 1 := (fun x v => Host.reduce IntOp.andi x v reducesTo_S50000x128_S_d0_1 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S512x50000 : Shape := ⟨2, ![512, 50000]⟩
abbrev S32x512 : Shape := ⟨2, ![32, 512]⟩
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S1x64 : Shape := ⟨2, ![1, 64]⟩
abbrev S50000x512 : Shape := ⟨2, ![50000, 512]⟩
abbrev S64x128 : Shape := ⟨2, ![64, 128]⟩
abbrev S64x512 : Shape := ⟨2, ![64, 512]⟩
abbrev S32x64 : Shape := ⟨2, ![32, 64]⟩
abbrev S512x64 : Shape := ⟨2, ![512, 64]⟩
abbrev S5000x128 : Shape := ⟨2, ![5000, 128]⟩
abbrev S5000x256 : Shape := ⟨2, ![5000, 256]⟩
abbrev S1000x128 : Shape := ⟨2, ![1000, 128]⟩
abbrev S1000x64 : Shape := ⟨2, ![1000, 64]⟩
abbrev S1000x256 : Shape := ⟨2, ![1000, 256]⟩
abbrev S64x256 : Shape := ⟨2, ![64, 256]⟩

abbrev nBuf : Space → Nat
  | .hbm => 27
  | .vmem => 21
  | .smem => 0
  | _ => 0

abbrev bufTy : (tb : Table) → Fin (tcTables nBuf tb) → BufTy
  | .hbm, ⟨0, _⟩ => ⟨S512x50000, .f32⟩
  | .hbm, ⟨1, _⟩ => ⟨S32x512, .f32⟩
  | .hbm, ⟨2, _⟩ => ⟨S50000x128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S1x64, .f32⟩
  | .hbm, ⟨16, _⟩ => ⟨S1x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S50000x512, .f32⟩
  | .hbm, ⟨22, _⟩ => ⟨S50000x512, .f32⟩
  | .hbm, ⟨23, _⟩ => ⟨S64x128, .f32⟩
  | .hbm, ⟨24, _⟩ => ⟨S64x512, .f32⟩
  | .hbm, ⟨25, _⟩ => ⟨S32x64, .f32⟩
  | .hbm, ⟨26, _⟩ => ⟨S512x64, .f32⟩
  | .local _ .vmem, ⟨0, _⟩ => ⟨S5000x128, .f32⟩
  | .local _ .vmem, ⟨1, _⟩ => ⟨S5000x128, .f32⟩
  | .local _ .vmem, ⟨2, _⟩ => ⟨S5000x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S32x512, .f32⟩
  | .local _ .vmem, ⟨7, _⟩ => ⟨S64x128, .f32⟩
  | .local _ .vmem, ⟨8, _⟩ => ⟨S1x64, .f32⟩
  | .local _ .vmem, ⟨9, _⟩ => ⟨S64x64, .f32⟩
  | .local _ .vmem, ⟨10, _⟩ => ⟨S1x64, .f32⟩
  | .local _ .vmem, ⟨11, _⟩ => ⟨S64x64, .f32⟩
  | .local _ .vmem, ⟨12, _⟩ => ⟨S1x64, .f32⟩
  | .local _ .vmem, ⟨13, _⟩ => ⟨S64x64, .f32⟩
  | .local _ .vmem, ⟨14, _⟩ => ⟨S1x64, .f32⟩
  | .local _ .vmem, ⟨15, _⟩ => ⟨S64x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S64x512, .f32⟩
  | .local _ .vmem, ⟨20, _⟩ => ⟨S32x64, .f32⟩
  | _, _ => ⟨S512x50000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9_0 : Ref sig .tc := ⟨.hbm, 24, rfl⟩
abbrev main_v0_1 : Ref sig .tc := ⟨.hbm, 25, rfl⟩
abbrev main_v0_0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20

abbrev nD : Nat := 1
abbrev τ : Topo := Topo.v7x

variable {F : FTy → Type} [FloatOps F]

abbrev grid0 : Pipeline.Grid := ⟨1, ![10], ![false]⟩

def k0_cond1 (i : grid0.Coords) : BitVec 1 :=
  let arg0 : BitVec 32 := BitVec.ofNat 32 (i 0).val
  let c0_i32 : BitVec 32 := 0#32
  let v188 : BitVec 1 := Scalar.cmpi .eq arg0 c0_i32
  let v189 : BitVec 32 := Scalar.extui v188
  let c0_i32_126 : BitVec 32 := 0#32
  let v190 : BitVec 1 := Scalar.cmpi .ne v189 c0_i32_126
  v190

def k0_cond2 (i : grid0.Coords) : BitVec 1 :=
  let arg0 : BitVec 32 := BitVec.ofNat 32 (i 0).val
  let c0_i32_127 : BitVec 32 := 0#32
  let v191 : BitVec 1 := Scalar.cmpi .ne arg0 c0_i32_127
  let v192 : BitVec 32 := Scalar.extui v191
  let c0_i32_128 : BitVec 32 := 0#32
  let v193 : BitVec 1 := Scalar.cmpi .ne v192 c0_i32_128
  v193

def k0_cond3 (i : grid0.Coords) : BitVec 1 :=
  let arg0 : BitVec 32 := BitVec.ofNat 32 (i 0).val
  let c9_i32 : BitVec 32 := 9#32
  let v194 : BitVec 1 := Scalar.cmpi .eq arg0 c9_i32
  let v195 : BitVec 32 := Scalar.extui v194
  let c0_i32_129 : BitVec 32 := 0#32
  let v196 : BitVec 1 := Scalar.cmpi .ne v195 c0_i32_129
  v196

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S32x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

class Facts₀ : Prop where
  shapeCasts_S64_S1x64 : S64.ShapeCasts S1x64
  transposes_S512x50000_S50000x512_1_0 : S512x50000.Transposes [1, 0] S50000x512
  transposes_S128x64_S64x128_1_0 : S128x64.Transposes [1, 0] S64x128
  transposes_S64x512_S512x64_1_0 : S64x512.Transposes [1, 0] S512x64
  inb_S5000x128_S1000x128_0_0 : ∀ a, (![0, 0] : Fin 2 → Nat) a + S1000x128.size a ≤ S5000x128.size a
  h_S1000x128 : 0 < S1000x128.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1000x64 : S1x64.Broadcasts S1000x64
  inb_S64x64_S64x64_0_0 : ∀ a, (![0, 0] : Fin 2 → Nat) a + S64x64.size a ≤ S64x64.size a
  h_S64x64 : 0 < S64x64.numel
  inb_S5000x256_S1000x256_0_0 : ∀ a, (![0, 0] : Fin 2 → Nat) a + S1000x256.size a ≤ S5000x256.size a
  h_S1000x256 : 0 < S1000x256.numel
  shapeCasts_S1000x256_S1000x256 : S1000x256.ShapeCasts S1000x256
  inb_S5000x128_S1000x128_1000_0 : ∀ a, (![1000, 0] : Fin 2 → Nat) a + S1000x128.size a ≤ S5000x128.size a
  inb_S5000x256_S1000x256_1000_0 : ∀ a, (![1000, 0] : Fin 2 → Nat) a + S1000x256.size a ≤ S5000x256.size a
  inb_S5000x128_S1000x128_2000_0 : ∀ a, (![2000, 0] : Fin 2 → Nat) a + S1000x128.size a ≤ S5000x128.size a
  inb_S5000x256_S1000x256_2000_0 : ∀ a, (![2000, 0] : Fin 2 → Nat) a + S1000x256.size a ≤ S5000x256.size a
  inb_S5000x128_S1000x128_3000_0 : ∀ a, (![3000, 0] : Fin 2 → Nat) a + S1000x128.size a ≤ S5000x128.size a
  inb_S5000x256_S1000x256_3000_0 : ∀ a, (![3000, 0] : Fin 2 → Nat) a + S1000x256.size a ≤ S5000x256.size a
  inb_S5000x128_S1000x128_4000_0 : ∀ a, (![4000, 0] : Fin 2 → Nat) a + S1000x128.size a ≤ S5000x128.size a
  inb_S5000x256_S1000x256_4000_0 : ∀ a, (![4000, 0] : Fin 2 → Nat) a + S1000x256.size a ≤ S5000x256.size a
  concatenates_S64x256_S64x256_S64x512_d1 : Shape.Concatenates [S64x256, S64x256] S64x512 1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  broadcasts_S1x64_S512x64 : S1x64.Broadcasts S512x64
  inb_S32x512_S32x512_0_0 : ∀ a, (![0, 0] : Fin 2 → Nat) a + S32x512.size a ≤ S32x512.size a
  h_S32x512 : 0 < S32x512.numel
  inb_S32x64_S32x64_0_0 : ∀ a, (![0, 0] : Fin 2 → Nat) a + S32x64.size a ≤ S32x64.size a
  h_S32x64 : 0 < S32x64.numel
  dot_S1000x128_S64x128_S1000x64_1_1_0_0_n_n_wf : DotDims.WF S1000x128 S64x128 S1000x64 [1] [1] [0] [0] [] []
  dot_S1000x64_S64x64_S1000x64_1_0_0_1_n_n_wf : DotDims.WF S1000x64 S64x64 S1000x64 [1] [0] [0] [1] [] []
  dot_S1000x64_S1000x256_S64x256_0_0_1_1_n_n_wf : DotDims.WF S1000x64 S1000x256 S64x256 [0] [0] [1] [1] [] []
  dot_S64x512_S64x64_S512x64_0_0_1_1_n_n_wf : DotDims.WF S64x512 S64x64 S512x64 [0] [0] [1] [1] [] []
  dot_S512x64_S64x64_S512x64_1_0_0_1_n_n_wf : DotDims.WF S512x64 S64x64 S512x64 [1] [0] [0] [1] [] []
  dot_S32x512_S512x64_S32x64_1_0_0_1_n_n_wf : DotDims.WF S32x512 S512x64 S32x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x256.size a ≤ S50000x512.size a
  hwx0_1 : ∀ i : grid0.Coords, EltTy.bits .f32 = 32 ∨ (Rect.block (s := S50000x512) S5000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x512.size a
  hwx0_2 : ∀ i : grid0.Coords, EltTy.bits .f32 = 32 ∨ (Rect.block (s := S50000x512) S5000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x512.size a
  hwx0_3 : ∀ i : grid0.Coords, EltTy.bits .f32 = 32 ∨ (Rect.block (s := S32x512) S32x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .f32 = 32 ∨ (Rect.block (s := S64x64) S64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x64.size a ≤ S64x64.size a
  hwx0_14 : ∀ i : grid0.Coords, EltTy.bits .f32 = 32 ∨ (Rect.block (s := S64x64) S64x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64x512.size a ≤ S64x512.size a
  hwx0_16 : ∀ i : grid0.Coords, EltTy.bits .f32 = 32 ∨ (Rect.block (s := S64x512) S64x512.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S32x64.size a ≤ S32x64.size a
  hwx0_17 : ∀ i : grid0.Coords, EltTy.bits .f32 = 32 ∨ (Rect.block (s := S32x64) S32x64.size (cc0_transform_17 i) (hinb0_17 i)).WholeWords (EltTy.packing .f32)

variable [Facts₀]

def dot_S1000x128_S64x128_S1000x64_1_1_0_0_n_n : DotDims S1000x128 S64x128 S1000x64 where
  lhsContracting := [1]
  rhsContracting := [1]
  lhsNonContracting := [0]
  rhsNonContracting := [0]
  lhsBatch := []
  rhsBatch := []
  wf := dot_S1000x128_S64x128_S1000x64_1_1_0_0_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S1000x256_S64x256_0_0_1_1_n_n : DotDims S1000x64 S1000x256 S64x256 where
  lhsContracting := [0]
  rhsContracting := [0]
  lhsNonContracting := [1]
  rhsNonContracting := [1]
  lhsBatch := []
  rhsBatch := []
  wf := dot_S1000x64_S1000x256_S64x256_0_0_1_1_n_n_wf
def dot_S64x512_S64x64_S512x64_0_0_1_1_n_n : DotDims S64x512 S64x64 S512x64 where
  lhsContracting := [0]
  rhsContracting := [0]
  lhsNonContracting := [1]
  rhsNonContracting := [1]
  lhsBatch := []
  rhsBatch := []
  wf := dot_S64x512_S64x64_S512x64_0_0_1_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S32x512_S512x64_S32x64_1_0_0_1_n_n : DotDims S32x512 S512x64 S32x64 where
  lhsContracting := [1]
  rhsContracting := [0]
  lhsNonContracting := [0]
  rhsNonContracting := [1]
  lhsBatch := []
  rhsBatch := []
  wf := dot_S32x512_S512x64_S32x64_1_0_0_1_n_n_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v6) S5000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v7) S5000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S32x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v1) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v2) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v3) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_call0_v4) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S64x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_call0_v5) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_call0_v9_0) S64x512.size cc0_transform_16 reads0_16 true true 1 stage0_16 sem0_16
    hrank0 hreads0_16 hinb0_16 nbuf0_16 (Memref.isWhole_whole _) hwx0_16 hstage0_16

abbrev win0_17 : Pipeline.Window sig grid0 :=
  Pipeline.Window.ofSpec (Memref.whole main_v0_1) S32x64.size cc0_transform_17 reads0_17 true true 1 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun i => !(k0_cond1 i == 1#1) && !(k0_cond2 i == 1#1) | 17 => fun i => !(k0_cond3 i == 1#1) | ⟨_ + 18, h⟩ => absurd h (Nat.not_lt.2 (Nat.le_add_left _ _))

class Facts : Prop extends Facts₀ where

variable [Facts]
-- ==== ReferenceIdeal.lean ====
abbrev S512x50000 : Shape := ⟨2, ![512, 50000]⟩
abbrev S32x512 : Shape := ⟨2, ![32, 512]⟩
abbrev S50000x128 : Shape := ⟨2, ![50000, 128]⟩
abbrev S128x64 : Shape := ⟨2, ![128, 64]⟩
abbrev S64 : Shape := ⟨1, ![64]⟩
abbrev S64x64 : Shape := ⟨2, ![64, 64]⟩
abbrev S50000x64 : Shape := ⟨2, ![50000, 64]⟩
abbrev S1x64 : Shape := ⟨2, ![1, 64]⟩
abbrev S_ : Shape := ⟨0, ![]⟩
abbrev S512x64 : Shape := ⟨2, ![512, 64]⟩
abbrev S32x64 : Shape := ⟨2, ![32, 64]⟩

abbrev nBuf : Space → Nat
  | .hbm => 89
  | .vmem => 0
  | .smem => 0
  | _ => 0

abbrev bufTy : (tb : Table) → Fin (tcTables nBuf tb) → BufTy
  | .hbm, ⟨0, _⟩ => ⟨S512x50000, .f32⟩
  | .hbm, ⟨1, _⟩ => ⟨S32x512, .f32⟩
  | .hbm, ⟨2, _⟩ => ⟨S50000x128, .f32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S50000x64, .f32⟩
  | .hbm, ⟨16, _⟩ => ⟨S1x64, .f32⟩
  | .hbm, ⟨17, _⟩ => ⟨S50000x64, .f32⟩
  | .hbm, ⟨18, _⟩ => ⟨S50000x64, .f32⟩
  | .hbm, ⟨19, _⟩ => ⟨S_, .f32⟩
  | .hbm, ⟨20, _⟩ => ⟨S_, .f32⟩
  | .hbm, ⟨21, _⟩ => ⟨S50000x64, .f32⟩
  | .hbm, ⟨22, _⟩ => ⟨S50000x64, .i1⟩
  | .hbm, ⟨23, _⟩ => ⟨S_, .f32⟩
  | .hbm, ⟨24, _⟩ => ⟨S50000x64, .f32⟩
  | .hbm, ⟨25, _⟩ => ⟨S50000x64, .f32⟩
  | .hbm, ⟨26, _⟩ => ⟨S50000x64, .f32⟩
  | .hbm, ⟨27, _⟩ => ⟨S50000x64, .f32⟩
  | .hbm, ⟨28, _⟩ => ⟨S1x64, .f32⟩
  | .hbm, ⟨29, _⟩ => ⟨S50000x64, .f32⟩
  | .hbm, ⟨30, _⟩ => ⟨S50000x64, .f32⟩
  | .hbm, ⟨31, _⟩ => ⟨S_, .f32⟩
  | .hbm, ⟨32, _⟩ => ⟨S_, .f32⟩
  | .hbm, ⟨33, _⟩ => ⟨S50000x64, .f32⟩
  | .hbm, ⟨34, _⟩ => ⟨S50000x64, .i1⟩
  | .hbm, ⟨35, _⟩ => ⟨S_, .f32⟩
  | .hbm, ⟨36, _⟩ => ⟨S50000x64, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S_, .f32⟩
  | .hbm, ⟨45, _⟩ => ⟨S50000x64, .f32⟩
  | .hbm, ⟨46, _⟩ => ⟨S50000x64, .i1⟩
  | .hbm, ⟨47, _⟩ => ⟨S_, .f32⟩
  | .hbm, ⟨48, _⟩ => ⟨S50000x64, .f32⟩
  | .hbm, ⟨49, _⟩ => ⟨S50000x64, .f32⟩
  | .hbm, ⟨50, _⟩ => ⟨S50000x64, .f32⟩
  | .hbm, ⟨51, _⟩ => ⟨S512x64, .f32⟩
  | .hbm, ⟨52, _⟩ => ⟨S512x64, .f32⟩
  | .hbm, ⟨53, _⟩ => ⟨S1x64, .f32⟩
  | .hbm, ⟨54, _⟩ => ⟨S512x64, .f32⟩
  | .hbm, ⟨55, _⟩ => ⟨S512x64, .f32⟩
  | .hbm, ⟨56, _⟩ => ⟨S_, .f32⟩
  | .hbm, ⟨57, _⟩ => ⟨S_, .f32⟩
  | .hbm, ⟨58, _⟩ => ⟨S512x64, .f32⟩
  | .hbm, ⟨59, _⟩ => ⟨S512x64, .i1⟩
  | .hbm, ⟨60, _⟩ => ⟨S_, .f32⟩
  | .hbm, ⟨61, _⟩ => ⟨S512x64, .f32⟩
  | .hbm, ⟨62, _⟩ => ⟨S512x64, .f32⟩
  | .hbm, ⟨63, _⟩ => ⟨S512x64, .f32⟩
  | .hbm, ⟨64, _⟩ => ⟨S512x64, .f32⟩
  | .hbm, ⟨65, _⟩ => ⟨S1x64, .f32⟩
  | .hbm, ⟨66, _⟩ => ⟨S512x64, .f32⟩
  | .hbm, ⟨67, _⟩ => ⟨S512x64, .f32⟩
  | .hbm, ⟨68, _⟩ => ⟨S_, .f32⟩
  | .hbm, ⟨69, _⟩ => ⟨S_, .f32⟩
  | .hbm, ⟨70, _⟩ => ⟨S512x64, .f32⟩
  | .hbm, ⟨71, _⟩ => ⟨S512x64, .i1⟩
  | .hbm, ⟨72, _⟩ => ⟨S_, .f32⟩
  | .hbm, ⟨73, _⟩ => ⟨S512x64, .f32⟩
  | .hbm, ⟨74, _⟩ => ⟨S512x64, .f32⟩
  | .hbm, ⟨75, _⟩ => ⟨S512x64, .f32⟩
  | .hbm, ⟨76, _⟩ => ⟨S512x64, .f32⟩
  | .hbm, ⟨77, _⟩ => ⟨S1x64, .f32⟩
  | .hbm, ⟨78, _⟩ => ⟨S512x64, .f32⟩
  | .hbm, ⟨79, _⟩ => ⟨S512x64, .f32⟩
  | .hbm, ⟨80, _⟩ => ⟨S_, .f32⟩
  | .hbm, ⟨81, _⟩ => ⟨S_, .f32⟩
  | .hbm, ⟨82, _⟩ => ⟨S512x64, .f32⟩
  | .hbm, ⟨83, _⟩ => ⟨S512x64, .i1⟩
  | .hbm, ⟨84, _⟩ => ⟨S_, .f32⟩
  | .hbm, ⟨85, _⟩ => ⟨S512x64, .f32⟩
  | .hbm, ⟨86, _⟩ => ⟨S512x64, .f32⟩
  | .hbm, ⟨87, _⟩ => ⟨S512x64, .f32⟩
  | .hbm, ⟨88, _⟩ => ⟨S32x64, .f32⟩
  | _, _ => ⟨S512x50000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_call2_cst : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_cst_2 : Ref sig .tc := ⟨.hbm, 56, rfl⟩
abbrev main_call3_cst : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v20 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_cst_3 : Ref sig .tc := ⟨.hbm, 68, rfl⟩
abbrev main_call4_cst : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_cst_4 : Ref sig .tc := ⟨.hbm, 80, rfl⟩
abbrev main_call5_cst : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_v30 : Ref sig .tc := ⟨.hbm, 87, rfl⟩
abbrev main_v31 : Ref sig .tc := ⟨.hbm, 88, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1x64_S512x64_0_1 : S1x64.BroadcastsInDim S512x64 (![0, 1] : Fin 2 → Fin S512x64.rank)
  bcast_S_S512x64 : S_.BroadcastsInDim S512x64 (![] : Fin 0 → Fin S512x64.rank)
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  dot_S512x50000_S50000x64_S512x64_1_0_0_1_n_n_wf : DotDims.WF S512x50000 S50000x64 S512x64 [1] [0] [0] [1] [] []
  dot_S512x64_S64x64_S512x64_1_0_0_1_n_n_wf : DotDims.WF S512x64 S64x64 S512x64 [1] [0] [0] [1] [] []
  dot_S32x512_S512x64_S32x64_1_0_0_1_n_n_wf : DotDims.WF S32x512 S512x64 S32x64 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S512x50000_S50000x64_S512x64_1_0_0_1_n_n : DotDims S512x50000 S50000x64 S512x64 where
  lhsContracting := [1]
  rhsContracting := [0]
  lhsNonContracting := [0]
  rhsNonContracting := [1]
  lhsBatch := []
  rhsBatch := []
  wf := dot_S512x50000_S50000x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S32x512_S512x64_S32x64_1_0_0_1_n_n : DotDims S32x512 S512x64 S32x64 where
  lhsContracting := [1]
  rhsContracting := [0]
  lhsNonContracting := [0]
  rhsNonContracting := [1]
  lhsBatch := []
  rhsBatch := []
  wf := dot_S32x512_S512x64_S32x64_1_0_0_1_n_n_wf

class Facts : Prop extends Facts₀ where

variable [Facts]
-- ==== Proof.BaseK.lean ====
/-
  What the body's three control cases are stated over: its three conditions on the grid position in closed
  form (the first point; every later point; the last point), where each window is live, and each window's
  staging buffer at a point with its wholeness.
-/
import proofs.«152476_g41686952575157_cont_8to1_b_1251_30_alg».proof.Proof.Gen.Kernel.Frame

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the grid position is 0. -/
abbrev cond0_0 (i : grid0.Coords) : Prop := k0_cond1 i = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- The second conditional's condition: the grid position is not 0. -/
abbrev cond0_1 (i : grid0.Coords) : Prop := k0_cond2 i = 1#1
theorem hcond0_1 : ∀ t : Fin cfg0.N, cond0_1 (grid0.coords t) ↔ 1 ≤ t.val :=
  (by decide +kernel : ∀ t : Fin grid0.N, cond0_1 (grid0.coords t) ↔ 1 ≤ t.val)
/-- The third conditional's condition: the grid position is the last, 9. -/
abbrev cond0_2 (i : grid0.Coords) : Prop := k0_cond3 i = 1#1
theorem hcond0_2 : ∀ t : Fin cfg0.N, cond0_2 (grid0.coords t) ↔ t.val % 10 = 9 :=
  (by decide +kernel : ∀ t : Fin grid0.N, cond0_2 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
theorem liveAt0_16 : ∀ t : Fin cfg0.N, cfg0.idle 16 (grid0.coords t) = false := by decide +kernel
/-- The second result's window is live at the last point only. -/
theorem idle0_17 : ∀ t : Fin cfg0.N, cfg0.idle 17 (grid0.coords t) = true ↔ t.val % 10 ≠ 9 := by decide +kernel
theorem liveAt0_17 : ∀ t : Fin cfg0.N, cfg0.idle 17 (grid0.coords t) = false ↔ t.val % 10 = 9 := by decide +kernel

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x64 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x64 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S64x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S32x64 .f32 := win0_17.stage (cfg0.slots t 17)
abbrev hs0_17 (t : Fin cfg0.N) : (ms0_17 t).IsWhole := hstage0_17 ((cfg0.slots t 17).cast nbuf0_17)

/-- One staging buffer of each result window, through which its contents are stated. -/
abbrev VO0_16 : View sig .tc .vmem S64x512 .f32 := (Memref.whole cc0_stg16_0 : Memref sig .tc .vmem S64x512 .f32).view
abbrev VO0_17 : View sig .tc .vmem S32x64 .f32 := (Memref.whole cc0_stg17_0 : Memref sig .tc .vmem S32x64 .f32).view

end Cert.Kernel.Body

end
-- ==== Proof.RunAK.lean ====
/-
  The body's run at the first point: the accumulator's buffer, whatever it held, is overwritten by the point's partial sums; the second result's buffer is not touched. The pieces each written buffer ends with are found by the run itself.
-/
import proofs.«152476_g41686952575157_cont_8to1_b_1251_30_alg».proof.Proof.BaseK
import proofs.«152476_g41686952575157_cont_8to1_b_1251_30_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: the accumulator's buffer, whatever it held, is overwritten by the point's partial sums; the second result's buffer is not touched: on whole staging buffers, the inputs' at their contents, it runs to the continuation
    holding the inputs' as they were and each written buffer with its pieces written. -/
noncomputable def kernelRun0_A (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : cond0_0 i) (hc1 : ¬cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32)  :
    { L16 : List (View.Piece (Elt F) S64x512 .f32) //
      ∀ (xo17 : Vec F S32x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare xo17
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ owns (c : Thread nD τ) arg18 fullShare xo17) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun xo17 E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg18.eq_unread hf17
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; iexact H16
    iexists _; isplitr; · ipureintro; exact harg18.read_unread _
    iexact H17

end Cert.Kernel.Body

end
-- ==== Proof.RunBK.lean ====
/-
  The body's run at a middle point: the accumulator's buffer, holding the running sums `xo16`, is overwritten by them plus the point's partial sums; the second result's buffer is not touched. The pieces each written buffer ends with are found by the run itself.
-/
import proofs.«152476_g41686952575157_cont_8to1_b_1251_30_alg».proof.Proof.RunAK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point: the accumulator's buffer, holding the running sums `xo16`, is overwritten by them plus the point's partial sums; the second result's buffer is not touched: on whole staging buffers, the inputs' at their contents, it runs to the continuation
    holding the inputs' as they were and each written buffer with its pieces written. -/
noncomputable def kernelRun0_B (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) :
    { L16 : List (View.Piece (Elt F) S64x512 .f32) //
      ∀ (xo17 : Vec F S32x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xo16 ∗ owns (c : Thread nD τ) arg18 fullShare xo17
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ owns (c : Thread nD τ) arg18 fullShare xo17) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun xo17 E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; iexact H16
    iexists _; isplitr; · ipureintro; exact harg18.read_unread _
    iexact H17

end Cert.Kernel.Body

end
-- ==== Proof.RunCK.lean ====
/-
  The body's run at the last point: the accumulator's buffer, holding the running sums `xo16`, is overwritten by them plus the point's partial sums, and the second result's buffer, whatever it held, by the global layers of the final sums. The pieces each written buffer ends with are found by the run itself.
-/
import proofs.«152476_g41686952575157_cont_8to1_b_1251_30_alg».proof.Proof.RunBK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point: the accumulator's buffer, holding the running sums `xo16`, is overwritten by them plus the point's partial sums, and the second result's buffer, whatever it held, by the global layers of the final sums: on whole staging buffers, the inputs' at their contents, it runs to the continuation
    holding the inputs' as they were and each written buffer with its pieces written. -/
noncomputable def kernelRun0_C (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) :
    Σ' (L16 : List (View.Piece (Elt F) S64x512 .f32)), { L17 : List (View.Piece (Elt F) S32x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xo16 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; iexact H16
    iexists _; iexact H17

end Cert.Kernel.Body

end
-- ==== Proof.FrameK.lean ====
/-
  The frame of the one region: what the two result buffers hold after each grid point — the accumulator by
  recursion on the point (the first point's partial sums, then each point's added to what the point before
  left), the second result at the last point —, the proof data over them, the body's obligation at every
  point from the three cases' runs, and the run of @main.
-/
import proofs.«152476_g41686952575157_cont_8to1_b_1251_30_alg».proof.Proof.RunCK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for the accumulator cover its block (one whole-block store). -/
theorem cover0_A_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : cond0_0 i) (hc1 : ¬cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (y : S64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15).1 S64x512.size (by sl_kernel_rfl) y

/-- What case A leaves in the accumulator's buffer: its pieces read back. -/
def out0_A_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : cond0_0 i) (hc1 : ¬cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) : Vec F S64x512 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15).1)

/-- Case B's pieces for the accumulator cover its block (one whole-block store). -/
theorem cover0_B_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) (y : S64x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1 S64x512.size (by sl_kernel_rfl) y

/-- What case B leaves in the accumulator's buffer: its pieces read back. -/
def out0_B_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) : Vec F S64x512 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1)

/-- Case C's pieces for the accumulator cover its block (one whole-block store). -/
theorem cover0_C_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) (y : S64x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1 S64x512.size (by sl_kernel_rfl) y

/-- What case C leaves in the accumulator's buffer: its pieces read back. -/
def out0_C_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) : Vec F S64x512 .f32 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1)

/-- The last point's pieces for the second result cover its block (one whole-block store). -/
theorem cover0_C_17 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) (y : S32x64.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).2.1 S32x64.size (by sl_kernel_rfl) y

/-- What the last point leaves in the second result's buffer. -/
def out0_C_17 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) : Vec F S32x64 .f32 :=
  VO0_17.read (Elt F) (VO0_17.writes (Elt F) VO0_17.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).2.1)

/-! ## What the result buffers hold after each point -/

theorem lt10 {n : ℕ} (hn : n < cfg0.N) : n < 10 := lt_of_lt_of_eq hn (show cfg0.N = 10 from N_0)

/-- The accumulator after the body at position `n`: the first point's partial sums, then each point's sums added
    to what the point before left. -/
def acc (c : Dev nD) : (n : ℕ) → n < cfg0.N → Vec F S64x512 .f32
  | 0, hn => out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) ((hcond0_0 ⟨0, hn⟩).mpr (Nat.zero_mod _))
      (fun h => absurd ((hcond0_1 ⟨0, hn⟩).mp h) (Nat.not_succ_le_zero 0)) (fun h => absurd ((hcond0_2 ⟨0, hn⟩).mp h) (show ¬(0 % 10 = 9) from by decide)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩)
  | n + 1, hn =>
    if h2 : (n + 1) % 10 = 9 then
      out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (fun h => by have := (hcond0_0 ⟨n + 1, hn⟩).mp h; have := lt10 hn; dsimp only at *; omega)
        ((hcond0_1 ⟨n + 1, hn⟩).mpr (Nat.succ_le_succ (Nat.zero_le n))) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (acc c n (Nat.lt_of_succ_lt hn))
    else
      out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (fun h => by have := (hcond0_0 ⟨n + 1, hn⟩).mp h; have := lt10 hn; dsimp only at *; omega)
        ((hcond0_1 ⟨n + 1, hn⟩).mpr (Nat.succ_le_succ (Nat.zero_le n))) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (acc c n (Nat.lt_of_succ_lt hn))

theorem predlt (t : Fin cfg0.N) : t.val - 1 < cfg0.N := Nat.lt_of_le_of_lt (Nat.sub_le _ _) t.isLt

/-- The accumulator at the first point. -/
theorem acc_A (c : Dev nD) (t : Fin cfg0.N) (h0 : t.val % 10 = 0) (hc0 : cond0_0 (grid0.coords t)) (hc1 : ¬cond0_1 (grid0.coords t)) (hc2 : ¬cond0_2 (grid0.coords t)) :
    acc m c t.val t.isLt = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by
  obtain ⟨n, hn⟩ := t
  cases n with
  | zero => exact rfl
  | succ n => exact (by exfalso; have := lt10 hn; dsimp only at h0; omega)

/-- The accumulator at a middle point: that point's sums over what the point before left. -/
theorem acc_B (c : Dev nD) (t : Fin cfg0.N) (h1 : 1 ≤ t.val) (h2 : ¬t.val % 10 = 9) (hc0 : ¬cond0_0 (grid0.coords t)) (hc1 : cond0_1 (grid0.coords t)) (hc2 : ¬cond0_2 (grid0.coords t)) :
    acc m c t.val t.isLt = out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (acc m c (t.val - 1) (predlt t)) := by
  obtain ⟨n, hn⟩ := t
  cases n with
  | zero => exact (by exfalso; dsimp only at h1; omega)
  | succ n => exact (dif_neg h2).trans rfl

/-- The accumulator at the last point. -/
theorem acc_C (c : Dev nD) (t : Fin cfg0.N) (h1 : 1 ≤ t.val) (h2 : t.val % 10 = 9) (hc0 : ¬cond0_0 (grid0.coords t)) (hc1 : cond0_1 (grid0.coords t)) (hc2 : cond0_2 (grid0.coords t)) :
    acc m c t.val t.isLt = out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (acc m c (t.val - 1) (predlt t)) := by
  obtain ⟨n, hn⟩ := t
  cases n with
  | zero => exact (by exfalso; dsimp only at h1; omega)
  | succ n => exact (dif_pos h2).trans rfl

/-- The second result's buffer after the body: at the last point the global layers of the final sums; at the
    other points nothing is stated of it. -/
def res2 (c : Dev nD) (t : Fin cfg0.N) : Vec F S32x64 .f32 :=
  if h : 1 ≤ t.val ∧ t.val % 10 = 9 then
    out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun hh => by have := (hcond0_0 t).mp hh; have := lt10 t.isLt; omega)
      ((hcond0_1 t).mpr h.1) ((hcond0_2 t).mpr h.2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (acc m c (t.val - 1) (predlt t))
  else Pipeline.Dat.unnamed (cfg := cfg0) 17 t

theorem res2_C (c : Dev nD) (t : Fin cfg0.N) (h1 : 1 ≤ t.val) (h2 : t.val % 10 = 9) (hc0 : ¬cond0_0 (grid0.coords t)) (hc1 : cond0_1 (grid0.coords t)) (hc2 : cond0_2 (grid0.coords t)) :
    res2 m c t = out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (acc m c (t.val - 1) (predlt t)) := by
  unfold res2; rw [dif_pos ⟨h1, h2⟩]

/-! ## The proof data -/

/-- The proof data of the one pipeline on core `c`: the arrays as the region finds them; after the body at point `t`
    each input's buffer at its block, the accumulator's at `acc`, the second result's at `res2`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => acc m c t.val t.isLt
    | ⟨17, _⟩ => res2 m c t
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = acc m c t.val t.isLt := by dsimp only [dats]
theorem after0_17 (c : Dev nD) (t : Fin cfg0.N) : (dats m 0 c).after 17 t = res2 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- After the first point the accumulator's buffer holds what the body left at the point before: the buffer is
    written back at the last point only and the window is live at every point. -/
theorem before0_16_pos (c : Dev nD) (t : Fin cfg0.N) (h1 : 1 ≤ t.val) (d) :
    (dats m 0 c).before 16 t d = acc m c (t.val - 1) (predlt t) := by
  have hN : t.val < 10 := lt10 t.isLt
  rw [(dats m 0 c).before_of_pos 16 t (by omega) ((cfg0.win 16).fetch_out rfl t),
    if_neg (fun h => by have := (flush0_16 _).mp h; dsimp only at this; omega)]
  unfold Dat.left
  rw [liveAt0_16 ⟨t.val - 1, predlt t⟩]
  dsimp only
  unfold Dat.kept
  rw [Pipeline.fill_of_clip_none 16 _ (fun _ => rfl) d ((dats m 0 c).after 16 ⟨t.val - 1, predlt t⟩), Window.fill_cut]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 4800000 in
/-- The body at any point: the inputs' buffers hold their blocks; the closed forms say which case the point is in;
    after the first point the accumulator's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  have hN : t.val < 10 := lt10 t.isLt
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  rw [show (dats m 0 c).leavesExact 14 t = owns (c : Thread nD τ) (ms0_14 t) fullShare ((dats m 0 c).after 14 t) from by
      unfold Dat.leavesExact; rw [liveAt0_14 t], after0_14]
  rw [show (dats m 0 c).leavesExact 15 t = owns (c : Thread nD τ) (ms0_15 t) fullShare ((dats m 0 c).after 15 t) from by
      unfold Dat.leavesExact; rw [liveAt0_15 t], after0_15]
  rw [show (dats m 0 c).leavesExact 16 t = owns (c : Thread nD τ) (ms0_16 t) fullShare ((dats m 0 c).after 16 t) from by
      unfold Dat.leavesExact; rw [liveAt0_16 t], after0_16]
  by_cases h0 : t.val % 10 = 0
  · have hc0 : cond0_0 (grid0.coords t) := (hcond0_0 t).mpr h0
    have hc1 : ¬cond0_1 (grid0.coords t) := fun h => by have := (hcond0_1 t).mp h; omega
    have hc2 : ¬cond0_2 (grid0.coords t) := fun h => by have := (hcond0_2 t).mp h; omega
    rw [(dats m 0 c).leavesExact_idle 17 t ((idle0_17 t).mpr (by omega)) (Bool.eq_false_iff.mpr fun h => by have := (flush0_17 t).mp h; omega)]
    rw [acc_A m c t h0 hc0 hc1 hc2]
    unfold out0_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((kernelRun0_A c (grid0.coords t) _ _ _ _ _ _ _ _ _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexact H17
    iintro ⟨H0, H1, H2, H3, H4, H5, H6, H7, H8, H9, H10, H11, H12, H13, H14, H15, ⟨%e16, H16⟩, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _)
    iexists d17; iexact H17
  · have h1 : 1 ≤ t.val := by omega
    have hc0 : ¬cond0_0 (grid0.coords t) := fun h => h0 ((hcond0_0 t).mp h)
    have hc1 : cond0_1 (grid0.coords t) := (hcond0_1 t).mpr h1
    simp only [before0_16_pos m c t h1]
    by_cases h2 : t.val % 10 = 9
    · have hc2 : cond0_2 (grid0.coords t) := (hcond0_2 t).mpr h2
      rw [show (dats m 0 c).leavesExact 17 t = owns (c : Thread nD τ) (ms0_17 t) fullShare ((dats m 0 c).after 17 t) from by
        unfold Dat.leavesExact; rw [(liveAt0_17 t).mpr h2], after0_17]
      rw [acc_C m c t h1 h2 hc0 hc1 hc2, res2_C m c t h1 h2 hc0 hc1 hc2]
      unfold out0_C_16 out0_C_17
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_C c (grid0.coords t) _ _ _ _ _ _ _ _ _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      iintro ⟨H0, H1, H2, H3, H4, H5, H6, H7, H8, H9, H10, H11, H12, H13, H14, H15, ⟨%e16, H16⟩, ⟨%e17, H17⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H17
      ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _)
    · have hc2 : ¬cond0_2 (grid0.coords t) := fun h => h2 ((hcond0_2 t).mp h)
      rw [(dats m 0 c).leavesExact_idle 17 t ((idle0_17 t).mpr h2) (Bool.eq_false_iff.mpr fun h => h2 ((flush0_17 t).mp h))]
      rw [acc_B m c t h1 h2 hc0 hc1 hc2]
      unfold out0_B_16
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iintro ⟨H0, H1, H2, H3, H4, H5, H6, H7, H8, H9, H10, H11, H12, H13, H14, H15, ⟨%e16, H16⟩, H17⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _)
      iexists d17; iexact H17

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each array of the pipeline ending at what the proof data says
    and every other buffer at what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Body

end
-- ==== Proof.BaseI.lean ====
/-
  What the body's three control cases are stated over: its three conditions on the grid position in closed
  form (the first point; every later point; the last point), where each window is live, and each window's
  staging buffer at a point with its wholeness.
-/
import proofs.«152476_g41686952575157_cont_8to1_b_1251_30_alg».proof.Proof.Gen.KernelIdeal.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition: the grid position is 0. -/
abbrev cond0_0 (i : grid0.Coords) : Prop := k0_cond1 i = 1#1
theorem hcond0_0 : ∀ t : Fin cfg0.N, cond0_0 (grid0.coords t) ↔ t.val % 10 = 0 :=
  (by decide +kernel : ∀ t : Fin grid0.N, cond0_0 (grid0.coords t) ↔ t.val % 10 = 0)
/-- The second conditional's condition: the grid position is not 0. -/
abbrev cond0_1 (i : grid0.Coords) : Prop := k0_cond2 i = 1#1
theorem hcond0_1 : ∀ t : Fin cfg0.N, cond0_1 (grid0.coords t) ↔ 1 ≤ t.val :=
  (by decide +kernel : ∀ t : Fin grid0.N, cond0_1 (grid0.coords t) ↔ 1 ≤ t.val)
/-- The third conditional's condition: the grid position is the last, 9. -/
abbrev cond0_2 (i : grid0.Coords) : Prop := k0_cond3 i = 1#1
theorem hcond0_2 : ∀ t : Fin cfg0.N, cond0_2 (grid0.coords t) ↔ t.val % 10 = 9 :=
  (by decide +kernel : ∀ t : Fin grid0.N, cond0_2 (grid0.coords t) ↔ t.val % 10 = 9)

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem liveAt0_8 : ∀ t : Fin cfg0.N, cfg0.idle 8 (grid0.coords t) = false := by decide +kernel
theorem liveAt0_9 : ∀ t : Fin cfg0.N, cfg0.idle 9 (grid0.coords t) = false := by decide +kernel
theorem liveAt0_10 : ∀ t : Fin cfg0.N, cfg0.idle 10 (grid0.coords t) = false := by decide +kernel
theorem liveAt0_11 : ∀ t : Fin cfg0.N, cfg0.idle 11 (grid0.coords t) = false := by decide +kernel
theorem liveAt0_12 : ∀ t : Fin cfg0.N, cfg0.idle 12 (grid0.coords t) = false := by decide +kernel
theorem liveAt0_13 : ∀ t : Fin cfg0.N, cfg0.idle 13 (grid0.coords t) = false := by decide +kernel
theorem liveAt0_14 : ∀ t : Fin cfg0.N, cfg0.idle 14 (grid0.coords t) = false := by decide +kernel
theorem liveAt0_15 : ∀ t : Fin cfg0.N, cfg0.idle 15 (grid0.coords t) = false := by decide +kernel
theorem liveAt0_16 : ∀ t : Fin cfg0.N, cfg0.idle 16 (grid0.coords t) = false := by decide +kernel
/-- The second result's window is live at the last point only. -/
theorem idle0_17 : ∀ t : Fin cfg0.N, cfg0.idle 17 (grid0.coords t) = true ↔ t.val % 10 ≠ 9 := by decide +kernel
theorem liveAt0_17 : ∀ t : Fin cfg0.N, cfg0.idle 17 (grid0.coords t) = false ↔ t.val % 10 = 9 := by decide +kernel

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5000x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S32x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x64 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S64x64 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x64 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S64x64 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x64 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x64 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x64 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S64x64 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x64 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S64x512 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S32x64 .f32 := win0_17.stage (cfg0.slots t 17)
abbrev hs0_17 (t : Fin cfg0.N) : (ms0_17 t).IsWhole := hstage0_17 ((cfg0.slots t 17).cast nbuf0_17)

/-- One staging buffer of each result window, through which its contents are stated. -/
abbrev VO0_16 : View sig .tc .vmem S64x512 .f32 := (Memref.whole cc0_stg16_0 : Memref sig .tc .vmem S64x512 .f32).view
abbrev VO0_17 : View sig .tc .vmem S32x64 .f32 := (Memref.whole cc0_stg17_0 : Memref sig .tc .vmem S32x64 .f32).view

end Cert.KernelIdeal.Body

end
-- ==== Proof.RunAI.lean ====
/-
  The body's run at the first point: the accumulator's buffer, whatever it held, is overwritten by the point's partial sums; the second result's buffer is not touched. The pieces each written buffer ends with are found by the run itself.
-/
import proofs.«152476_g41686952575157_cont_8to1_b_1251_30_alg».proof.Proof.BaseI
import proofs.«152476_g41686952575157_cont_8to1_b_1251_30_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point: the accumulator's buffer, whatever it held, is overwritten by the point's partial sums; the second result's buffer is not touched: on whole staging buffers, the inputs' at their contents, it runs to the continuation
    holding the inputs' as they were and each written buffer with its pieces written. -/
noncomputable def kernelRun0_A (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : cond0_0 i) (hc1 : ¬cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32)  :
    { L16 : List (View.Piece (Elt F) S64x512 .f32) //
      ∀ (xo17 : Vec F S32x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare xo17
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ owns (c : Thread nD τ) arg18 fullShare xo17) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun xo17 E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg18.eq_unread hf17
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; iexact H16
    iexists _; isplitr; · ipureintro; exact harg18.read_unread _
    iexact H17

end Cert.KernelIdeal.Body

end
-- ==== Proof.RunBI.lean ====
/-
  The body's run at a middle point: the accumulator's buffer, holding the running sums `xo16`, is overwritten by them plus the point's partial sums; the second result's buffer is not touched. The pieces each written buffer ends with are found by the run itself.
-/
import proofs.«152476_g41686952575157_cont_8to1_b_1251_30_alg».proof.Proof.RunAI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point: the accumulator's buffer, holding the running sums `xo16`, is overwritten by them plus the point's partial sums; the second result's buffer is not touched: on whole staging buffers, the inputs' at their contents, it runs to the continuation
    holding the inputs' as they were and each written buffer with its pieces written. -/
noncomputable def kernelRun0_B (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) :
    { L16 : List (View.Piece (Elt F) S64x512 .f32) //
      ∀ (xo17 : Vec F S32x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xo16 ∗ owns (c : Thread nD τ) arg18 fullShare xo17
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ owns (c : Thread nD τ) arg18 fullShare xo17) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun xo17 E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; iexact H16
    iexists _; isplitr; · ipureintro; exact harg18.read_unread _
    iexact H17

end Cert.KernelIdeal.Body

end
-- ==== Proof.RunCI.lean ====
/-
  The body's run at the last point: the accumulator's buffer, holding the running sums `xo16`, is overwritten by them plus the point's partial sums, and the second result's buffer, whatever it held, by the global layers of the final sums. The pieces each written buffer ends with are found by the run itself.
-/
import proofs.«152476_g41686952575157_cont_8to1_b_1251_30_alg».proof.Proof.RunBI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point: the accumulator's buffer, holding the running sums `xo16`, is overwritten by them plus the point's partial sums, and the second result's buffer, whatever it held, by the global layers of the final sums: on whole staging buffers, the inputs' at their contents, it runs to the continuation
    holding the inputs' as they were and each written buffer with its pieces written. -/
noncomputable def kernelRun0_C (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) :
    Σ' (L16 : List (View.Piece (Elt F) S64x512 .f32)), { L17 : List (View.Piece (Elt F) S32x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xo16 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | exact hc0 | exact hc1 | exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; iexact H16
    iexists _; iexact H17

end Cert.KernelIdeal.Body

end
-- ==== Proof.FrameI.lean ====
/-
  The frame of the one region: what the two result buffers hold after each grid point — the accumulator by
  recursion on the point (the first point's partial sums, then each point's added to what the point before
  left), the second result at the last point —, the proof data over them, the body's obligation at every
  point from the three cases' runs, and the run of @main.
-/
import proofs.«152476_g41686952575157_cont_8to1_b_1251_30_alg».proof.Proof.RunCI

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's pieces for the accumulator cover its block (one whole-block store). -/
theorem cover0_A_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : cond0_0 i) (hc1 : ¬cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (y : S64x512.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15).1 S64x512.size (by sl_kernel_rfl) y

/-- What case A leaves in the accumulator's buffer: its pieces read back. -/
def out0_A_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : cond0_0 i) (hc1 : ¬cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) : Vec F S64x512 .f32 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15).1)

/-- Case B's pieces for the accumulator cover its block (one whole-block store). -/
theorem cover0_B_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) (y : S64x512.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1 S64x512.size (by sl_kernel_rfl) y

/-- What case B leaves in the accumulator's buffer: its pieces read back. -/
def out0_B_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) : Vec F S64x512 .f32 :=
  VO0_16.read (Elt F) (VO0_16.writes (Elt F) VO0_16.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1)

/-- Case C's pieces for the accumulator cover its block (one whole-block store). -/
theorem cover0_C_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) (y : S64x512.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1 S64x512.size (by sl_kernel_rfl) y

/-- What case C leaves in the accumulator's buffer: its pieces read back. -/
def out0_C_16 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) : Vec F S64x512 .f32 :=
  VO0_16.read (Elt F) (VO0_16.writes (Elt F) VO0_16.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).1)

/-- The last point's pieces for the second result cover its block (one whole-block store). -/
theorem cover0_C_17 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) (y : S32x64.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).2.1 S32x64.size (by sl_kernel_rfl) y

/-- What the last point leaves in the second result's buffer. -/
def out0_C_17 (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) : Vec F S32x64 .f32 :=
  VO0_17.read (Elt F) (VO0_17.writes (Elt F) VO0_17.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16).2.1)

/-! ## What the result buffers hold after each point -/

theorem lt10 {n : ℕ} (hn : n < cfg0.N) : n < 10 := lt_of_lt_of_eq hn (show cfg0.N = 10 from N_0)

/-- The accumulator after the body at position `n`: the first point's partial sums, then each point's sums added
    to what the point before left. -/
def acc (c : Dev nD) : (n : ℕ) → n < cfg0.N → Vec F S64x512 .f32
  | 0, hn => out0_A_16 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) (ms0_14 ⟨0, hn⟩) (hs0_14 ⟨0, hn⟩) (ms0_15 ⟨0, hn⟩) (hs0_15 ⟨0, hn⟩) (ms0_16 ⟨0, hn⟩) (hs0_16 ⟨0, hn⟩) (ms0_17 ⟨0, hn⟩) (hs0_17 ⟨0, hn⟩) ((hcond0_0 ⟨0, hn⟩).mpr (Nat.zero_mod _))
      (fun h => absurd ((hcond0_1 ⟨0, hn⟩).mp h) (Nat.not_succ_le_zero 0)) (fun h => absurd ((hcond0_2 ⟨0, hn⟩).mp h) (show ¬(0 % 10 = 9) from by decide)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩) (iblk m c 13 ⟨0, hn⟩) (iblk m c 14 ⟨0, hn⟩) (iblk m c 15 ⟨0, hn⟩)
  | n + 1, hn =>
    if h2 : (n + 1) % 10 = 9 then
      out0_C_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (fun h => by have := (hcond0_0 ⟨n + 1, hn⟩).mp h; have := lt10 hn; dsimp only at *; omega)
        ((hcond0_1 ⟨n + 1, hn⟩).mpr (Nat.succ_le_succ (Nat.zero_le n))) ((hcond0_2 ⟨n + 1, hn⟩).mpr h2) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (acc c n (Nat.lt_of_succ_lt hn))
    else
      out0_B_16 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) (ms0_17 ⟨n + 1, hn⟩) (hs0_17 ⟨n + 1, hn⟩) (fun h => by have := (hcond0_0 ⟨n + 1, hn⟩).mp h; have := lt10 hn; dsimp only at *; omega)
        ((hcond0_1 ⟨n + 1, hn⟩).mpr (Nat.succ_le_succ (Nat.zero_le n))) (fun h => h2 ((hcond0_2 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩) (iblk m c 15 ⟨n + 1, hn⟩) (acc c n (Nat.lt_of_succ_lt hn))

theorem predlt (t : Fin cfg0.N) : t.val - 1 < cfg0.N := Nat.lt_of_le_of_lt (Nat.sub_le _ _) t.isLt

/-- The accumulator at the first point. -/
theorem acc_A (c : Dev nD) (t : Fin cfg0.N) (h0 : t.val % 10 = 0) (hc0 : cond0_0 (grid0.coords t)) (hc1 : ¬cond0_1 (grid0.coords t)) (hc2 : ¬cond0_2 (grid0.coords t)) :
    acc m c t.val t.isLt = out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by
  obtain ⟨n, hn⟩ := t
  cases n with
  | zero => exact rfl
  | succ n => exact (by exfalso; have := lt10 hn; dsimp only at h0; omega)

/-- The accumulator at a middle point: that point's sums over what the point before left. -/
theorem acc_B (c : Dev nD) (t : Fin cfg0.N) (h1 : 1 ≤ t.val) (h2 : ¬t.val % 10 = 9) (hc0 : ¬cond0_0 (grid0.coords t)) (hc1 : cond0_1 (grid0.coords t)) (hc2 : ¬cond0_2 (grid0.coords t)) :
    acc m c t.val t.isLt = out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (acc m c (t.val - 1) (predlt t)) := by
  obtain ⟨n, hn⟩ := t
  cases n with
  | zero => exact (by exfalso; dsimp only at h1; omega)
  | succ n => exact (dif_neg h2).trans rfl

/-- The accumulator at the last point. -/
theorem acc_C (c : Dev nD) (t : Fin cfg0.N) (h1 : 1 ≤ t.val) (h2 : t.val % 10 = 9) (hc0 : ¬cond0_0 (grid0.coords t)) (hc1 : cond0_1 (grid0.coords t)) (hc2 : cond0_2 (grid0.coords t)) :
    acc m c t.val t.isLt = out0_C_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (acc m c (t.val - 1) (predlt t)) := by
  obtain ⟨n, hn⟩ := t
  cases n with
  | zero => exact (by exfalso; dsimp only at h1; omega)
  | succ n => exact (dif_pos h2).trans rfl

/-- The second result's buffer after the body: at the last point the global layers of the final sums; at the
    other points nothing is stated of it. -/
def res2 (c : Dev nD) (t : Fin cfg0.N) : Vec F S32x64 .f32 :=
  if h : 1 ≤ t.val ∧ t.val % 10 = 9 then
    out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (fun hh => by have := (hcond0_0 t).mp hh; have := lt10 t.isLt; omega)
      ((hcond0_1 t).mpr h.1) ((hcond0_2 t).mpr h.2) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (acc m c (t.val - 1) (predlt t))
  else Pipeline.Dat.unnamed (cfg := cfg0) 17 t

theorem res2_C (c : Dev nD) (t : Fin cfg0.N) (h1 : 1 ≤ t.val) (h2 : t.val % 10 = 9) (hc0 : ¬cond0_0 (grid0.coords t)) (hc1 : cond0_1 (grid0.coords t)) (hc2 : cond0_2 (grid0.coords t)) :
    res2 m c t = out0_C_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (acc m c (t.val - 1) (predlt t)) := by
  unfold res2; rw [dif_pos ⟨h1, h2⟩]

/-! ## The proof data -/

/-- The proof data of the one pipeline on core `c`: the arrays as the region finds them; after the body at point `t`
    each input's buffer at its block, the accumulator's at `acc`, the second result's at `res2`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => acc m c t.val t.isLt
    | ⟨17, _⟩ => res2 m c t
    | ⟨_ + 18, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = acc m c t.val t.isLt := by dsimp only [dats]
theorem after0_17 (c : Dev nD) (t : Fin cfg0.N) : (dats m 0 c).after 17 t = res2 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-- After the first point the accumulator's buffer holds what the body left at the point before: the buffer is
    written back at the last point only and the window is live at every point. -/
theorem before0_16_pos (c : Dev nD) (t : Fin cfg0.N) (h1 : 1 ≤ t.val) (d) :
    (dats m 0 c).before 16 t d = acc m c (t.val - 1) (predlt t) := by
  have hN : t.val < 10 := lt10 t.isLt
  rw [(dats m 0 c).before_of_pos 16 t (by omega) ((cfg0.win 16).fetch_out rfl t),
    if_neg (fun h => by have := (flush0_16 _).mp h; dsimp only at this; omega)]
  unfold Dat.left
  rw [liveAt0_16 ⟨t.val - 1, predlt t⟩]
  dsimp only
  unfold Dat.kept
  rw [Pipeline.fill_of_clip_none 16 _ (fun _ => rfl) d ((dats m 0 c).after 16 ⟨t.val - 1, predlt t⟩), Window.fill_cut]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 4800000 in
/-- The body at any point: the inputs' buffers hold their blocks; the closed forms say which case the point is in;
    after the first point the accumulator's buffer holds what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl]
  have hN : t.val < 10 := lt10 t.isLt
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  rw [show (dats m 0 c).leavesExact 14 t = owns (c : Thread nD τ) (ms0_14 t) fullShare ((dats m 0 c).after 14 t) from by
      unfold Dat.leavesExact; rw [liveAt0_14 t], after0_14]
  rw [show (dats m 0 c).leavesExact 15 t = owns (c : Thread nD τ) (ms0_15 t) fullShare ((dats m 0 c).after 15 t) from by
      unfold Dat.leavesExact; rw [liveAt0_15 t], after0_15]
  rw [show (dats m 0 c).leavesExact 16 t = owns (c : Thread nD τ) (ms0_16 t) fullShare ((dats m 0 c).after 16 t) from by
      unfold Dat.leavesExact; rw [liveAt0_16 t], after0_16]
  by_cases h0 : t.val % 10 = 0
  · have hc0 : cond0_0 (grid0.coords t) := (hcond0_0 t).mpr h0
    have hc1 : ¬cond0_1 (grid0.coords t) := fun h => by have := (hcond0_1 t).mp h; omega
    have hc2 : ¬cond0_2 (grid0.coords t) := fun h => by have := (hcond0_2 t).mp h; omega
    rw [(dats m 0 c).leavesExact_idle 17 t ((idle0_17 t).mpr (by omega)) (Bool.eq_false_iff.mpr fun h => by have := (flush0_17 t).mp h; omega)]
    rw [acc_A m c t h0 hc0 hc1 hc2]
    unfold out0_A_16
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((kernelRun0_A c (grid0.coords t) _ _ _ _ _ _ _ _ _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexact H17
    iintro ⟨H0, H1, H2, H3, H4, H5, H6, H7, H8, H9, H10, H11, H12, H13, H14, H15, ⟨%e16, H16⟩, H17⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _)
    iexists d17; iexact H17
  · have h1 : 1 ≤ t.val := by omega
    have hc0 : ¬cond0_0 (grid0.coords t) := fun h => h0 ((hcond0_0 t).mp h)
    have hc1 : cond0_1 (grid0.coords t) := (hcond0_1 t).mpr h1
    simp only [before0_16_pos m c t h1]
    by_cases h2 : t.val % 10 = 9
    · have hc2 : cond0_2 (grid0.coords t) := (hcond0_2 t).mpr h2
      rw [show (dats m 0 c).leavesExact 17 t = owns (c : Thread nD τ) (ms0_17 t) fullShare ((dats m 0 c).after 17 t) from by
        unfold Dat.leavesExact; rw [(liveAt0_17 t).mpr h2], after0_17]
      rw [acc_C m c t h1 h2 hc0 hc1 hc2, res2_C m c t h1 h2 hc0 hc1 hc2]
      unfold out0_C_16 out0_C_17
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_C c (grid0.coords t) _ _ _ _ _ _ _ _ _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      iintro ⟨H0, H1, H2, H3, H4, H5, H6, H7, H8, H9, H10, H11, H12, H13, H14, H15, ⟨%e16, H16⟩, ⟨%e17, H17⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_C_16 c _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H17
      ipureintro; exact View.read_writes_of_cover _ _ _ _ _ (cover0_C_17 c _ _ _ _ _ _ _ _ _ _ _ _ _ _ _ _ _ _ _ _ _ _ _ _ _ _ _ _ _ _ _ _ _ _ _ _ _ _ _ _ _ _ _ _ _ _ _ _ _ _ _ _ _ _ _ _ _)
    · have hc2 : ¬cond0_2 (grid0.coords t) := fun h => h2 ((hcond0_2 t).mp h)
      rw [(dats m 0 c).leavesExact_idle 17 t ((idle0_17 t).mpr h2) (Bool.eq_false_iff.mpr fun h => h2 ((flush0_17 t).mp h))]
      rw [acc_B m c t h1 h2 hc0 hc1 hc2]
      unfold out0_B_16
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply ((kernelRun0_B c (grid0.coords t) _ _ _ _ _ _ _ _ _ _ _ _ _ _ _ _ _ _ _ _ _ _ _ _ _ _ _ _ _ _ _ _ _ _ _ _ hc0 hc1 hc2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iintro ⟨H0, H1, H2, H3, H4, H5, H6, H7, H8, H9, H10, H11, H12, H13, H14, H15, ⟨%e16, H16⟩, H17⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _)
      iexists d17; iexact H17

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, each array of the pipeline ending at what the proof data says
    and every other buffer at what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Body

end
-- ==== Proof.OutputsI.lean ====
/-
  What the run leaves in the two results: each result window's one block is its whole array, written back
  after the last point, so the accumulator's array ends at the accumulator's final contents and the second
  result's array at the global layers of them; the first result is the host's transposition of the
  accumulator's array after the region.
-/
import proofs.«152476_g41686952575157_cont_8to1_b_1251_30_alg».proof.Proof.FrameI
import Idealize.ShloMosaic.Lib.Pipeline.Value
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The last grid point. -/
def t9 : Fin cfg0.N := ⟨9, by rw [show cfg0.N = 10 from N_0]; decide⟩

/-- The accumulator's array after the run: its one block is the whole array, written back once, after the last point. -/
abbrev result16 (c : Dev nD) : Buf (Elt F) ((c : Thread nD τ).loc main_call0_v9_0) := acc m c t9.val t9.isLt

theorem flushed16_eq (c : Dev nD) (t : Fin cfg0.N) (hf : (cfg0.win 16).flush t = true) :
    (dats m 0 c).flushed 16 t = ((cfg0.win 16).blk t).view.read (Elt F) (result16 m c) := by
  have h9 : t.val = 9 := by have := (flush0_16 t).mp hf; have := lt10 t.isLt; omega
  obtain rfl : t = t9 := Fin.ext h9
  show (cfg0.win 16).cut (grid0.coords t9) ((dats m 0 c).after 16 t9) = _
  rw [after0_16]
  have hz' : (fun a => win0_16.index t9 a * main_call0_v9_0.ty.shape.size a) = fun _ => 0 := funext fun a => by fin_cases a <;> decide +kernel
  exact (Memref.read_access_unit_zero (Elt F) main_call0_v9_0 hz' (fun a => by rw [congrFun hz' a]; simp) (result16 m c)).symm

theorem final16 (c : Dev nD) : (dats m 0 c).arrAt 16 cfg0.N = result16 m c :=
  (dats m 0 c).arrAt_eq_of_cover 16 (result16 m c) (flushed16_eq m c) fun i =>
    ⟨t9, (flush0_16 t9).mpr rfl, by
      show i ∈ ((View.whole main_call0_v9_0).slice (win0_16.rect t9)).set
      rw [View.set_slice_whole, Rect.mem_set_unit]
      intro a
      have h0 : (i 0 : Nat) < 64 := (i 0).isLt
      have h1 : (i 1 : Nat) < 512 := (i 1).isLt
      match a with
      | ⟨0, _⟩ => show win0_16.index t9 0 * win0_16.size 0 ≤ (i 0 : Nat) ∧ (i 0 : Nat) < win0_16.index t9 0 * win0_16.size 0 + win0_16.xsize (grid0.coords t9) 0
                  rw [show win0_16.index t9 0 * win0_16.size 0 = 0 from by decide +kernel, show win0_16.xsize (grid0.coords t9) 0 = 64 from by decide +kernel]; omega
      | ⟨1, _⟩ => show win0_16.index t9 1 * win0_16.size 1 ≤ (i 1 : Nat) ∧ (i 1 : Nat) < win0_16.index t9 1 * win0_16.size 1 + win0_16.xsize (grid0.coords t9) 1
                  rw [show win0_16.index t9 1 * win0_16.size 1 = 0 from by decide +kernel, show win0_16.xsize (grid0.coords t9) 1 = 512 from by decide +kernel]; omega⟩

/-- The second result's array after the run: its one block is the whole array, written back once, after the last point. -/
abbrev result17 (c : Dev nD) : Buf (Elt F) ((c : Thread nD τ).loc main_v0_1) := res2 m c t9

theorem flushed17_eq (c : Dev nD) (t : Fin cfg0.N) (hf : (cfg0.win 17).flush t = true) :
    (dats m 0 c).flushed 17 t = ((cfg0.win 17).blk t).view.read (Elt F) (result17 m c) := by
  have h9 : t.val = 9 := by have := (flush0_17 t).mp hf; have := lt10 t.isLt; omega
  obtain rfl : t = t9 := Fin.ext h9
  show (cfg0.win 17).cut (grid0.coords t9) ((dats m 0 c).after 17 t9) = _
  rw [after0_17]
  have hz' : (fun a => win0_17.index t9 a * main_v0_1.ty.shape.size a) = fun _ => 0 := funext fun a => by fin_cases a <;> decide +kernel
  exact (Memref.read_access_unit_zero (Elt F) main_v0_1 hz' (fun a => by rw [congrFun hz' a]; simp) (result17 m c)).symm

theorem final17 (c : Dev nD) : (dats m 0 c).arrAt 17 cfg0.N = result17 m c :=
  (dats m 0 c).arrAt_eq_of_cover 17 (result17 m c) (flushed17_eq m c) fun i =>
    ⟨t9, (flush0_17 t9).mpr rfl, by
      show i ∈ ((View.whole main_v0_1).slice (win0_17.rect t9)).set
      rw [View.set_slice_whole, Rect.mem_set_unit]
      intro a
      have h0 : (i 0 : Nat) < 32 := (i 0).isLt
      have h1 : (i 1 : Nat) < 64 := (i 1).isLt
      match a with
      | ⟨0, _⟩ => show win0_17.index t9 0 * win0_17.size 0 ≤ (i 0 : Nat) ∧ (i 0 : Nat) < win0_17.index t9 0 * win0_17.size 0 + win0_17.xsize (grid0.coords t9) 0
                  rw [show win0_17.index t9 0 * win0_17.size 0 = 0 from by decide +kernel, show win0_17.xsize (grid0.coords t9) 0 = 32 from by decide +kernel]; omega
      | ⟨1, _⟩ => show win0_17.index t9 1 * win0_17.size 1 ≤ (i 1 : Nat) ∧ (i 1 : Nat) < win0_17.index t9 1 * win0_17.size 1 + win0_17.xsize (grid0.coords t9) 1
                  rw [show win0_17.index t9 1 * win0_17.size 1 = 0 from by decide +kernel, show win0_17.xsize (grid0.coords t9) 1 = 64 from by decide +kernel]; omega⟩

/-- The host line after the region transposes the accumulator's array into the first result. -/
theorem tail_v0_0 (c : Dev nD) :
    Pipeline.afterTail₀ cfgs (dats m) 0 (V0 m) [hostOps1] c main_v0_0
      = transpose S512x64 [1, 0] (result16 m c) transposes_S64x512_S512x64_1_0 := by
  unfold Pipeline.afterTail₀
  show StableHlo.after hostOps1 _ (Proc.devRef .tc main_v0_0) = _
  after_results
  have e : Pipeline.withArrays spec0 c (V0 m c) (fun w => (dats m 0 c).arrAt w cfg0.N) (Proc.devRef .tc (Pipeline.arrRef spec0 16)) = result16 m c :=
    (Pipeline.withArrays_arr spec0 launch0.win.arr_inj c (V0 m c) (fun w => (dats m 0 c).arrAt w cfg0.N) 16).trans (final16 m c)
  exact congrArg (fun x => transpose S512x64 [1, 0] x transposes_S64x512_S512x64_1_0) e

/-- The run, read: both results named, the arguments unchanged. -/
theorem run_results : θ_run defs (onTc (τ := τ) (main (F := F))) ⟨m, fun _ => 0, ρ⟩ (fun r => ∀ c : Dev nD,
      r.2.mem ((c.tc : Thread nD τ).loc main_v0_0) = transpose S512x64 [1, 0] (result16 m c) transposes_S64x512_S512x64_1_0
      ∧ r.2.mem ((c.tc : Thread nD τ).loc main_v0_1) = result17 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨((h c).2 main_v0_0 (Pipeline.mem_restRefs_of main_v0_0 (by decide) (by decide))).trans (tail_v0_0 m c),
      ((h c).1 17).trans (final17 m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c))),
      ((h c).2 main_arg6 (Pipeline.mem_restRefs_of main_arg6 (by decide) (by decide))).trans (W_main_arg6 m (dats m) c),
      ((h c).1 8).trans (((dats m 0 c).arrAt_in 8 rfl _).trans ((A_eq m c 8).trans (V_main_arg7 m c))),
      ((h c).2 main_arg8 (Pipeline.mem_restRefs_of main_arg8 (by decide) (by decide))).trans (W_main_arg8 m (dats m) c),
      ((h c).1 10).trans (((dats m 0 c).arrAt_in 10 rfl _).trans ((A_eq m c 10).trans (V_main_arg9 m c))),
      ((h c).2 main_arg10 (Pipeline.mem_restRefs_of main_arg10 (by decide) (by decide))).trans (W_main_arg10 m (dats m) c),
      ((h c).1 12).trans (((dats m 0 c).arrAt_in 12 rfl _).trans ((A_eq m c 12).trans (V_main_arg11 m c))),
      ((h c).2 main_arg12 (Pipeline.mem_restRefs_of main_arg12 (by decide) (by decide))).trans (W_main_arg12 m (dats m) c),
      ((h c).1 14).trans (((dats m 0 c).arrAt_in 14 rfl _).trans ((A_eq m c 14).trans (V_main_arg13 m c))),
      ((h c).2 main_arg14 (Pipeline.mem_restRefs_of main_arg14 (by decide) (by decide))).trans (W_main_arg14 m (dats m) c)⟩) (run_main m ρ)

end Cert.KernelIdeal.Body

end
-- ==== Proof.PartI.lean ====
/-
  The body's arithmetic at one grid point as pure terms of the blocks it loads: the point's partial sums
  (five sub-chunks of a thousand rows: each the node layers on the rows, then their products with the two
  halves of the summary block, the five added up and the halves joined), the same added to the running sums,
  and the last point's global layers and final product.
-/
import proofs.«152476_g41686952575157_cont_8to1_b_1251_30_alg».proof.Proof.Gen.KernelIdeal.Skeleton
import Idealize.ShloMosaic.Lib.Pipeline.FrameBody

set_option maxRecDepth 16384

noncomputable section

namespace Cert.KernelIdeal.Body

open Cert.KernelIdeal Cert.KernelIdeal.Gen
open Idealize.ShloMosaic Idealize.ShloMosaic.TcCoe

variable {F : FTy → Type} [FloatOps F]

/-- The point's partial sums, transposed (64×512), of the point's blocks. -/
def part (x0 : Vec F S5000x128 .f32) (x1 x2 : Vec F S5000x256 .f32) (x4 : Vec F S64x128 .f32) (x5 : Vec F S1x64 .f32) (x6 : Vec F S64x64 .f32) (x7 : Vec F S1x64 .f32) (x8 : Vec F S64x64 .f32) (x9 : Vec F S1x64 .f32) : FVec F S64x512 .f32 :=
  k0_pay1
    (k0_pay6 (View.ld x0 (Rect.unit (s := S5000x128) ![0, 0] S1000x128.size inb_S5000x128_S1000x128_0_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0)) (View.ld x1 (Rect.unit (s := S5000x256) ![0, 0] S1000x256.size inb_S5000x256_S1000x256_0_0)))
    (k0_pay7 (k0_pay4 (View.ld x0 (Rect.unit (s := S5000x128) ![0, 0] S1000x128.size inb_S5000x128_S1000x128_0_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay5 (View.ld x2 (Rect.unit (s := S5000x256) ![0, 0] S1000x256.size inb_S5000x256_S1000x256_0_0))))
    (k0_pay11 (k0_pay8 (View.ld x0 (Rect.unit (s := S5000x128) ![1000, 0] S1000x128.size inb_S5000x128_S1000x128_1000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay9 (View.ld x1 (Rect.unit (s := S5000x256) ![1000, 0] S1000x256.size inb_S5000x256_S1000x256_1000_0))) (constant S64x256 .f32 0x00000000#32))
    (k0_pay12 (k0_pay8 (View.ld x0 (Rect.unit (s := S5000x128) ![1000, 0] S1000x128.size inb_S5000x128_S1000x128_1000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay10 (View.ld x2 (Rect.unit (s := S5000x256) ![1000, 0] S1000x256.size inb_S5000x256_S1000x256_1000_0))))
    (k0_pay16 (k0_pay13 (View.ld x0 (Rect.unit (s := S5000x128) ![2000, 0] S1000x128.size inb_S5000x128_S1000x128_2000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay14 (View.ld x1 (Rect.unit (s := S5000x256) ![2000, 0] S1000x256.size inb_S5000x256_S1000x256_2000_0))))
    (k0_pay17 (k0_pay13 (View.ld x0 (Rect.unit (s := S5000x128) ![2000, 0] S1000x128.size inb_S5000x128_S1000x128_2000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay15 (View.ld x2 (Rect.unit (s := S5000x256) ![2000, 0] S1000x256.size inb_S5000x256_S1000x256_2000_0))))
    (k0_pay20 (k0_pay18 (View.ld x0 (Rect.unit (s := S5000x128) ![3000, 0] S1000x128.size inb_S5000x128_S1000x128_3000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay19 (View.ld x1 (Rect.unit (s := S5000x256) ![3000, 0] S1000x256.size inb_S5000x256_S1000x256_3000_0))))
    (k0_pay21 (k0_pay18 (View.ld x0 (Rect.unit (s := S5000x128) ![3000, 0] S1000x128.size inb_S5000x128_S1000x128_3000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (View.ld x2 (Rect.unit (s := S5000x256) ![3000, 0] S1000x256.size inb_S5000x256_S1000x256_3000_0)))
    (k0_pay22 (View.ld x0 (Rect.unit (s := S5000x128) ![4000, 0] S1000x128.size inb_S5000x128_S1000x128_4000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0)))
    (k0_pay23 (View.ld x1 (Rect.unit (s := S5000x256) ![4000, 0] S1000x256.size inb_S5000x256_S1000x256_4000_0)))
    (View.ld x2 (Rect.unit (s := S5000x256) ![4000, 0] S1000x256.size inb_S5000x256_S1000x256_4000_0))

/-- The running sums `xo` plus the point's partial sums. -/
def step (x0 : Vec F S5000x128 .f32) (x1 x2 : Vec F S5000x256 .f32) (x4 : Vec F S64x128 .f32) (x5 : Vec F S1x64 .f32) (x6 : Vec F S64x64 .f32) (x7 : Vec F S1x64 .f32) (x8 : Vec F S64x64 .f32) (x9 : Vec F S1x64 .f32) (xo : Vec F S64x512 .f32) : FVec F S64x512 .f32 :=
  k0_pay2
    (k0_pay6 (View.ld x0 (Rect.unit (s := S5000x128) ![0, 0] S1000x128.size inb_S5000x128_S1000x128_0_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0)) (View.ld x1 (Rect.unit (s := S5000x256) ![0, 0] S1000x256.size inb_S5000x256_S1000x256_0_0)))
    (k0_pay7 (k0_pay4 (View.ld x0 (Rect.unit (s := S5000x128) ![0, 0] S1000x128.size inb_S5000x128_S1000x128_0_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay5 (View.ld x2 (Rect.unit (s := S5000x256) ![0, 0] S1000x256.size inb_S5000x256_S1000x256_0_0))))
    (k0_pay11 (k0_pay8 (View.ld x0 (Rect.unit (s := S5000x128) ![1000, 0] S1000x128.size inb_S5000x128_S1000x128_1000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay9 (View.ld x1 (Rect.unit (s := S5000x256) ![1000, 0] S1000x256.size inb_S5000x256_S1000x256_1000_0))) (constant S64x256 .f32 0x00000000#32))
    (k0_pay12 (k0_pay8 (View.ld x0 (Rect.unit (s := S5000x128) ![1000, 0] S1000x128.size inb_S5000x128_S1000x128_1000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay10 (View.ld x2 (Rect.unit (s := S5000x256) ![1000, 0] S1000x256.size inb_S5000x256_S1000x256_1000_0))))
    (k0_pay16 (k0_pay13 (View.ld x0 (Rect.unit (s := S5000x128) ![2000, 0] S1000x128.size inb_S5000x128_S1000x128_2000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay14 (View.ld x1 (Rect.unit (s := S5000x256) ![2000, 0] S1000x256.size inb_S5000x256_S1000x256_2000_0))))
    (k0_pay17 (k0_pay13 (View.ld x0 (Rect.unit (s := S5000x128) ![2000, 0] S1000x128.size inb_S5000x128_S1000x128_2000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay15 (View.ld x2 (Rect.unit (s := S5000x256) ![2000, 0] S1000x256.size inb_S5000x256_S1000x256_2000_0))))
    (k0_pay20 (k0_pay18 (View.ld x0 (Rect.unit (s := S5000x128) ![3000, 0] S1000x128.size inb_S5000x128_S1000x128_3000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (k0_pay19 (View.ld x1 (Rect.unit (s := S5000x256) ![3000, 0] S1000x256.size inb_S5000x256_S1000x256_3000_0))))
    (k0_pay21 (k0_pay18 (View.ld x0 (Rect.unit (s := S5000x128) ![3000, 0] S1000x128.size inb_S5000x128_S1000x128_3000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0))) (View.ld x2 (Rect.unit (s := S5000x256) ![3000, 0] S1000x256.size inb_S5000x256_S1000x256_3000_0)))
    (k0_pay22 (View.ld x0 (Rect.unit (s := S5000x128) ![4000, 0] S1000x128.size inb_S5000x128_S1000x128_4000_0)) (View.ld x4 (Rect.unit (s := S64x128) ![0, 0] S64x128.size inb_S64x128_S64x128_0_0)) (View.ld x5 (Rect.unit (s := S1x64) ![0, 0] S1x64.size inb_S1x64_S1x64_0_0)) (View.ld x6 (Rect.unit (s := S64x64) ![0, 0] S64x64.size inb_S64x64_S64x64_0_0)) (View.ld x7 (Rect.unit (s := S1x64) ![0, 0] S1x64.size inb_S1x64_S1x64_0_0)) (View.ld x8 (Rect.unit (s := S64x64) ![0, 0] S64x64.size inb_S64x64_S64x64_0_0)) (View.ld x9 (Rect.unit (s := S1x64) ![0, 0] S1x64.size inb_S1x64_S1x64_0_0)))
    (k0_pay23 (View.ld x1 (Rect.unit (s := S5000x256) ![4000, 0] S1000x256.size inb_S5000x256_S1000x256_4000_0)))
    (View.ld x2 (Rect.unit (s := S5000x256) ![4000, 0] S1000x256.size inb_S5000x256_S1000x256_4000_0))
    (View.ld xo (Rect.unit (s := S64x512) ![0, 0] S64x512.size inb_S64x512_S64x512_0_0))

/-- The global layers on the final sums `s` and the product with the running-summary matrix. -/
def epi (s : Vec F S64x512 .f32) (x10 : Vec F S64x64 .f32) (x11 : Vec F S1x64 .f32) (x12 : Vec F S64x64 .f32) (x13 : Vec F S1x64 .f32)
    (x14 : Vec F S64x64 .f32) (x15 : Vec F S1x64 .f32) (x3 : Vec F S32x512 .f32) : FVec F S32x64 .f32 :=
  k0_pay3 s (View.ld x10 (Rect.unit (s := S64x64) ![0, 0] S64x64.size inb_S64x64_S64x64_0_0)) (View.ld x11 (Rect.unit (s := S1x64) ![0, 0] S1x64.size inb_S1x64_S1x64_0_0)) (View.ld x12 (Rect.unit (s := S64x64) ![0, 0] S64x64.size inb_S64x64_S64x64_0_0)) (View.ld x13 (Rect.unit (s := S1x64) ![0, 0] S1x64.size inb_S1x64_S1x64_0_0))
    (View.ld x14 (Rect.unit (s := S64x64) ![0, 0] S64x64.size inb_S64x64_S64x64_0_0)) (View.ld x15 (Rect.unit (s := S1x64) ![0, 0] S1x64.size inb_S1x64_S1x64_0_0)) (View.ld x3 (Rect.unit (s := S32x512) ![0, 0] S32x512.size inb_S32x512_S32x512_0_0))

end Cert.KernelIdeal.Body

end
-- ==== Proof.PiecesI.lean ====
/-
  What each case's run leaves in the result buffers, as the pure terms of the blocks: the one whole-block
  store each buffer receives is its payload, read over the loads' rectangles; and so the accumulator's
  recursion over the grid points and the second result at the last point in those terms.
-/
import proofs.«152476_g41686952575157_cont_8to1_b_1251_30_alg».proof.Proof.FrameI
import proofs.«152476_g41686952575157_cont_8to1_b_1251_30_alg».proof.Proof.PartI
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → ℕ) = fun _ => 0 := by
  funext a; match a with | ⟨0, _⟩ => rfl | ⟨1, _⟩ => rfl

/-- The first point leaves the point's partial sums in the accumulator's buffer. -/
theorem outA16_eq (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : cond0_0 i) (hc1 : ¬cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) :
    out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 = part x0 x1 x2 x4 x5 x6 x7 x8 x9 := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15)]
  unfold kernelRun0_A
  dsimp only
  sl_unfold_words
  rw [View.canon_unit_zero (S := S64x512) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  unfold part
  rfl

/-- A middle point leaves the running sums plus the point's partial sums. -/
theorem outB16_eq (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : ¬cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) :
    out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16 = step x0 x1 x2 x4 x5 x6 x7 x8 x9 xo16 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16)]
  unfold kernelRun0_B
  dsimp only
  sl_unfold_words
  rw [View.canon_unit_zero (S := S64x512) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  unfold step
  rfl

/-- So does the last point, -/
theorem outC16_eq (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) :
    out0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16 = step x0 x1 x2 x4 x5 x6 x7 x8 x9 xo16 := by
  unfold out0_C_16
  rw [View.read_writes_eq_canon _ _ _ (cover0_C_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16)]
  unfold kernelRun0_C
  dsimp only
  sl_unfold_words
  rw [View.canon_unit_zero (S := S64x512) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  unfold step
  rfl

/-- and in the second result's buffer the global layers of those final sums. -/
theorem outC17_eq (c : Dev nD) (i : grid0.Coords) (arg1 : Memref sig .tc .vmem S5000x128 .f32) (harg1 : arg1.IsWhole) (arg2 : Memref sig .tc .vmem S5000x256 .f32) (harg2 : arg2.IsWhole) (arg3 : Memref sig .tc .vmem S5000x256 .f32) (harg3 : arg3.IsWhole) (arg4 : Memref sig .tc .vmem S32x512 .f32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S64x64 .f32) (harg11 : arg11.IsWhole) (arg12 : Memref sig .tc .vmem S1x64 .f32) (harg12 : arg12.IsWhole) (arg13 : Memref sig .tc .vmem S64x64 .f32) (harg13 : arg13.IsWhole) (arg14 : Memref sig .tc .vmem S1x64 .f32) (harg14 : arg14.IsWhole) (arg15 : Memref sig .tc .vmem S64x64 .f32) (harg15 : arg15.IsWhole) (arg16 : Memref sig .tc .vmem S1x64 .f32) (harg16 : arg16.IsWhole) (arg17 : Memref sig .tc .vmem S64x512 .f32) (harg17 : arg17.IsWhole) (arg18 : Memref sig .tc .vmem S32x64 .f32) (harg18 : arg18.IsWhole) (hc0 : ¬cond0_0 i) (hc1 : cond0_1 i) (hc2 : cond0_2 i)
    (x0 : Vec F S5000x128 .f32) (x1 : Vec F S5000x256 .f32) (x2 : Vec F S5000x256 .f32) (x3 : Vec F S32x512 .f32) (x4 : Vec F S64x128 .f32) (x5 : Vec F S1x64 .f32) (x6 : Vec F S64x64 .f32) (x7 : Vec F S1x64 .f32) (x8 : Vec F S64x64 .f32) (x9 : Vec F S1x64 .f32) (x10 : Vec F S64x64 .f32) (x11 : Vec F S1x64 .f32) (x12 : Vec F S64x64 .f32) (x13 : Vec F S1x64 .f32) (x14 : Vec F S64x64 .f32) (x15 : Vec F S1x64 .f32) (xo16 : Vec F S64x512 .f32) :
    out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16 = epi (step x0 x1 x2 x4 x5 x6 x7 x8 x9 xo16) x10 x11 x12 x13 x14 x15 x3 := by
  unfold out0_C_17
  rw [View.read_writes_eq_canon _ _ _ (cover0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 hc2 x0 x1 x2 x3 x4 x5 x6 x7 x8 x9 x10 x11 x12 x13 x14 x15 xo16)]
  unfold kernelRun0_C
  dsimp only
  sl_unfold_words
  rw [View.canon_unit_zero (S := S32x64) hz, View.readCov_unit_zero (S := S64x512) _ hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread]
  unfold epi step
  rfl

variable (m : (ℓ : Loc nD τ sig) → Buf (Elt F) ℓ)

/-- The accumulator after the first point: the point's partial sums of its blocks. -/
theorem acc_zero (c : Dev nD) (t : Fin cfg0.N) (h0 : t.val = 0) :
    acc m c t.val t.isLt = part (iblk m c 0 t) (iblk m c 1 t) (iblk m c 2 t) (iblk m c 4 t) (iblk m c 5 t) (iblk m c 6 t) (iblk m c 7 t) (iblk m c 8 t) (iblk m c 9 t) := by
  have hN := lt10 t.isLt
  rw [acc_A m c t (by omega) ((hcond0_0 t).mpr (by omega)) (fun h => by have := (hcond0_1 t).mp h; omega) (fun h => by have := (hcond0_2 t).mp h; omega)]
  exact outA16_eq ..

/-- The accumulator after a later point: what the point before left plus the point's partial sums. -/
theorem acc_succ (c : Dev nD) (t : Fin cfg0.N) (h1 : 1 ≤ t.val) :
    acc m c t.val t.isLt = step (iblk m c 0 t) (iblk m c 1 t) (iblk m c 2 t) (iblk m c 4 t) (iblk m c 5 t) (iblk m c 6 t) (iblk m c 7 t) (iblk m c 8 t) (iblk m c 9 t) (acc m c (t.val - 1) (predlt t)) := by
  have hN := lt10 t.isLt
  have hc0 : ¬cond0_0 (grid0.coords t) := fun h => by have := (hcond0_0 t).mp h; omega
  have hc1 : cond0_1 (grid0.coords t) := (hcond0_1 t).mpr h1
  by_cases h2 : t.val % 10 = 9
  · rw [acc_C m c t h1 h2 hc0 hc1 ((hcond0_2 t).mpr h2)]
    exact outC16_eq ..
  · rw [acc_B m c t h1 h2 hc0 hc1 (fun h => h2 ((hcond0_2 t).mp h))]
    exact outB16_eq ..

/-- The second result after the last point: the global layers of the accumulator's final contents. -/
theorem res2_last (c : Dev nD) (t : Fin cfg0.N) (h9 : t.val = 9) :
    res2 m c t = epi (acc m c t.val t.isLt) (iblk m c 10 t) (iblk m c 11 t) (iblk m c 12 t) (iblk m c 13 t) (iblk m c 14 t) (iblk m c 15 t) (iblk m c 3 t) := by
  have hc0 : ¬cond0_0 (grid0.coords t) := fun h => by have := (hcond0_0 t).mp h; omega
  have hc1 : cond0_1 (grid0.coords t) := (hcond0_1 t).mpr (by omega)
  have hc2 : cond0_2 (grid0.coords t) := (hcond0_2 t).mpr (by omega)
  rw [res2_C m c t (by omega) (by omega) hc0 hc1 hc2, acc_succ m c t (by omega)]
  exact outC17_eq ..

end Cert.KernelIdeal.Body

end
-- ==== Proof.Spec.lean ====
/-
  What both programs compute, as functions of the argument arrays over the extended reals.

  A node's three dense layers with the leaky activation max(v, c·v), c the shared slope word; the
  per-graph summary s1(d, j) = Σ_n S(d, n) · node(X n)(j) over all 50000 nodes; three more layers on
  each summary row; and s2(q, j) = Σ_d R(q, d) · g(d, j).
-/
import Idealize.ShloMosaic.PureOps.Ideal
import Idealize.ShloMosaic.Lib.ValueIdx

noncomputable section

namespace Cert.Spec

open Idealize.ShloMosaic
open scoped BigOperators

/-- The activation's slope: the one f32 word both programs carry. -/
def slope : EReal := Ideal.ofBits .f32 0x3C23D70A#32

/-- The leaky activation in the form max(v, c·v). -/
def act (v : EReal) : EReal := max v (slope * v)

/-- One dense layer on one row: act(Σ_k x(k)·W(k, j) + b(j)). -/
def layer {K N : Nat} (W : Fin K → Fin N → EReal) (b : Fin N → EReal) (x : Fin K → EReal) (j : Fin N) : EReal :=
  act ((∑ k : Fin K, x k * W k j) + b j)

/-- The three node layers on one input row. -/
def node (W1 : Fin 128 → Fin 64 → EReal) (b1 : Fin 64 → EReal) (W2 : Fin 64 → Fin 64 → EReal) (b2 : Fin 64 → EReal)
    (W3 : Fin 64 → Fin 64 → EReal) (b3 : Fin 64 → EReal) (x : Fin 128 → EReal) : Fin 64 → EReal :=
  layer W3 b3 (layer W2 b2 (layer W1 b1 x))

/-- The per-graph summary: row d of S against every node's features. -/
def s1 (S : Fin 512 → Fin 50000 → EReal) (X : Fin 50000 → Fin 128 → EReal)
    (W1 : Fin 128 → Fin 64 → EReal) (b1 : Fin 64 → EReal) (W2 : Fin 64 → Fin 64 → EReal) (b2 : Fin 64 → EReal)
    (W3 : Fin 64 → Fin 64 → EReal) (b3 : Fin 64 → EReal) (d : Fin 512) (j : Fin 64) : EReal :=
  ∑ n : Fin 50000, S d n * node W1 b1 W2 b2 W3 b3 (X n) j

/-- The three global layers on one summary row. -/
def glob (W4 : Fin 64 → Fin 64 → EReal) (b4 : Fin 64 → EReal) (W5 : Fin 64 → Fin 64 → EReal) (b5 : Fin 64 → EReal)
    (W6 : Fin 64 → Fin 64 → EReal) (b6 : Fin 64 → EReal) (x : Fin 64 → EReal) : Fin 64 → EReal :=
  layer W6 b6 (layer W5 b5 (layer W4 b4 x))

/-- The running summaries: row q of R against the global features of every graph. -/
def s2 (R : Fin 32 → Fin 512 → EReal) (v : Fin 512 → Fin 64 → EReal)
    (W4 : Fin 64 → Fin 64 → EReal) (b4 : Fin 64 → EReal) (W5 : Fin 64 → Fin 64 → EReal) (b5 : Fin 64 → EReal)
    (W6 : Fin 64 → Fin 64 → EReal) (b6 : Fin 64 → EReal) (q : Fin 32) (j : Fin 64) : EReal :=
  ∑ d : Fin 512, R q d * glob W4 b4 W5 b5 W6 b6 (v d) j

end Cert.Spec

end
-- ==== Proof.LibDot.lean ====
/-
  A plain matrix product read at an index, at the ideal values: for the dimension numbers
  "contract the left operand's axis 1 with the right operand's axis 0, no batch axis" — the record every
  `jnp.dot` / `x @ y` of two matrices prints, whatever its name — the host's `dot_general` and the kernel's
  matrix-unit product into a zero accumulator are both, at (a, b), the sum over c of A (a, c) * B (c, b).
-/
import Idealize.ShloMosaic.Lib.ValueIdx
import Idealize.ShloMosaic.PureOps.Ideal.Laws

noncomputable section

namespace Cert.LibDot

open Idealize.ShloMosaic Idealize.ShloMosaic.ValueIdx
open scoped BigOperators

variable {m k n : Nat} {φ₁ φ₂ : FTy}

/-- The record: left contracting axis 1, right contracting axis 0, kept axes 0 and 1, no batch axis. -/
abbrev dims (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

theorem lhsIdx_eq (w : DotDims.WF ⟨2, ![m, k]⟩ ⟨2, ![k, n]⟩ ⟨2, ![m, n]⟩ [1] [0] [0] [1] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![k, n]⟩ ⟨2, ![m, n]⟩ [1] [0] [0] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The host's product of two matrices at (a, b): the sum over the contracted coordinate. -/
theorem dotGeneral_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    Host.dotGeneral (dims w) prec A B (ix2 a b) = ∑ c : Fin k, A (ix2 a c) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

/-- The matrix unit's product into a zero accumulator at (a, b): the same sum. -/
theorem matmul_zero_apply (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

end Cert.LibDot
-- ==== Proof.LibGram.lean ====
/-
  A matrix times the transpose of a matrix, read at an index, at the ideal values: for the dimension numbers
  "contract the left operand's axis 1 with the right operand's axis 1, no batch axis" — the record a product
  A · Bᵀ of an m × k and an n × k matrix prints — the matrix unit's product into a zero accumulator and the
  host's `dot_general` are both, at (a, b), the sum over c of A (a, c) * B (b, c). With B = A it is the Gram
  matrix of the rows of A.
-/
import Idealize.ShloMosaic.Lib.ValueIdx
import Idealize.ShloMosaic.PureOps.Ideal.Laws

noncomputable section

namespace Cert.LibGram

open Idealize.ShloMosaic Idealize.ShloMosaic.ValueIdx
open scoped BigOperators

variable {m k n : Nat} {φ₁ φ₂ : FTy}

/-- The record: both contracting axes are axis 1, the kept axes are each operand's axis 0, no batch axis. -/
abbrev dims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

theorem lhsIdx_eq (w : DotDims.WF ⟨2, ![m, k]⟩ ⟨2, ![n, k]⟩ ⟨2, ![m, n]⟩ [1] [1] [0] [0] [] [])
    (a : Fin m) (b : Fin n) (c : Fin k) :
    (dims w).lhsIdx (ix2 a b) ((contrEquiv1 (dims w) k rfl rfl).symm c) = ix2 a c := by
  have c2 := contrEquiv1_symm_val (dims w) k rfl rfl c
  funext ax; apply Fin.ext
  match ax with
  | ⟨0, _⟩ => simp [DotDims.lhsIdx]; rfl
  | ⟨1, _⟩ => simp [DotDims.lhsIdx]; exact c2

theorem rhsIdx_eq (w : DotDims.WF ⟨2, ![m, k]⟩ ⟨2, ![n, k]⟩ ⟨2, ![m, n]⟩ [1] [1] [0] [0] [] [])
    (a : Fin m) (b : Fin n) (c : Fin k) :
    (dims w).rhsIdx (ix2 a b) ((contrEquiv1 (dims w) k rfl rfl).symm c) = ix2 b c := by
  have c2 := contrEquiv1_symm_val (dims w) k rfl rfl c
  funext ax; apply Fin.ext
  match ax with
  | ⟨0, _⟩ => simp [DotDims.rhsIdx]; rfl
  | ⟨1, _⟩ => simp [DotDims.rhsIdx]; exact c2

/-- The matrix unit's product A · Bᵀ into a zero accumulator at (a, b): the sum over the shared column index. -/
theorem matmul_zero_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    matmul (dims w) prec A B (constant ⟨2, ![m, n]⟩ .f32 0x00000000#32) (ix2 a b) = ∑ c : Fin k, A (ix2 a c) * B (ix2 b c) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The host's product A · Bᵀ at (a, b): the same sum. -/
theorem dotGeneral_apply (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (a : Fin m) (b : Fin n) :
    Host.dotGeneral (dims w) prec A B (ix2 a b) = ∑ c : Fin k, A (ix2 a c) * B (ix2 b c) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibGram
-- ==== Proof.LibTDot.lean ====
/-
  The transpose of a matrix times a matrix, read at an index, at the ideal values: for the dimension numbers
  "contract the left operand's axis 0 with the right operand's axis 0, no batch axis" — the record a product
  Aᵀ · B of a k × m and a k × n matrix prints — the matrix unit's product into a zero accumulator and the
  host's `dot_general` are both, at (a, b), the sum over c of A (c, a) * B (c, b).
-/
import Idealize.ShloMosaic.Lib.ValueIdx
import Idealize.ShloMosaic.PureOps.Ideal.Laws

noncomputable section

namespace Cert.LibTDot

open Idealize.ShloMosaic Idealize.ShloMosaic.ValueIdx
open scoped BigOperators

variable {m k n : Nat} {φ₁ φ₂ : FTy}

/-- The record: both contracting axes are axis 0, the kept axes are each operand's axis 1, no batch axis. -/
abbrev dims (w : DotDims.WF ⟨2, ![k, m]⟩ ⟨2, ![k, n]⟩ ⟨2, ![m, n]⟩ [0] [0] [1] [1] [] []) :
    DotDims ⟨2, ![k, m]⟩ ⟨2, ![k, n]⟩ ⟨2, ![m, n]⟩ := ⟨[0], [0], [1], [1], [], [], w⟩

theorem lhsIdx_eq (w : DotDims.WF ⟨2, ![k, m]⟩ ⟨2, ![k, n]⟩ ⟨2, ![m, n]⟩ [0] [0] [1] [1] [] [])
    (a : Fin m) (b : Fin n) (c : Fin k) :
    (dims w).lhsIdx (ix2 a b) ((contrEquiv1 (dims w) k rfl rfl).symm c) = ix2 c a := by
  have c2 := contrEquiv1_symm_val (dims w) k rfl rfl c
  funext ax; apply Fin.ext
  match ax with
  | ⟨0, _⟩ => simp [DotDims.lhsIdx]; exact c2
  | ⟨1, _⟩ => simp [DotDims.lhsIdx]; rfl

theorem rhsIdx_eq (w : DotDims.WF ⟨2, ![k, m]⟩ ⟨2, ![k, n]⟩ ⟨2, ![m, n]⟩ [0] [0] [1] [1] [] [])
    (a : Fin m) (b : Fin n) (c : Fin k) :
    (dims w).rhsIdx (ix2 a b) ((contrEquiv1 (dims w) k rfl rfl).symm c) = ix2 c b := by
  have c2 := contrEquiv1_symm_val (dims w) k rfl rfl c
  funext ax; apply Fin.ext
  match ax with
  | ⟨0, _⟩ => simp [DotDims.rhsIdx]; exact c2
  | ⟨1, _⟩ => simp [DotDims.rhsIdx]; rfl

/-- The matrix unit's product Aᵀ · B into a zero accumulator at (a, b): the sum over the shared row index. -/
theorem matmul_zero_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    matmul (dims w) prec A B (constant ⟨2, ![m, n]⟩ .f32 0x00000000#32) (ix2 a b) = ∑ c : Fin k, A (ix2 c a) * B (ix2 c b) := by
  show FloatOps.matmul _ prec A B _ (ix2 a b) = _
  rw [Ideal.matmul_constant_zero_apply, ← Equiv.sum_comp (contrEquiv1 (dims w) k rfl rfl).symm]
  refine Finset.sum_congr rfl fun c _ => ?_
  rw [lhsIdx_eq, rhsIdx_eq]

/-- The matrix unit's product Aᵀ · B added to an accumulator, at (a, b): the accumulator's entry plus the sum. -/
theorem matmul_acc_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (acc : FVec Ideal ⟨2, ![m, n]⟩ .f32) (a : Fin m) (b : Fin n) :
    matmul (dims w) prec A B acc (ix2 a b) = acc (ix2 a b) + ∑ c : Fin k, A (ix2 c a) * B (ix2 c b) := by
  show FloatOps.matmul _ prec A B _ (ix2 a b) = _
  rw [Ideal.matmul_apply, ← Equiv.sum_comp (contrEquiv1 (dims w) k rfl rfl).symm]
  refine congrArg (acc (ix2 a b) + ·) (Finset.sum_congr rfl fun c _ => ?_)
  rw [lhsIdx_eq, rhsIdx_eq]

/-- The host's product Aᵀ · B at (a, b): the same sum. -/
theorem dotGeneral_apply (w : DotDims.WF ⟨2, ![k, m]⟩ ⟨2, ![k, n]⟩ ⟨2, ![m, n]⟩ [0] [0] [1] [1] [] [])
    (prec : Option ContractPrecision) (A : FVec Ideal ⟨2, ![k, m]⟩ φ₁) (B : FVec Ideal ⟨2, ![k, n]⟩ φ₂)
    (a : Fin m) (b : Fin n) :
    Host.dotGeneral (dims w) prec A B (ix2 a b) = ∑ c : Fin k, A (ix2 c a) * B (ix2 c b) := by
  show FloatOps.dotGeneral _ prec _ A B (ix2 a b) = _
  rw [Ideal.dotGeneral_apply, ← Equiv.sum_comp (contrEquiv1 (dims w) k rfl rfl).symm]
  refine Finset.sum_congr rfl fun c _ => ?_
  rw [lhsIdx_eq, rhsIdx_eq]

end Cert.LibTDot
-- ==== Proof.LibConcatCols.lean ====
/-
  Two matrices with the same number of rows laid side by side (a concatenation along axis 1) read at an entry:
  entry (p, c) of the joined n × t matrix is entry (p, c) of the left n × a piece when c < a, and entry (p, c - a)
  of the right n × b piece otherwise (a + b = t). A consequence: if row p of two pieces agrees, column by column,
  with row p' of two other pieces of the same widths, then row p of the first join is row p' of the second.
-/
import Idealize.ShloMosaic.Lib.Pipeline.Value
import Idealize.ShloMosaic.Lib.ValueIdx

noncomputable section

namespace Cert.LibConcatCols

open Idealize.ShloMosaic Idealize.ShloMosaic.ValueIdx

variable {α : Type} {n a b t : Nat}

/-- Entry (p, c) of two pieces joined along the columns: the left piece's entry when c is one of its columns,
    otherwise the right piece's entry, a columns further left. -/
theorem concat_cols_apply (hab : a + b = t)
    (x : (⟨2, ![n, a]⟩ : Shape).Idx → α) (y : (⟨2, ![n, b]⟩ : Shape).Idx → α)
    (h : Shape.Concatenates [(⟨2, ![n, a]⟩ : Shape), ⟨2, ![n, b]⟩] ⟨2, ![n, t]⟩ 1) (p : Fin n) (c : Fin t) :
    concatenate (⟨2, ![n, t]⟩ : Shape) 1 [⟨⟨2, ![n, a]⟩, x⟩, ⟨⟨2, ![n, b]⟩, y⟩] h (ix2 p c)
      = if hc : c.val < a then x (ix2 p ⟨c.val, hc⟩) else y (ix2 p ⟨c.val - a, by omega⟩) := by
  split
  · next hc =>
    exact concatenate_pair_apply_left (1 : Fin 2) x y h (ix2 p c) rfl (ix2 p ⟨c.val, hc⟩)
      (fun d => match d with | ⟨0, _⟩ => rfl | ⟨1, _⟩ => rfl)
  · next hc =>
    exact concatenate_pair_apply_right (1 : Fin 2) x y h (ix2 p c) rfl rfl (ix2 p ⟨c.val - a, by omega⟩)
      (fun d hd => match d, hd with
        | ⟨0, _⟩, _ => rfl
        | ⟨1, _⟩, hd => absurd rfl hd)
      (by show (c.val - a) + a = c.val; omega)

/-- Rows that agree piece by piece agree after the pieces are joined: if row p of x is row p' of x' and row p of y is
    row p' of y', then row p of [x | y] is row p' of [x' | y']. -/
theorem concat_cols_row_congr {n' : Nat} (hab : a + b = t)
    (x : (⟨2, ![n, a]⟩ : Shape).Idx → α) (y : (⟨2, ![n, b]⟩ : Shape).Idx → α)
    (x' : (⟨2, ![n', a]⟩ : Shape).Idx → α) (y' : (⟨2, ![n', b]⟩ : Shape).Idx → α)
    (h : Shape.Concatenates [(⟨2, ![n, a]⟩ : Shape), ⟨2, ![n, b]⟩] ⟨2, ![n, t]⟩ 1)
    (h' : Shape.Concatenates [(⟨2, ![n', a]⟩ : Shape), ⟨2, ![n', b]⟩] ⟨2, ![n', t]⟩ 1)
    (p : Fin n) (p' : Fin n')
    (hx : ∀ c : Fin a, x (ix2 p c) = x' (ix2 p' c)) (hy : ∀ c : Fin b, y (ix2 p c) = y' (ix2 p' c)) (c : Fin t) :
    concatenate (⟨2, ![n, t]⟩ : Shape) 1 [⟨⟨2, ![n, a]⟩, x⟩, ⟨⟨2, ![n, b]⟩, y⟩] h (ix2 p c)
      = concatenate (⟨2, ![n', t]⟩ : Shape) 1 [⟨⟨2, ![n', a]⟩, x'⟩, ⟨⟨2, ![n', b]⟩, y'⟩] h' (ix2 p' c) := by
  rw [concat_cols_apply hab, concat_cols_apply hab]
  split
  · exact hx _
  · exact hy _

end Cert.LibConcatCols
-- ==== Proof.Pay.lean ====
/-
  The kernel body's arithmetic read at an index, at the ideal values. Each pure value the body computes is a term over
  the vectors it loaded; here every such term is read at a coordinate: the three dense layers with the activation
  max(v, c · v) on a 1000-row sub-chunk are the specification's node layers on each row; a transposed-left product is
  the sum over the sub-chunk's rows; the block's 64 × 512 contribution is, column by column, the sum of the five
  sub-chunk products of the left or the right half; and the last grid step's term is the specification's running
  summaries over the transposed per-graph summaries.
-/
import proofs.«152476_g41686952575157_cont_8to1_b_1251_30_alg».proof.Proof.Gen.KernelIdeal.Skeleton
import proofs.«152476_g41686952575157_cont_8to1_b_1251_30_alg».proof.Proof.Spec
import proofs.«152476_g41686952575157_cont_8to1_b_1251_30_alg».proof.Proof.LibDot
import proofs.«152476_g41686952575157_cont_8to1_b_1251_30_alg».proof.Proof.LibGram
import proofs.«152476_g41686952575157_cont_8to1_b_1251_30_alg».proof.Proof.LibTDot
import proofs.«152476_g41686952575157_cont_8to1_b_1251_30_alg».proof.Proof.LibConcatCols
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen
open scoped BigOperators

/-- A matrix array by coordinates. -/
def mat {a b : Nat} (x : FVec Ideal ⟨2, ![a, b]⟩ .f32) : Fin a → Fin b → EReal := fun p q => x (ix2 p q)
/-- A one-row matrix array by its column coordinate. -/
def row {b : Nat} (x : FVec Ideal ⟨2, ![1, b]⟩ .f32) : Fin b → EReal := fun q => x (ix2 (0 : Fin 1) q)

/-- The activation as the kernel writes it, max(v, c · v) with the slope word broadcast, read at an index. -/
theorem act_read {s : Shape} (pre : FVec Ideal s .f32) (i : s.Idx) :
    maximumf pre (mulf (broadcast s (Scalar.ofBits (F := Ideal) .f32 0x3C23D70A#32)) pre) i = Spec.act (pre i) := rfl

/-- One dense layer on every row of an n × K array, the weights K × N (contract axis 1 with axis 0), the bias one row
    broadcast over the rows: at (r, j) it is the specification's layer on row r. -/
theorem layer_read {n K N : Nat} (w : DotDims.WF ⟨2, ![n, K]⟩ ⟨2, ![K, N]⟩ ⟨2, ![n, N]⟩ [1] [0] [0] [1] [] [])
    (hb : (⟨2, ![1, N]⟩ : Shape).Broadcasts ⟨2, ![n, N]⟩)
    (x : FVec Ideal ⟨2, ![n, K]⟩ .f32) (W : FVec Ideal ⟨2, ![K, N]⟩ .f32) (b : FVec Ideal ⟨2, ![1, N]⟩ .f32)
    (r : Fin n) (j : Fin N) :
    maximumf (addf (matmul (LibDot.dims w) none x W (constant ⟨2, ![n, N]⟩ .f32 0x00000000#32)) (broadcastTo ⟨2, ![n, N]⟩ b hb))
      (mulf (broadcast ⟨2, ![n, N]⟩ (Scalar.ofBits (F := Ideal) .f32 0x3C23D70A#32))
        (addf (matmul (LibDot.dims w) none x W (constant ⟨2, ![n, N]⟩ .f32 0x00000000#32)) (broadcastTo ⟨2, ![n, N]⟩ b hb))) (ix2 r j)
      = Spec.layer (mat W) (row b) (fun k => x (ix2 r k)) j := by
  refine (act_read _ _).trans ?_
  refine congrArg Spec.act ?_
  refine (addf_apply _ _ _).trans ?_
  exact congrArg₂ (· + ·) (LibDot.matmul_zero_apply w none x W r j) (broadcastTo_1b_ab_apply b hb r j)

/-- The same layer with the weights stored transposed, N × K (contract axis 1 with axis 1). -/
theorem layerT_read {n K N : Nat} (w : DotDims.WF ⟨2, ![n, K]⟩ ⟨2, ![N, K]⟩ ⟨2, ![n, N]⟩ [1] [1] [0] [0] [] [])
    (hb : (⟨2, ![1, N]⟩ : Shape).Broadcasts ⟨2, ![n, N]⟩)
    (x : FVec Ideal ⟨2, ![n, K]⟩ .f32) (W : FVec Ideal ⟨2, ![N, K]⟩ .f32) (b : FVec Ideal ⟨2, ![1, N]⟩ .f32)
    (r : Fin n) (j : Fin N) :
    maximumf (addf (matmul (LibGram.dims w) none x W (constant ⟨2, ![n, N]⟩ .f32 0x00000000#32)) (broadcastTo ⟨2, ![n, N]⟩ b hb))
      (mulf (broadcast ⟨2, ![n, N]⟩ (Scalar.ofBits (F := Ideal) .f32 0x3C23D70A#32))
        (addf (matmul (LibGram.dims w) none x W (constant ⟨2, ![n, N]⟩ .f32 0x00000000#32)) (broadcastTo ⟨2, ![n, N]⟩ b hb))) (ix2 r j)
      = Spec.layer (fun k j => W (ix2 j k)) (row b) (fun k => x (ix2 r k)) j := by
  refine (act_read _ _).trans ?_
  refine congrArg Spec.act ?_
  refine (addf_apply _ _ _).trans ?_
  exact congrArg₂ (· + ·) (LibGram.matmul_zero_apply w none x W r j) (broadcastTo_1b_ab_apply b hb r j)

/-- The three node layers on an n-row block of inputs (the first weights stored transposed), as the kernel's term. -/
def node3 {n : Nat} (w1 : DotDims.WF ⟨2, ![n, 128]⟩ ⟨2, ![64, 128]⟩ ⟨2, ![n, 64]⟩ [1] [1] [0] [0] [] [])
    (w2 : DotDims.WF ⟨2, ![n, 64]⟩ ⟨2, ![64, 64]⟩ ⟨2, ![n, 64]⟩ [1] [0] [0] [1] [] [])
    (hb : (⟨2, ![1, 64]⟩ : Shape).Broadcasts ⟨2, ![n, 64]⟩)
    (x : FVec Ideal ⟨2, ![n, 128]⟩ .f32) (W1 : FVec Ideal ⟨2, ![64, 128]⟩ .f32) (b1 : FVec Ideal ⟨2, ![1, 64]⟩ .f32)
    (W2 : FVec Ideal ⟨2, ![64, 64]⟩ .f32) (b2 : FVec Ideal ⟨2, ![1, 64]⟩ .f32)
    (W3 : FVec Ideal ⟨2, ![64, 64]⟩ .f32) (b3 : FVec Ideal ⟨2, ![1, 64]⟩ .f32) : FVec Ideal ⟨2, ![n, 64]⟩ .f32 :=
  let z : FVec Ideal ⟨2, ![n, 64]⟩ .f32 := constant ⟨2, ![n, 64]⟩ .f32 0x00000000#32
  let c : FVec Ideal ⟨2, ![n, 64]⟩ .f32 := broadcast ⟨2, ![n, 64]⟩ (Scalar.ofBits (F := Ideal) .f32 0x3C23D70A#32)
  let p1 := addf (matmul (LibGram.dims w1) none x W1 z) (broadcastTo ⟨2, ![n, 64]⟩ b1 hb)
  let a1 := maximumf p1 (mulf c p1)
  let p2 := addf (matmul (LibDot.dims w2) none a1 W2 z) (broadcastTo ⟨2, ![n, 64]⟩ b2 hb)
  let a2 := maximumf p2 (mulf c p2)
  let p3 := addf (matmul (LibDot.dims w2) none a2 W3 z) (broadcastTo ⟨2, ![n, 64]⟩ b3 hb)
  maximumf p3 (mulf c p3)

theorem node3_read {n : Nat} (w1 : DotDims.WF ⟨2, ![n, 128]⟩ ⟨2, ![64, 128]⟩ ⟨2, ![n, 64]⟩ [1] [1] [0] [0] [] [])
    (w2 : DotDims.WF ⟨2, ![n, 64]⟩ ⟨2, ![64, 64]⟩ ⟨2, ![n, 64]⟩ [1] [0] [0] [1] [] [])
    (hb : (⟨2, ![1, 64]⟩ : Shape).Broadcasts ⟨2, ![n, 64]⟩)
    (x : FVec Ideal ⟨2, ![n, 128]⟩ .f32) (W1 : FVec Ideal ⟨2, ![64, 128]⟩ .f32) (b1 : FVec Ideal ⟨2, ![1, 64]⟩ .f32)
    (W2 : FVec Ideal ⟨2, ![64, 64]⟩ .f32) (b2 : FVec Ideal ⟨2, ![1, 64]⟩ .f32)
    (W3 : FVec Ideal ⟨2, ![64, 64]⟩ .f32) (b3 : FVec Ideal ⟨2, ![1, 64]⟩ .f32) (r : Fin n) (j : Fin 64) :
    node3 w1 w2 hb x W1 b1 W2 b2 W3 b3 (ix2 r j)
      = Spec.node (fun k j => W1 (ix2 j k)) (row b1) (mat W2) (row b2) (mat W3) (row b3) (fun k => x (ix2 r k)) j := by
  unfold node3 Spec.node
  refine (layer_read w2 hb _ W3 b3 r j).trans ?_
  refine congrArg (fun f => Spec.layer (mat W3) (row b3) f j) (funext fun k2 => ?_)
  refine (layer_read w2 hb _ W2 b2 r k2).trans ?_
  refine congrArg (fun f => Spec.layer (mat W2) (row b2) f k2) (funext fun k1 => ?_)
  exact layerT_read w1 hb x W1 b1 r k1

/-- The node layers' term of one 1000-row sub-chunk is the three-layer term on that block. -/
theorem k0_pay4_eq (v0 : Vec Ideal S1000x128 .f32) (v1 : Vec Ideal S64x128 .f32) (v4 : Vec Ideal S1x64 .f32) (v11 : Vec Ideal S64x64 .f32) (v13 : Vec Ideal S1x64 .f32) (v20 : Vec Ideal S64x64 .f32) (v22 : Vec Ideal S1x64 .f32) :
    k0_pay4 (F := Ideal) v0 v1 v4 v11 v13 v20 v22
      = node3 Facts₀.dot_S1000x128_S64x128_S1000x64_1_1_0_0_n_n_wf Facts₀.dot_S1000x64_S64x64_S1000x64_1_0_0_1_n_n_wf Facts₀.broadcasts_S1x64_S1000x64 v0 v1 v4 v11 v13 v20 v22 := by
  unfold k0_pay4 node3
  simp only [shapeCast_self]
  rfl

/-- Read at (r, j): the specification's three node layers on input row r. -/
theorem k0_pay4_read (v0 : Vec Ideal S1000x128 .f32) (v1 : Vec Ideal S64x128 .f32) (v4 : Vec Ideal S1x64 .f32) (v11 : Vec Ideal S64x64 .f32) (v13 : Vec Ideal S1x64 .f32) (v20 : Vec Ideal S64x64 .f32) (v22 : Vec Ideal S1x64 .f32) (r : Fin 1000) (j : Fin 64) :
    k0_pay4 (F := Ideal) v0 v1 v4 v11 v13 v20 v22 (ix2 r j)
      = Spec.node (fun k j => v1 (ix2 j k)) (row v4) (mat v11) (row v13) (mat v20) (row v22) (fun k => v0 (ix2 r k)) j :=
  (congrFun (k0_pay4_eq v0 v1 v4 v11 v13 v20 v22) (ix2 r j)).trans (node3_read _ _ _ v0 v1 v4 v11 v13 v20 v22 r j)

/-- The node layers' term of one 1000-row sub-chunk is the three-layer term on that block. -/
theorem k0_pay8_eq (v35 : Vec Ideal S1000x128 .f32) (v36 : Vec Ideal S64x128 .f32) (v39 : Vec Ideal S1x64 .f32) (v46 : Vec Ideal S64x64 .f32) (v48 : Vec Ideal S1x64 .f32) (v55 : Vec Ideal S64x64 .f32) (v57 : Vec Ideal S1x64 .f32) :
    k0_pay8 (F := Ideal) v35 v36 v39 v46 v48 v55 v57
      = node3 Facts₀.dot_S1000x128_S64x128_S1000x64_1_1_0_0_n_n_wf Facts₀.dot_S1000x64_S64x64_S1000x64_1_0_0_1_n_n_wf Facts₀.broadcasts_S1x64_S1000x64 v35 v36 v39 v46 v48 v55 v57 := by
  unfold k0_pay8 node3
  simp only [shapeCast_self]
  rfl

/-- Read at (r, j): the specification's three node layers on input row r. -/
theorem k0_pay8_read (v35 : Vec Ideal S1000x128 .f32) (v36 : Vec Ideal S64x128 .f32) (v39 : Vec Ideal S1x64 .f32) (v46 : Vec Ideal S64x64 .f32) (v48 : Vec Ideal S1x64 .f32) (v55 : Vec Ideal S64x64 .f32) (v57 : Vec Ideal S1x64 .f32) (r : Fin 1000) (j : Fin 64) :
    k0_pay8 (F := Ideal) v35 v36 v39 v46 v48 v55 v57 (ix2 r j)
      = Spec.node (fun k j => v36 (ix2 j k)) (row v39) (mat v46) (row v48) (mat v55) (row v57) (fun k => v35 (ix2 r k)) j :=
  (congrFun (k0_pay8_eq v35 v36 v39 v46 v48 v55 v57) (ix2 r j)).trans (node3_read _ _ _ v35 v36 v39 v46 v48 v55 v57 r j)

/-- The node layers' term of one 1000-row sub-chunk is the three-layer term on that block. -/
theorem k0_pay13_eq (v70 : Vec Ideal S1000x128 .f32) (v71 : Vec Ideal S64x128 .f32) (v74 : Vec Ideal S1x64 .f32) (v81 : Vec Ideal S64x64 .f32) (v83 : Vec Ideal S1x64 .f32) (v90 : Vec Ideal S64x64 .f32) (v92 : Vec Ideal S1x64 .f32) :
    k0_pay13 (F := Ideal) v70 v71 v74 v81 v83 v90 v92
      = node3 Facts₀.dot_S1000x128_S64x128_S1000x64_1_1_0_0_n_n_wf Facts₀.dot_S1000x64_S64x64_S1000x64_1_0_0_1_n_n_wf Facts₀.broadcasts_S1x64_S1000x64 v70 v71 v74 v81 v83 v90 v92 := by
  unfold k0_pay13 node3
  simp only [shapeCast_self]
  rfl

/-- Read at (r, j): the specification's three node layers on input row r. -/
theorem k0_pay13_read (v70 : Vec Ideal S1000x128 .f32) (v71 : Vec Ideal S64x128 .f32) (v74 : Vec Ideal S1x64 .f32) (v81 : Vec Ideal S64x64 .f32) (v83 : Vec Ideal S1x64 .f32) (v90 : Vec Ideal S64x64 .f32) (v92 : Vec Ideal S1x64 .f32) (r : Fin 1000) (j : Fin 64) :
    k0_pay13 (F := Ideal) v70 v71 v74 v81 v83 v90 v92 (ix2 r j)
      = Spec.node (fun k j => v71 (ix2 j k)) (row v74) (mat v81) (row v83) (mat v90) (row v92) (fun k => v70 (ix2 r k)) j :=
  (congrFun (k0_pay13_eq v70 v71 v74 v81 v83 v90 v92) (ix2 r j)).trans (node3_read _ _ _ v70 v71 v74 v81 v83 v90 v92 r j)

/-- The node layers' term of one 1000-row sub-chunk is the three-layer term on that block. -/
theorem k0_pay18_eq (v105 : Vec Ideal S1000x128 .f32) (v106 : Vec Ideal S64x128 .f32) (v109 : Vec Ideal S1x64 .f32) (v116 : Vec Ideal S64x64 .f32) (v118 : Vec Ideal S1x64 .f32) (v125 : Vec Ideal S64x64 .f32) (v127 : Vec Ideal S1x64 .f32) :
    k0_pay18 (F := Ideal) v105 v106 v109 v116 v118 v125 v127
      = node3 Facts₀.dot_S1000x128_S64x128_S1000x64_1_1_0_0_n_n_wf Facts₀.dot_S1000x64_S64x64_S1000x64_1_0_0_1_n_n_wf Facts₀.broadcasts_S1x64_S1000x64 v105 v106 v109 v116 v118 v125 v127 := by
  unfold k0_pay18 node3
  simp only [shapeCast_self]
  rfl

/-- Read at (r, j): the specification's three node layers on input row r. -/
theorem k0_pay18_read (v105 : Vec Ideal S1000x128 .f32) (v106 : Vec Ideal S64x128 .f32) (v109 : Vec Ideal S1x64 .f32) (v116 : Vec Ideal S64x64 .f32) (v118 : Vec Ideal S1x64 .f32) (v125 : Vec Ideal S64x64 .f32) (v127 : Vec Ideal S1x64 .f32) (r : Fin 1000) (j : Fin 64) :
    k0_pay18 (F := Ideal) v105 v106 v109 v116 v118 v125 v127 (ix2 r j)
      = Spec.node (fun k j => v106 (ix2 j k)) (row v109) (mat v116) (row v118) (mat v125) (row v127) (fun k => v105 (ix2 r k)) j :=
  (congrFun (k0_pay18_eq v105 v106 v109 v116 v118 v125 v127) (ix2 r j)).trans (node3_read _ _ _ v105 v106 v109 v116 v118 v125 v127 r j)

/-- The node layers' term of one 1000-row sub-chunk is the three-layer term on that block. -/
theorem k0_pay22_eq (v140 : Vec Ideal S1000x128 .f32) (v141 : Vec Ideal S64x128 .f32) (v144 : Vec Ideal S1x64 .f32) (v151 : Vec Ideal S64x64 .f32) (v153 : Vec Ideal S1x64 .f32) (v160 : Vec Ideal S64x64 .f32) (v162 : Vec Ideal S1x64 .f32) :
    k0_pay22 (F := Ideal) v140 v141 v144 v151 v153 v160 v162
      = node3 Facts₀.dot_S1000x128_S64x128_S1000x64_1_1_0_0_n_n_wf Facts₀.dot_S1000x64_S64x64_S1000x64_1_0_0_1_n_n_wf Facts₀.broadcasts_S1x64_S1000x64 v140 v141 v144 v151 v153 v160 v162 := by
  unfold k0_pay22 node3
  simp only [shapeCast_self]
  rfl

/-- Read at (r, j): the specification's three node layers on input row r. -/
theorem k0_pay22_read (v140 : Vec Ideal S1000x128 .f32) (v141 : Vec Ideal S64x128 .f32) (v144 : Vec Ideal S1x64 .f32) (v151 : Vec Ideal S64x64 .f32) (v153 : Vec Ideal S1x64 .f32) (v160 : Vec Ideal S64x64 .f32) (v162 : Vec Ideal S1x64 .f32) (r : Fin 1000) (j : Fin 64) :
    k0_pay22 (F := Ideal) v140 v141 v144 v151 v153 v160 v162 (ix2 r j)
      = Spec.node (fun k j => v141 (ix2 j k)) (row v144) (mat v151) (row v153) (mat v160) (row v162) (fun k => v140 (ix2 r k)) j :=
  (congrFun (k0_pay22_eq v140 v141 v144 v151 v153 v160 v162) (ix2 r j)).trans (node3_read _ _ _ v140 v141 v144 v151 v153 v160 v162 r j)

/-! ## The transposed-left products -/

/-- A 1000 × 64 block's transpose times a 1000 × 256 block, into the zero accumulator, at (j, d). -/
theorem tdot_read (A : FVec Ideal S1000x64 .f32) (B : FVec Ideal S1000x256 .f32) (j : Fin 64) (d : Fin 256) :
    matmul dot_S1000x64_S1000x256_S64x256_0_0_1_1_n_n none A B (constant S64x256 .f32 0x00000000#32) (ix2 j d)
      = ∑ r : Fin 1000, A (ix2 r j) * B (ix2 r d) :=
  LibTDot.matmul_zero_apply Facts₀.dot_S1000x64_S1000x256_S64x256_0_0_1_1_n_n_wf none A B j d

/-- The same product added to an accumulator. -/
theorem tdot_acc_read (A : FVec Ideal S1000x64 .f32) (B : FVec Ideal S1000x256 .f32) (acc : FVec Ideal S64x256 .f32) (j : Fin 64) (d : Fin 256) :
    matmul dot_S1000x64_S1000x256_S64x256_0_0_1_1_n_n none A B acc (ix2 j d)
      = acc (ix2 j d) + ∑ r : Fin 1000, A (ix2 r j) * B (ix2 r d) :=
  LibTDot.matmul_acc_apply Facts₀.dot_S1000x64_S1000x256_S64x256_0_0_1_1_n_n_wf none A B acc j d

theorem k0_pay7_read (v28 : FVec Ideal S1000x64 .f32) (v32 : FVec Ideal S1000x256 .f32) (j : Fin 64) (d : Fin 256) :
    k0_pay7 (F := Ideal) v28 v32 (ix2 j d) = ∑ r : Fin 1000, v28 (ix2 r j) * v32 (ix2 r d) :=
  tdot_read v28 v32 j d

theorem k0_pay12_read (v63 : FVec Ideal S1000x64 .f32) (v67 : FVec Ideal S1000x256 .f32) (j : Fin 64) (d : Fin 256) :
    k0_pay12 (F := Ideal) v63 v67 (ix2 j d) = ∑ r : Fin 1000, v63 (ix2 r j) * v67 (ix2 r d) :=
  tdot_read v63 v67 j d

theorem k0_pay16_read (v98 : FVec Ideal S1000x64 .f32) (v100 : FVec Ideal S1000x256 .f32) (j : Fin 64) (d : Fin 256) :
    k0_pay16 (F := Ideal) v98 v100 (ix2 j d) = ∑ r : Fin 1000, v98 (ix2 r j) * v100 (ix2 r d) :=
  tdot_read v98 v100 j d

theorem k0_pay17_read (v98 : FVec Ideal S1000x64 .f32) (v102 : FVec Ideal S1000x256 .f32) (j : Fin 64) (d : Fin 256) :
    k0_pay17 (F := Ideal) v98 v102 (ix2 j d) = ∑ r : Fin 1000, v98 (ix2 r j) * v102 (ix2 r d) :=
  tdot_read v98 v102 j d

theorem k0_pay20_read (v133 : FVec Ideal S1000x64 .f32) (v135 : FVec Ideal S1000x256 .f32) (j : Fin 64) (d : Fin 256) :
    k0_pay20 (F := Ideal) v133 v135 (ix2 j d) = ∑ r : Fin 1000, v133 (ix2 r j) * v135 (ix2 r d) :=
  tdot_read v133 v135 j d

/-- This product's accumulator is an argument: the accumulator's entry plus the sum. -/
theorem k0_pay11_read (v63 : FVec Ideal S1000x64 .f32) (v65 : FVec Ideal S1000x256 .f32) (cst_47 : FVec Ideal S64x256 .f32) (j : Fin 64) (d : Fin 256) :
    k0_pay11 (F := Ideal) v63 v65 cst_47 (ix2 j d) = cst_47 (ix2 j d) + ∑ r : Fin 1000, v63 (ix2 r j) * v65 (ix2 r d) :=
  tdot_acc_read v63 v65 cst_47 j d

/-- With the zero accumulator it is the sum. -/
theorem k0_pay11_zero_read (v63 : FVec Ideal S1000x64 .f32) (v65 : FVec Ideal S1000x256 .f32) (j : Fin 64) (d : Fin 256) :
    k0_pay11 (F := Ideal) v63 v65 (constant S64x256 .f32 0x00000000#32) (ix2 j d) = ∑ r : Fin 1000, v63 (ix2 r j) * v65 (ix2 r d) :=
  tdot_read v63 v65 j d

theorem k0_pay21_read (v133 : FVec Ideal S1000x64 .f32) (v136 : Vec Ideal S1000x256 .f32) (j : Fin 64) (d : Fin 256) :
    k0_pay21 (F := Ideal) v133 v136 (ix2 j d) = ∑ r : Fin 1000, v133 (ix2 r j) * v136 (ix2 r d) := by
  unfold k0_pay21
  simp only [shapeCast_self]
  exact tdot_read v133 v136 j d

theorem k0_pay6_read (v0 : Vec Ideal S1000x128 .f32) (v1 : Vec Ideal S64x128 .f32) (v4 : Vec Ideal S1x64 .f32) (v11 : Vec Ideal S64x64 .f32) (v13 : Vec Ideal S1x64 .f32) (v20 : Vec Ideal S64x64 .f32) (v22 : Vec Ideal S1x64 .f32) (v29 : Vec Ideal S1000x256 .f32) (j : Fin 64) (d : Fin 256) :
    k0_pay6 (F := Ideal) v0 v1 v4 v11 v13 v20 v22 v29 (ix2 j d)
      = ∑ r : Fin 1000, k0_pay4 (F := Ideal) v0 v1 v4 v11 v13 v20 v22 (ix2 r j) * v29 (ix2 r d) := by
  unfold k0_pay6
  simp only [shapeCast_self]
  exact tdot_read (k0_pay4 (F := Ideal) v0 v1 v4 v11 v13 v20 v22) v29 j d

theorem k0_pay5_eq (v31 : Vec Ideal S1000x256 .f32) : k0_pay5 (F := Ideal) v31 = v31 := shapeCast_self v31 _

theorem k0_pay9_eq (v64 : Vec Ideal S1000x256 .f32) : k0_pay9 (F := Ideal) v64 = v64 := shapeCast_self v64 _

theorem k0_pay10_eq (v66 : Vec Ideal S1000x256 .f32) : k0_pay10 (F := Ideal) v66 = v66 := shapeCast_self v66 _

theorem k0_pay14_eq (v99 : Vec Ideal S1000x256 .f32) : k0_pay14 (F := Ideal) v99 = v99 := shapeCast_self v99 _

theorem k0_pay15_eq (v101 : Vec Ideal S1000x256 .f32) : k0_pay15 (F := Ideal) v101 = v101 := shapeCast_self v101 _

theorem k0_pay19_eq (v134 : Vec Ideal S1000x256 .f32) : k0_pay19 (F := Ideal) v134 = v134 := shapeCast_self v134 _

theorem k0_pay23_eq (v169 : Vec Ideal S1000x256 .f32) : k0_pay23 (F := Ideal) v169 = v169 := shapeCast_self v169 _

/-! ## The block's contribution to the transposed summary -/

/-- Five additions onto the zero splat, read at an index: the zero disappears. -/
theorem acc5_read {s : Shape} (a b c d m : FVec Ideal s .f32) (i : s.Idx) :
    addf (addf (addf (addf (addf (broadcast s (Scalar.ofBits (F := Ideal) .f32 0x00000000#32)) a) b) c) d) m i
      = a i + b i + c i + d i + m i := by
  show Ideal.ofBits .f32 0x00000000#32 + a i + b i + c i + d i + m i = _
  rw [Ideal.ofBits_zero_f32, zero_add]

/-- The block's 64 × 512 contribution at a column of the left half: the four earlier partial products and the last
    sub-chunk's product, of the left 256 columns. -/
theorem k0_pay1_left (v33 v34 v68 v69 v103 v104 v138 v139 : FVec Ideal S64x256 .f32) (v168 : FVec Ideal S1000x64 .f32)
    (v170 : FVec Ideal S1000x256 .f32) (v171 : Vec Ideal S1000x256 .f32) (j : Fin 64) (d : Fin 512) (d' : Fin 256)
    (hd : d.val = d'.val) :
    k0_pay1 (F := Ideal) v33 v34 v68 v69 v103 v104 v138 v139 v168 v170 v171 (ix2 j d)
      = v33 (ix2 j d') + v68 (ix2 j d') + v103 (ix2 j d') + v138 (ix2 j d') + ∑ r : Fin 1000, v168 (ix2 r j) * v170 (ix2 r d') := by
  unfold k0_pay1
  simp only [shapeCast_self]
  refine (LibConcatCols.concat_cols_apply (a := 256) (b := 256) rfl _ _ _ j d).trans ?_
  have hc : d.val < 256 := by have := d'.isLt; omega
  rw [dif_pos hc]
  have e : (⟨d.val, hc⟩ : Fin 256) = d' := Fin.ext hd
  rw [e]
  refine (acc5_read _ _ _ _ _ _).trans ?_
  exact congrArg₂ (· + ·) rfl (tdot_read v168 v170 j d')

/-- At a column of the right half: the same with the right 256 columns. -/
theorem k0_pay1_right (v33 v34 v68 v69 v103 v104 v138 v139 : FVec Ideal S64x256 .f32) (v168 : FVec Ideal S1000x64 .f32)
    (v170 : FVec Ideal S1000x256 .f32) (v171 : Vec Ideal S1000x256 .f32) (j : Fin 64) (d : Fin 512) (d' : Fin 256)
    (hd : d.val = d'.val + 256) :
    k0_pay1 (F := Ideal) v33 v34 v68 v69 v103 v104 v138 v139 v168 v170 v171 (ix2 j d)
      = v34 (ix2 j d') + v69 (ix2 j d') + v104 (ix2 j d') + v139 (ix2 j d') + ∑ r : Fin 1000, v168 (ix2 r j) * v171 (ix2 r d') := by
  unfold k0_pay1
  simp only [shapeCast_self]
  refine (LibConcatCols.concat_cols_apply (a := 256) (b := 256) rfl _ _ _ j d).trans ?_
  have hc : ¬ d.val < 256 := by omega
  rw [dif_neg hc]
  have e : (⟨d.val - 256, by have := d.isLt; omega⟩ : Fin 256) = d' := Fin.ext (by show d.val - 256 = d'.val; omega)
  rw [e]
  refine (acc5_read _ _ _ _ _ _).trans ?_
  exact congrArg₂ (· + ·) rfl (tdot_read v168 v171 j d')

/-- The accumulated summary: what was there plus the block's contribution. -/
theorem k0_pay2_read (v33 v34 v68 v69 v103 v104 v138 v139 : FVec Ideal S64x256 .f32) (v168 : FVec Ideal S1000x64 .f32)
    (v170 : FVec Ideal S1000x256 .f32) (v171 : Vec Ideal S1000x256 .f32) (v197 : Vec Ideal S64x512 .f32) (j : Fin 64) (d : Fin 512) :
    k0_pay2 (F := Ideal) v33 v34 v68 v69 v103 v104 v138 v139 v168 v170 v171 v197 (ix2 j d)
      = v197 (ix2 j d) + k0_pay1 (F := Ideal) v33 v34 v68 v69 v103 v104 v138 v139 v168 v170 v171 (ix2 j d) := by
  unfold k0_pay2
  simp only [shapeCast_self]
  rfl

/-! ## The last grid step: the global layers and the running summaries -/

/-- The first global layer reads the summary stored transposed (contract axis 0 with axis 0). -/
theorem layerL_read {n K N : Nat} (w : DotDims.WF ⟨2, ![K, n]⟩ ⟨2, ![K, N]⟩ ⟨2, ![n, N]⟩ [0] [0] [1] [1] [] [])
    (hb : (⟨2, ![1, N]⟩ : Shape).Broadcasts ⟨2, ![n, N]⟩)
    (x : FVec Ideal ⟨2, ![K, n]⟩ .f32) (W : FVec Ideal ⟨2, ![K, N]⟩ .f32) (b : FVec Ideal ⟨2, ![1, N]⟩ .f32)
    (r : Fin n) (j : Fin N) :
    maximumf (addf (matmul (LibTDot.dims w) none x W (constant ⟨2, ![n, N]⟩ .f32 0x00000000#32)) (broadcastTo ⟨2, ![n, N]⟩ b hb))
      (mulf (broadcast ⟨2, ![n, N]⟩ (Scalar.ofBits (F := Ideal) .f32 0x3C23D70A#32))
        (addf (matmul (LibTDot.dims w) none x W (constant ⟨2, ![n, N]⟩ .f32 0x00000000#32)) (broadcastTo ⟨2, ![n, N]⟩ b hb))) (ix2 r j)
      = Spec.layer (mat W) (row b) (fun k => x (ix2 k r)) j := by
  refine (act_read _ _).trans ?_
  refine congrArg Spec.act ?_
  refine (addf_apply _ _ _).trans ?_
  exact congrArg₂ (· + ·) (LibTDot.matmul_zero_apply w none x W r j) (broadcastTo_1b_ab_apply b hb r j)

/-- The three global layers on the 512 summaries, the summaries given transposed (64 × 512), as the kernel's term. -/
def glob3 (sT : FVec Ideal S64x512 .f32) (W4 : FVec Ideal S64x64 .f32) (b4 : FVec Ideal S1x64 .f32)
    (W5 : FVec Ideal S64x64 .f32) (b5 : FVec Ideal S1x64 .f32) (W6 : FVec Ideal S64x64 .f32) (b6 : FVec Ideal S1x64 .f32) :
    FVec Ideal S512x64 .f32 :=
  let z : FVec Ideal S512x64 .f32 := constant S512x64 .f32 0x00000000#32
  let c : FVec Ideal S512x64 .f32 := broadcast S512x64 (Scalar.ofBits (F := Ideal) .f32 0x3C23D70A#32)
  let p1 := addf (matmul dot_S64x512_S64x64_S512x64_0_0_1_1_n_n none sT W4 z) (broadcastTo S512x64 b4 Facts₀.broadcasts_S1x64_S512x64)
  let a1 := maximumf p1 (mulf c p1)
  let p2 := addf (matmul dot_S512x64_S64x64_S512x64_1_0_0_1_n_n none a1 W5 z) (broadcastTo S512x64 b5 Facts₀.broadcasts_S1x64_S512x64)
  let a2 := maximumf p2 (mulf c p2)
  let p3 := addf (matmul dot_S512x64_S64x64_S512x64_1_0_0_1_n_n none a2 W6 z) (broadcastTo S512x64 b6 Facts₀.broadcasts_S1x64_S512x64)
  maximumf p3 (mulf c p3)

theorem glob3_read (sT : FVec Ideal S64x512 .f32) (W4 : FVec Ideal S64x64 .f32) (b4 : FVec Ideal S1x64 .f32)
    (W5 : FVec Ideal S64x64 .f32) (b5 : FVec Ideal S1x64 .f32) (W6 : FVec Ideal S64x64 .f32) (b6 : FVec Ideal S1x64 .f32)
    (d : Fin 512) (j : Fin 64) :
    glob3 sT W4 b4 W5 b5 W6 b6 (ix2 d j)
      = Spec.glob (mat W4) (row b4) (mat W5) (row b5) (mat W6) (row b6) (fun i => sT (ix2 i d)) j := by
  unfold glob3 Spec.glob
  refine (layer_read Facts₀.dot_S512x64_S64x64_S512x64_1_0_0_1_n_n_wf Facts₀.broadcasts_S1x64_S512x64 _ W6 b6 d j).trans ?_
  refine congrArg (fun f => Spec.layer (mat W6) (row b6) f j) (funext fun k2 => ?_)
  refine (layer_read Facts₀.dot_S512x64_S64x64_S512x64_1_0_0_1_n_n_wf Facts₀.broadcasts_S1x64_S512x64 _ W5 b5 d k2).trans ?_
  refine congrArg (fun f => Spec.layer (mat W5) (row b5) f k2) (funext fun k1 => ?_)
  exact layerL_read Facts₀.dot_S64x512_S64x64_S512x64_0_0_1_1_n_n_wf Facts₀.broadcasts_S1x64_S512x64 sT W4 b4 d k1

/-- The epilogue's term is the running-summary matrix times the global layers' term. -/
theorem k0_pay3_eq (v197 : Vec Ideal S64x512 .f32) (v199 : Vec Ideal S64x64 .f32) (v201 : Vec Ideal S1x64 .f32) (v208 : Vec Ideal S64x64 .f32) (v210 : Vec Ideal S1x64 .f32) (v217 : Vec Ideal S64x64 .f32) (v219 : Vec Ideal S1x64 .f32) (v226 : Vec Ideal S32x512 .f32) :
    k0_pay3 (F := Ideal) v197 v199 v201 v208 v210 v217 v219 v226
      = matmul (φ₁ := .f32) (φ₂ := .f32) dot_S32x512_S512x64_S32x64_1_0_0_1_n_n none v226 (glob3 v197 v199 v201 v208 v210 v217 v219) (constant S32x64 .f32 0x00000000#32) := by
  unfold k0_pay3 glob3
  simp only [shapeCast_self]

/-- Read at (q, j): the specification's running summaries over the transposed per-graph summaries. -/
theorem k0_pay3_read (v197 : Vec Ideal S64x512 .f32) (v199 : Vec Ideal S64x64 .f32) (v201 : Vec Ideal S1x64 .f32) (v208 : Vec Ideal S64x64 .f32) (v210 : Vec Ideal S1x64 .f32) (v217 : Vec Ideal S64x64 .f32) (v219 : Vec Ideal S1x64 .f32) (v226 : Vec Ideal S32x512 .f32) (q : Fin 32) (j : Fin 64) :
    k0_pay3 (F := Ideal) v197 v199 v201 v208 v210 v217 v219 v226 (ix2 q j)
      = Spec.s2 (mat v226) (fun d i => v197 (ix2 i d)) (mat v199) (row v201) (mat v208) (row v210) (mat v217) (row v219) q j := by
  refine (congrFun (k0_pay3_eq v197 v199 v201 v208 v210 v217 v219 v226) (ix2 q j)).trans ?_
  refine (LibDot.matmul_zero_apply (φ₁ := .f32) (φ₂ := .f32) Facts₀.dot_S32x512_S512x64_S32x64_1_0_0_1_n_n_wf none v226 _ q j).trans ?_
  unfold Spec.s2
  exact Finset.sum_congr rfl fun d _ => congrArg (mat v226 q d * ·) (glob3_read v197 v199 v201 v208 v210 v217 v219 d j)

end Cert.KernelIdeal.PayValue

end
-- ==== Proof.LibRowsLoad.lean ====
/-
  Loads of a band of rows of a matrix through a literal unit-stride rectangle, read at an index: the rectangle at row
  offset `off`, column offset `0`, of `K` rows and all `n` columns, reads row `off + r` of the matrix at its row `r`.
-/
import Idealize.ShloMosaic.Lib.Pipeline.FrameBody
import Idealize.ShloMosaic.Lib.ValueIdx

noncomputable section

namespace Cert.LibRowsLoad

open Idealize.ShloMosaic Idealize.ShloMosaic.ValueIdx

variable {Val : EltTy → Type} {e : EltTy}

/-- The row a band's row `r` is: inside the matrix, by the band's in-bounds evidence. -/
theorem row_lt {M K n : Nat} {off : Nat}
    (inb : ∀ a, (![off, 0] : Fin 2 → Nat) a + (⟨2, ![K, n]⟩ : Shape).size a ≤ (⟨2, ![M, n]⟩ : Shape).size a)
    (r : Fin K) : off + r.val < M :=
  Nat.lt_of_lt_of_le (Nat.add_lt_add_left r.isLt off) (inb 0)

/-- A load of `K` rows from row `off` of an `M × n` matrix `X`, all columns: at `(r, q)` it reads `X (off + r, q)`. -/
theorem ld_rows {M K n : Nat} (X : (⟨2, ![M, n]⟩ : Shape).Idx → Val e) (off : Nat)
    (inb : ∀ a, (![off, 0] : Fin 2 → Nat) a + (⟨2, ![K, n]⟩ : Shape).size a ≤ (⟨2, ![M, n]⟩ : Shape).size a)
    (r : Fin K) (q : Fin n) :
    View.ld X (Rect.unit (s := ⟨2, ![M, n]⟩) ![off, 0] (⟨2, ![K, n]⟩ : Shape).size inb) (ix2 r q)
      = X (ix2 ⟨off + r.val, row_lt inb r⟩ q) := by
  show X _ = X _
  refine congrArg X (funext fun a => Fin.ext ?_)
  match a with
  | ⟨0, _⟩ => show off + 1 * r.val = off + r.val; omega
  | ⟨1, _⟩ => show 0 + 1 * q.val = q.val; omega

/-- The same with the row named by the caller (`i = off + r`). -/
theorem ld_rows_at {M K n : Nat} (X : (⟨2, ![M, n]⟩ : Shape).Idx → Val e) (off : Nat)
    (inb : ∀ a, (![off, 0] : Fin 2 → Nat) a + (⟨2, ![K, n]⟩ : Shape).size a ≤ (⟨2, ![M, n]⟩ : Shape).size a)
    (r : Fin K) (q : Fin n) (i : Fin M) (hi : i.val = off + r.val) :
    View.ld X (Rect.unit (s := ⟨2, ![M, n]⟩) ![off, 0] (⟨2, ![K, n]⟩ : Shape).size inb) (ix2 r q) = X (ix2 i q) := by
  rw [ld_rows X off inb r q]
  exact congrArg (fun i => X (ix2 i q)) (Fin.ext hi.symm)

/-- The whole band as a function of its index. -/
theorem ld_rows_fun {M K n : Nat} (X : (⟨2, ![M, n]⟩ : Shape).Idx → Val e) (off : Nat)
    (inb : ∀ a, (![off, 0] : Fin 2 → Nat) a + (⟨2, ![K, n]⟩ : Shape).size a ≤ (⟨2, ![M, n]⟩ : Shape).size a) :
    (View.ld X (Rect.unit (s := ⟨2, ![M, n]⟩) ![off, 0] (⟨2, ![K, n]⟩ : Shape).size inb) : (⟨2, ![K, n]⟩ : Shape).Idx → Val e)
      = fun y => X (ix2 ⟨off + (y 0).val, row_lt inb (y 0)⟩ (y 1)) := by
  funext y
  obtain ⟨r, q, rfl⟩ : ∃ (r : Fin K) (q : Fin n), y = ix2 r q := ⟨y 0, y 1, eq_ix2 y⟩
  exact ld_rows X off inb r q

end Cert.LibRowsLoad

end
-- ==== Proof.LibBlockSum.lean ====
/-
  The accumulator's arithmetic as a streamed sum associates it. A sum over 50000 consecutive positions taken in ten
  blocks of 5000, each block in five chunks of 1000: a block's part is the left-associated sum of its five chunk sums,
  and the accumulator after block n is the accumulator after block n − 1 plus block n's part. In any commutative
  additive monoid the accumulator after the last block is the plain sum over all positions. Also: a finite family read
  at every natural number, zero past its end.
-/
import Mathlib.Algebra.BigOperators.Group.Finset.Basic
import Mathlib.Data.Fintype.BigOperators

namespace Cert.LibBlockSum

open scoped BigOperators

universe u
variable {M : Type u} [AddCommMonoid M]

/-- The sum over the 1000 positions starting at `base`. -/
def chunk (f : ℕ → M) (base : ℕ) : M := ∑ r : Fin 1000, f (base + r.val)

/-- Block k's part: its five chunk sums, added from the left. -/
def part (f : ℕ → M) (k : ℕ) : M :=
  chunk f (k * 5000) + chunk f (k * 5000 + 1000) + chunk f (k * 5000 + 2000) + chunk f (k * 5000 + 3000) + chunk f (k * 5000 + 4000)

/-- The accumulator after block n: block 0's part, then each later block's part added on. -/
def accum (f : ℕ → M) : ℕ → M
  | 0 => part f 0
  | n + 1 => accum f n + part f (n + 1)

/-- A chunk sum as a sum over a range. -/
theorem chunk_eq_range (f : ℕ → M) (base : ℕ) : chunk f base = ∑ i ∈ Finset.range 1000, f (base + i) :=
  Fin.sum_univ_eq_sum_range (fun i => f (base + i)) 1000

/-- A sum over 5000 positions is the left-associated sum of its five runs of 1000. -/
theorem sum_range_5000 (g : ℕ → M) :
    ∑ i ∈ Finset.range 5000, g i
      = (∑ i ∈ Finset.range 1000, g i) + (∑ i ∈ Finset.range 1000, g (1000 + i)) + (∑ i ∈ Finset.range 1000, g (2000 + i))
        + (∑ i ∈ Finset.range 1000, g (3000 + i)) + (∑ i ∈ Finset.range 1000, g (4000 + i)) := by
  rw [show Finset.range 5000 = Finset.range (4000 + 1000) from rfl, Finset.sum_range_add,
    show Finset.range 4000 = Finset.range (3000 + 1000) from rfl, Finset.sum_range_add,
    show Finset.range 3000 = Finset.range (2000 + 1000) from rfl, Finset.sum_range_add,
    show Finset.range 2000 = Finset.range (1000 + 1000) from rfl, Finset.sum_range_add]

/-- A block's part is the sum over the block's 5000 positions. -/
theorem part_eq_range (f : ℕ → M) (k : ℕ) : part f k = ∑ i ∈ Finset.range 5000, f (k * 5000 + i) := by
  rw [sum_range_5000 (fun i => f (k * 5000 + i))]
  unfold part
  simp only [chunk_eq_range, Nat.add_assoc, Nat.add_zero]

/-- The accumulator after block n is the sum over the first (n + 1) · 5000 positions. -/
theorem accum_eq_range (f : ℕ → M) (n : ℕ) : accum f n = ∑ i ∈ Finset.range ((n + 1) * 5000), f i := by
  induction n with
  | zero =>
    show part f 0 = _
    rw [part_eq_range]
    simp only [Nat.zero_mul, Nat.zero_add, Nat.one_mul]
  | succ n ih =>
    show accum f n + part f (n + 1) = _
    have e : (n + 1 + 1) * 5000 = (n + 1) * 5000 + 5000 := Nat.succ_mul (n + 1) 5000
    rw [ih, part_eq_range, e, Finset.sum_range_add]

/-- After ten blocks: the sum over all 50000 positions. -/
theorem accum_nine (f : ℕ → M) : accum f 9 = ∑ n : Fin 50000, f n.val := by
  rw [accum_eq_range]
  exact (Fin.sum_univ_eq_sum_range f 50000).symm

/-- A finite family read at every natural number: zero past its end. -/
def ext {n : ℕ} (g : Fin n → M) (i : ℕ) : M := if h : i < n then g ⟨i, h⟩ else 0

/-- Inside its extent the total reading is the family's entry. -/
theorem ext_of_lt {n : ℕ} (g : Fin n → M) (i : ℕ) (h : i < n) : ext g i = g ⟨i, h⟩ := dif_pos h

/-- At a position of the family the total reading is the family's entry there. -/
theorem ext_val {n : ℕ} (g : Fin n → M) (i : Fin n) : ext g i.val = g i := ext_of_lt g i.val i.isLt

/-- Past its extent the total reading is zero. -/
theorem ext_of_le {n : ℕ} (g : Fin n → M) (i : ℕ) (h : n ≤ i) : ext g i = 0 := dif_neg (Nat.not_lt.2 h)

end Cert.LibBlockSum
-- ==== Proof.PartReadI.lean ====
/-
  One grid point's arithmetic read at an index: the point's partial sums at (j, d) are the block's part of the streamed
  sum of node(X row)(j) · (summary block)(row, d) over the block's 5000 rows, the five sub-chunk sums added from the
  left; the running sums add that to what was there; and the last point's term is the specification's running
  summaries.
-/
import proofs.«152476_g41686952575157_cont_8to1_b_1251_30_alg».proof.Proof.PartI
import proofs.«152476_g41686952575157_cont_8to1_b_1251_30_alg».proof.Proof.Pay
import proofs.«152476_g41686952575157_cont_8to1_b_1251_30_alg».proof.Proof.LibRowsLoad
import proofs.«152476_g41686952575157_cont_8to1_b_1251_30_alg».proof.Proof.LibBlockSum
import proofs.«152476_g41686952575157_cont_8to1_b_1251_30_alg».proof.Proof.Spec

noncomputable section

namespace Cert.KernelIdeal.PartRead

open Idealize.ShloMosaic Idealize.ShloMosaic.ValueIdx Cert.KernelIdeal Cert.KernelIdeal.Gen Cert.KernelIdeal.PayValue
open scoped BigOperators

/-- The zero offsets, however spelt. -/
theorem hz : (![0, 0] : Fin 2 → Nat) = fun _ => 0 := by
  funext a
  match a with
  | ⟨0, _⟩ => rfl
  | ⟨1, _⟩ => rfl

/-- A load of a whole matrix reads the matrix. -/
theorem ld_whole {a b : Nat} (X : Vec Ideal ⟨2, ![a, b]⟩ .f32)
    (inb : ∀ ax, (![0, 0] : Fin 2 → Nat) ax + (⟨2, ![a, b]⟩ : Shape).size ax ≤ (⟨2, ![a, b]⟩ : Shape).size ax) :
    View.ld X (Rect.unit (s := ⟨2, ![a, b]⟩) ![0, 0] (⟨2, ![a, b]⟩ : Shape).size inb) = X :=
  View.ld_unit_zero hz inb X

/-- Column d of the summary block's two halves laid side by side, at row r. -/
def half (x1 x2 : Vec Ideal S5000x256 .f32) (r : Fin 5000) (d : Fin 512) : EReal :=
  if h : d.val < 256 then x1 (ix2 r ⟨d.val, h⟩) else x2 (ix2 r ⟨d.val - 256, by have := d.isLt; omega⟩)

/-- The summand of the block's streamed sum at row r: the node layers on the row, at j, times the summary entry. -/
def term (x0 : Vec Ideal S5000x128 .f32) (x1 x2 : Vec Ideal S5000x256 .f32) (x4 : Vec Ideal S64x128 .f32) (x5 : Vec Ideal S1x64 .f32) (x6 : Vec Ideal S64x64 .f32) (x7 : Vec Ideal S1x64 .f32) (x8 : Vec Ideal S64x64 .f32) (x9 : Vec Ideal S1x64 .f32) (j : Fin 64) (d : Fin 512) (r : Fin 5000) : EReal :=
  Spec.node (fun k j => x4 (ix2 j k)) (row x5) (mat x6) (row x7) (mat x8) (row x9) (fun k => x0 (ix2 r k)) j * half x1 x2 r d

/-- One sub-chunk's sum of products, its rows and its summary band loaded at row offset `off`, is the chunk of the
    streamed sum at `off`. -/
theorem chunk_read (x0 : Vec Ideal S5000x128 .f32) (x1 x2 : Vec Ideal S5000x256 .f32) (x4 : Vec Ideal S64x128 .f32) (x5 : Vec Ideal S1x64 .f32) (x6 : Vec Ideal S64x64 .f32) (x7 : Vec Ideal S1x64 .f32) (x8 : Vec Ideal S64x64 .f32) (x9 : Vec Ideal S1x64 .f32) (y : Vec Ideal S5000x256 .f32) (d' : Fin 256) (j : Fin 64) (d : Fin 512)
    (hy : ∀ r : Fin 5000, half x1 x2 r d = y (ix2 r d')) (off : Nat)
    (inb0 : ∀ a, (![off, 0] : Fin 2 → Nat) a + S1000x128.size a ≤ S5000x128.size a)
    (inb1 : ∀ a, (![off, 0] : Fin 2 → Nat) a + S1000x256.size a ≤ S5000x256.size a) :
    ∑ r : Fin 1000,
        Spec.node (fun k j => x4 (ix2 j k)) (row x5) (mat x6) (row x7) (mat x8) (row x9)
            (fun k => View.ld x0 (Rect.unit (s := S5000x128) ![off, 0] S1000x128.size inb0) (ix2 r k)) j
          * View.ld y (Rect.unit (s := S5000x256) ![off, 0] S1000x256.size inb1) (ix2 r d')
      = LibBlockSum.chunk (LibBlockSum.ext (term x0 x1 x2 x4 x5 x6 x7 x8 x9 j d)) off := by
  unfold LibBlockSum.chunk
  refine Finset.sum_congr rfl fun r _ => ?_
  have hlt : off + r.val < 5000 := LibRowsLoad.row_lt inb0 r
  rw [LibBlockSum.ext_of_lt _ _ hlt]
  unfold term
  rw [hy]
  refine congrArg₂ (· * ·) ?_ (LibRowsLoad.ld_rows (Val := Elt Ideal) (e := .f32) y off inb1 r d')
  refine congrArg (fun f => Spec.node (fun k j => x4 (ix2 j k)) (row x5) (mat x6) (row x7) (mat x8) (row x9) f j) (funext fun k => ?_)
  exact LibRowsLoad.ld_rows (Val := Elt Ideal) (e := .f32) x0 off inb0 r k

/-- The point's partial sums at (j, d): the block's part of the streamed sum. -/
theorem part_read (x0 : Vec Ideal S5000x128 .f32) (x1 x2 : Vec Ideal S5000x256 .f32) (x4 : Vec Ideal S64x128 .f32) (x5 : Vec Ideal S1x64 .f32) (x6 : Vec Ideal S64x64 .f32) (x7 : Vec Ideal S1x64 .f32) (x8 : Vec Ideal S64x64 .f32) (x9 : Vec Ideal S1x64 .f32) (j : Fin 64) (d : Fin 512) :
    Body.part (F := Ideal) x0 x1 x2 x4 x5 x6 x7 x8 x9 (ix2 j d) = LibBlockSum.part (LibBlockSum.ext (term x0 x1 x2 x4 x5 x6 x7 x8 x9 j d)) 0 := by
  unfold Body.part
  rw [ld_whole x4 _, ld_whole x5 _, ld_whole x6 _, ld_whole x7 _, ld_whole x8 _, ld_whole x9 _]
  unfold LibBlockSum.part
  by_cases h : d.val < 256
  · refine (k0_pay1_left _ _ _ _ _ _ _ _ _ _ _ j d ⟨d.val, h⟩ rfl).trans ?_
    refine congrArg₂ (· + ·) (congrArg₂ (· + ·) (congrArg₂ (· + ·) (congrArg₂ (· + ·) ?_ ?_) ?_) ?_) ?_
    · refine (k0_pay6_read _ _ _ _ _ _ _ _ j _).trans ?_
      refine (Finset.sum_congr rfl fun r _ => congrArg₂ (· * ·) (k0_pay4_read _ _ _ _ _ _ _ r j) (rfl)).trans ?_
      exact chunk_read x0 x1 x2 x4 x5 x6 x7 x8 x9 x1 ⟨d.val, h⟩ j d (fun r => dif_pos h) 0 _ _
    · refine (k0_pay11_zero_read _ _ j _).trans ?_
      refine (Finset.sum_congr rfl fun r _ => congrArg₂ (· * ·) (k0_pay8_read _ _ _ _ _ _ _ r j) (congrFun (k0_pay9_eq _) (ix2 r _))).trans ?_
      exact chunk_read x0 x1 x2 x4 x5 x6 x7 x8 x9 x1 ⟨d.val, h⟩ j d (fun r => dif_pos h) 1000 _ _
    · refine (k0_pay16_read _ _ j _).trans ?_
      refine (Finset.sum_congr rfl fun r _ => congrArg₂ (· * ·) (k0_pay13_read _ _ _ _ _ _ _ r j) (congrFun (k0_pay14_eq _) (ix2 r _))).trans ?_
      exact chunk_read x0 x1 x2 x4 x5 x6 x7 x8 x9 x1 ⟨d.val, h⟩ j d (fun r => dif_pos h) 2000 _ _
    · refine (k0_pay20_read _ _ j _).trans ?_
      refine (Finset.sum_congr rfl fun r _ => congrArg₂ (· * ·) (k0_pay18_read _ _ _ _ _ _ _ r j) (congrFun (k0_pay19_eq _) (ix2 r _))).trans ?_
      exact chunk_read x0 x1 x2 x4 x5 x6 x7 x8 x9 x1 ⟨d.val, h⟩ j d (fun r => dif_pos h) 3000 _ _
    · refine (Finset.sum_congr rfl fun r _ => congrArg₂ (· * ·) (k0_pay22_read _ _ _ _ _ _ _ r j) (congrFun (k0_pay23_eq _) (ix2 r _))).trans ?_
      exact chunk_read x0 x1 x2 x4 x5 x6 x7 x8 x9 x1 ⟨d.val, h⟩ j d (fun r => dif_pos h) 4000 _ _
  · have hr : d.val - 256 < 256 := by have := d.isLt; omega
    refine (k0_pay1_right _ _ _ _ _ _ _ _ _ _ _ j d ⟨d.val - 256, hr⟩ (by show d.val = d.val - 256 + 256; omega)).trans ?_
    refine congrArg₂ (· + ·) (congrArg₂ (· + ·) (congrArg₂ (· + ·) (congrArg₂ (· + ·) ?_ ?_) ?_) ?_) ?_
    · refine (k0_pay7_read _ _ j _).trans ?_
      refine (Finset.sum_congr rfl fun r _ => congrArg₂ (· * ·) (k0_pay4_read _ _ _ _ _ _ _ r j) (congrFun (k0_pay5_eq _) (ix2 r _))).trans ?_
      exact chunk_read x0 x1 x2 x4 x5 x6 x7 x8 x9 x2 ⟨d.val - 256, hr⟩ j d (fun r => dif_neg h) 0 _ _
    · refine (k0_pay12_read _ _ j _).trans ?_
      refine (Finset.sum_congr rfl fun r _ => congrArg₂ (· * ·) (k0_pay8_read _ _ _ _ _ _ _ r j) (congrFun (k0_pay10_eq _) (ix2 r _))).trans ?_
      exact chunk_read x0 x1 x2 x4 x5 x6 x7 x8 x9 x2 ⟨d.val - 256, hr⟩ j d (fun r => dif_neg h) 1000 _ _
    · refine (k0_pay17_read _ _ j _).trans ?_
      refine (Finset.sum_congr rfl fun r _ => congrArg₂ (· * ·) (k0_pay13_read _ _ _ _ _ _ _ r j) (congrFun (k0_pay15_eq _) (ix2 r _))).trans ?_
      exact chunk_read x0 x1 x2 x4 x5 x6 x7 x8 x9 x2 ⟨d.val - 256, hr⟩ j d (fun r => dif_neg h) 2000 _ _
    · refine (k0_pay21_read _ _ j _).trans ?_
      refine (Finset.sum_congr rfl fun r _ => congrArg₂ (· * ·) (k0_pay18_read _ _ _ _ _ _ _ r j) (rfl)).trans ?_
      exact chunk_read x0 x1 x2 x4 x5 x6 x7 x8 x9 x2 ⟨d.val - 256, hr⟩ j d (fun r => dif_neg h) 3000 _ _
    · refine (Finset.sum_congr rfl fun r _ => congrArg₂ (· * ·) (k0_pay22_read _ _ _ _ _ _ _ r j) (rfl)).trans ?_
      exact chunk_read x0 x1 x2 x4 x5 x6 x7 x8 x9 x2 ⟨d.val - 256, hr⟩ j d (fun r => dif_neg h) 4000 _ _

/-- The running sums after the point: what was there plus the point's partial sums. -/
theorem step_read (x0 : Vec Ideal S5000x128 .f32) (x1 x2 : Vec Ideal S5000x256 .f32) (x4 : Vec Ideal S64x128 .f32) (x5 : Vec Ideal S1x64 .f32) (x6 : Vec Ideal S64x64 .f32) (x7 : Vec Ideal S1x64 .f32) (x8 : Vec Ideal S64x64 .f32) (x9 : Vec Ideal S1x64 .f32) (xo : Vec Ideal S64x512 .f32) (j : Fin 64) (d : Fin 512) :
    Body.step (F := Ideal) x0 x1 x2 x4 x5 x6 x7 x8 x9 xo (ix2 j d) = xo (ix2 j d) + Body.part (F := Ideal) x0 x1 x2 x4 x5 x6 x7 x8 x9 (ix2 j d) := by
  unfold Body.step Body.part
  refine (k0_pay2_read _ _ _ _ _ _ _ _ _ _ _ _ j d).trans ?_
  exact congrArg₂ (· + ·) (congrFun (ld_whole xo _) (ix2 j d)) rfl

/-- The last point's term at (q, j): the specification's running summaries over the transposed final sums. -/
theorem epi_read (s : Vec Ideal S64x512 .f32) (x10 : Vec Ideal S64x64 .f32) (x11 : Vec Ideal S1x64 .f32) (x12 : Vec Ideal S64x64 .f32)
    (x13 : Vec Ideal S1x64 .f32) (x14 : Vec Ideal S64x64 .f32) (x15 : Vec Ideal S1x64 .f32) (x3 : Vec Ideal S32x512 .f32)
    (q : Fin 32) (j : Fin 64) :
    Body.epi (F := Ideal) s x10 x11 x12 x13 x14 x15 x3 (ix2 q j)
      = Spec.s2 (mat x3) (fun d i => s (ix2 i d)) (mat x10) (row x11) (mat x12) (row x13) (mat x14) (row x15) q j := by
  unfold Body.epi
  rw [ld_whole x10 _, ld_whole x11 _, ld_whole x12 _, ld_whole x13 _, ld_whole x14 _, ld_whole x15 _, ld_whole x3 _]
  exact k0_pay3_read s x10 x11 x12 x13 x14 x15 x3 q j

end Cert.KernelIdeal.PartRead

end
-- ==== Proof.BlocksI.lean ====
/-
  The kernel's input blocks read at an index, in terms of the ARGUMENT arrays (at the ideal instance): what each of
  the sixteen input windows holds at a grid point `t`. The three streamed windows are bands of 5000 rows — of the node
  features, and of the left and right halves of the summary matrix transposed —; the thirteen resident windows are whole
  arrays: the second summary matrix, the weights (the first layer's transposed) and the biases as one-row matrices.
  The arrays the host wrote before the region (transposes, reshapes) are read back to the arguments here.
-/
import proofs.«152476_g41686952575157_cont_8to1_b_1251_30_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps, decided once over the grid: the three streamed windows move down the rows with the grid
    point, the second summary window one block to the right. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 1
    ∧ t.val < 10 :=
  (by decide +kernel : ∀ t : Fin grid0.N, _)

/-- A grid point's rows lie inside the 50000 rows. -/
theorem row_lt (t : Fin cfg0.N) (r : Fin 5000) : t.val * 5000 + r.val < 50000 := by
  obtain ⟨-, -, -, -, -, -, h⟩ := idx_facts t
  have := r.isLt
  omega

/-- Window 0's block at point `t` is rows `5000 t … 5000 t + 4999` of the node features. -/
theorem blk0 (c : Dev nD) (t : Fin cfg0.N) (r : Fin 5000) (k : Fin 128) :
    (iblk m c 0 t : S5000x128.Idx → EReal) (ix2 r k)
      = (m ((c : Thread nD τ).loc main_arg2) : S50000x128.Idx → EReal) (ix2 ⟨t.val * 5000 + r.val, row_lt t r⟩ k) := by
  obtain ⟨e0, e1, -⟩ := idx_facts t
  rw [← V_main_arg2 m c]
  show V m c main_arg2 (((cfg0.win 0).blk t).view.emb (ix2 r k)) = V m c main_arg2 _
  refine congrArg _ (funext fun a => Fin.ext ?_)
  match a with
  | ⟨0, _⟩ => show win0_0.index t (0 : Fin 2) * 5000 + 1 * r.val = t.val * 5000 + r.val; omega
  | ⟨1, _⟩ => show win0_0.index t (1 : Fin 2) * 128 + 1 * k.val = k.val; omega

/-- The first transposed copy of the summaries, as the region finds it. -/
theorem V_v6 (c : Dev nD) :
    (V m c main_call0_v6 : S50000x512.Idx → EReal)
      = transpose S50000x512 [1, 0] (m ((c : Thread nD τ).loc main_arg0) : S512x50000.Idx → EReal) transposes_S512x50000_S50000x512_1_0 := by
  dsimp only [Gen.V, Gen.V0]
  simp only [Gen.hostOps0, List.flatten_cons, List.flatten_nil, List.append_nil, List.cons_append, List.nil_append]
  after_results
  rfl

/-- The second transposed copy of the summaries, as the region finds it. -/
theorem V_v7 (c : Dev nD) :
    (V m c main_call0_v7 : S50000x512.Idx → EReal)
      = transpose S50000x512 [1, 0] (m ((c : Thread nD τ).loc main_arg0) : S512x50000.Idx → EReal) transposes_S512x50000_S50000x512_1_0 := by
  dsimp only [Gen.V, Gen.V0]
  simp only [Gen.hostOps0, List.flatten_cons, List.flatten_nil, List.append_nil, List.cons_append, List.nil_append]
  after_results
  rfl

/-- Window 1's block at point `t`: the left 256 columns of rows `5000 t …` of the transposed summaries, that is
    summaries `0 … 255` at nodes `5000 t …`. -/
theorem blk1 (c : Dev nD) (t : Fin cfg0.N) (r : Fin 5000) (d : Fin 256) :
    (iblk m c 1 t : S5000x256.Idx → EReal) (ix2 r d)
      = (m ((c : Thread nD τ).loc main_arg0) : S512x50000.Idx → EReal)
          (ix2 ⟨d.val, by have := d.isLt; omega⟩ ⟨t.val * 5000 + r.val, row_lt t r⟩) := by
  obtain ⟨-, -, e0, e1, -⟩ := idx_facts t
  have hd := d.isLt
  have hr := row_lt t r
  show V m c main_call0_v6 (((cfg0.win 1).blk t).view.emb (ix2 r d)) = _
  have hi : ((cfg0.win 1).blk t).view.emb (ix2 r d)
      = (ix2 (⟨t.val * 5000 + r.val, hr⟩ : Fin 50000) (⟨d.val, by omega⟩ : Fin 512) : S50000x512.Idx) := by
    funext a; apply Fin.ext
    match a with
    | ⟨0, _⟩ => show win0_1.index t (0 : Fin 2) * 5000 + 1 * r.val = t.val * 5000 + r.val; omega
    | ⟨1, _⟩ => show win0_1.index t (1 : Fin 2) * 256 + 1 * d.val = d.val; omega
  rw [hi, V_v6 m c]
  exact transpose_ix2_apply _ transposes_S512x50000_S50000x512_1_0 _ _

/-- Window 2's block at point `t`: the right 256 columns of the same rows, summaries `256 … 511`. -/
theorem blk2 (c : Dev nD) (t : Fin cfg0.N) (r : Fin 5000) (d : Fin 256) :
    (iblk m c 2 t : S5000x256.Idx → EReal) (ix2 r d)
      = (m ((c : Thread nD τ).loc main_arg0) : S512x50000.Idx → EReal)
          (ix2 ⟨256 + d.val, by have := d.isLt; omega⟩ ⟨t.val * 5000 + r.val, row_lt t r⟩) := by
  obtain ⟨-, -, -, -, e0, e1, -⟩ := idx_facts t
  have hd := d.isLt
  have hr := row_lt t r
  show V m c main_call0_v7 (((cfg0.win 2).blk t).view.emb (ix2 r d)) = _
  have hi : ((cfg0.win 2).blk t).view.emb (ix2 r d)
      = (ix2 (⟨t.val * 5000 + r.val, hr⟩ : Fin 50000) (⟨256 + d.val, by omega⟩ : Fin 512) : S50000x512.Idx) := by
    funext a; apply Fin.ext
    match a with
    | ⟨0, _⟩ => show win0_2.index t (0 : Fin 2) * 5000 + 1 * r.val = t.val * 5000 + r.val; omega
    | ⟨1, _⟩ => show win0_2.index t (1 : Fin 2) * 256 + 1 * d.val = 256 + d.val; omega
  rw [hi, V_v7 m c]
  exact transpose_ix2_apply _ transposes_S512x50000_S50000x512_1_0 _ _

/-- The printed index maps of the resident windows: each is its whole array at every grid point. -/
theorem idx_zero : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0 :=
  (by decide +kernel : ∀ t : Fin grid0.N, _)

theorem idx_zero_3 (t : Fin cfg0.N) : win0_3.index t (0 : Fin 2) = 0 ∧ win0_3.index t (1 : Fin 2) = 0 := by
  have h := idx_zero t
  exact ⟨h.1, h.2.1⟩

theorem idx_zero_4 (t : Fin cfg0.N) : win0_4.index t (0 : Fin 2) = 0 ∧ win0_4.index t (1 : Fin 2) = 0 := by
  have h := idx_zero t
  exact ⟨h.2.2.1, h.2.2.2.1⟩

theorem idx_zero_5 (t : Fin cfg0.N) : win0_5.index t (0 : Fin 2) = 0 ∧ win0_5.index t (1 : Fin 2) = 0 := by
  have h := idx_zero t
  exact ⟨h.2.2.2.2.1, h.2.2.2.2.2.1⟩

theorem idx_zero_6 (t : Fin cfg0.N) : win0_6.index t (0 : Fin 2) = 0 ∧ win0_6.index t (1 : Fin 2) = 0 := by
  have h := idx_zero t
  exact ⟨h.2.2.2.2.2.2.1, h.2.2.2.2.2.2.2.1⟩

theorem idx_zero_7 (t : Fin cfg0.N) : win0_7.index t (0 : Fin 2) = 0 ∧ win0_7.index t (1 : Fin 2) = 0 := by
  have h := idx_zero t
  exact ⟨h.2.2.2.2.2.2.2.2.1, h.2.2.2.2.2.2.2.2.2.1⟩

theorem idx_zero_8 (t : Fin cfg0.N) : win0_8.index t (0 : Fin 2) = 0 ∧ win0_8.index t (1 : Fin 2) = 0 := by
  have h := idx_zero t
  exact ⟨h.2.2.2.2.2.2.2.2.2.2.1, h.2.2.2.2.2.2.2.2.2.2.2.1⟩

theorem idx_zero_9 (t : Fin cfg0.N) : win0_9.index t (0 : Fin 2) = 0 ∧ win0_9.index t (1 : Fin 2) = 0 := by
  have h := idx_zero t
  exact ⟨h.2.2.2.2.2.2.2.2.2.2.2.2.1, h.2.2.2.2.2.2.2.2.2.2.2.2.2.1⟩

theorem idx_zero_10 (t : Fin cfg0.N) : win0_10.index t (0 : Fin 2) = 0 ∧ win0_10.index t (1 : Fin 2) = 0 := by
  have h := idx_zero t
  exact ⟨h.2.2.2.2.2.2.2.2.2.2.2.2.2.2.1, h.2.2.2.2.2.2.2.2.2.2.2.2.2.2.2.1⟩

theorem idx_zero_11 (t : Fin cfg0.N) : win0_11.index t (0 : Fin 2) = 0 ∧ win0_11.index t (1 : Fin 2) = 0 := by
  have h := idx_zero t
  exact ⟨h.2.2.2.2.2.2.2.2.2.2.2.2.2.2.2.2.1, h.2.2.2.2.2.2.2.2.2.2.2.2.2.2.2.2.2.1⟩

theorem idx_zero_12 (t : Fin cfg0.N) : win0_12.index t (0 : Fin 2) = 0 ∧ win0_12.index t (1 : Fin 2) = 0 := by
  have h := idx_zero t
  exact ⟨h.2.2.2.2.2.2.2.2.2.2.2.2.2.2.2.2.2.2.1, h.2.2.2.2.2.2.2.2.2.2.2.2.2.2.2.2.2.2.2.1⟩

theorem idx_zero_13 (t : Fin cfg0.N) : win0_13.index t (0 : Fin 2) = 0 ∧ win0_13.index t (1 : Fin 2) = 0 := by
  have h := idx_zero t
  exact ⟨h.2.2.2.2.2.2.2.2.2.2.2.2.2.2.2.2.2.2.2.2.1, h.2.2.2.2.2.2.2.2.2.2.2.2.2.2.2.2.2.2.2.2.2.1⟩

theorem idx_zero_14 (t : Fin cfg0.N) : win0_14.index t (0 : Fin 2) = 0 ∧ win0_14.index t (1 : Fin 2) = 0 := by
  have h := idx_zero t
  exact ⟨h.2.2.2.2.2.2.2.2.2.2.2.2.2.2.2.2.2.2.2.2.2.2.1, h.2.2.2.2.2.2.2.2.2.2.2.2.2.2.2.2.2.2.2.2.2.2.2.1⟩

theorem idx_zero_15 (t : Fin cfg0.N) : win0_15.index t (0 : Fin 2) = 0 ∧ win0_15.index t (1 : Fin 2) = 0 := by
  have h := idx_zero t
  exact ⟨h.2.2.2.2.2.2.2.2.2.2.2.2.2.2.2.2.2.2.2.2.2.2.2.2.1, h.2.2.2.2.2.2.2.2.2.2.2.2.2.2.2.2.2.2.2.2.2.2.2.2.2⟩

/-- Window 3 is the whole of its argument array at every grid point. -/
theorem blk3 (c : Dev nD) (t : Fin cfg0.N) :
    (iblk m c 3 t : S32x512.Idx → EReal) = (m ((c : Thread nD τ).loc main_arg1) : S32x512.Idx → EReal) := by
  obtain ⟨e0, e1⟩ := idx_zero_3 t
  funext y
  rw [← V_main_arg1 m c]
  show V m c main_arg1 (((cfg0.win 3).blk t).view.emb y) = V m c main_arg1 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 512 + 1 * (y 1).val = (y 1).val; omega

/-- Window 6 is the whole of its argument array at every grid point. -/
theorem blk6 (c : Dev nD) (t : Fin cfg0.N) :
    (iblk m c 6 t : S64x64.Idx → EReal) = (m ((c : Thread nD τ).loc main_arg5) : S64x64.Idx → EReal) := by
  obtain ⟨e0, e1⟩ := idx_zero_6 t
  funext y
  rw [← V_main_arg5 m c]
  show V m c main_arg5 (((cfg0.win 6).blk t).view.emb y) = V m c main_arg5 y
  refine congrArg _ (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

/-- Window 8 is the whole of its argument array at every grid point. -/
theorem blk8 (c : Dev nD) (t : Fin cfg0.N) :
    (iblk m c 8 t : S64x64.Idx → EReal) = (m ((c : Thread nD τ).loc main_arg7) : S64x64.Idx → EReal) := by
  obtain ⟨e0, e1⟩ := idx_zero_8 t
  funext y
  rw [← V_main_arg7 m c]
  show V m c main_arg7 (((cfg0.win 8).blk t).view.emb y) = V m c main_arg7 y
  refine congrArg _ (funext fun a => Fin.ext ?_)
  match a with
  | ⟨0, _⟩ => show win0_8.index t (0 : Fin 2) * 64 + 1 * (y 0).val = (y 0).val; omega
  | ⟨1, _⟩ => show win0_8.index t (1 : Fin 2) * 64 + 1 * (y 1).val = (y 1).val; omega

/-- Window 10 is the whole of its argument array at every grid point. -/
theorem blk10 (c : Dev nD) (t : Fin cfg0.N) :
    (iblk m c 10 t : S64x64.Idx → EReal) = (m ((c : Thread nD τ).loc main_arg9) : S64x64.Idx → EReal) := by
  obtain ⟨e0, e1⟩ := idx_zero_10 t
  funext y
  rw [← V_main_arg9 m c]
  show V m c main_arg9 (((cfg0.win 10).blk t).view.emb y) = V m c main_arg9 y
  refine congrArg _ (funext fun a => Fin.ext ?_)
  match a with
  | ⟨0, _⟩ => show win0_10.index t (0 : Fin 2) * 64 + 1 * (y 0).val = (y 0).val; omega
  | ⟨1, _⟩ => show win0_10.index t (1 : Fin 2) * 64 + 1 * (y 1).val = (y 1).val; omega

/-- Window 12 is the whole of its argument array at every grid point. -/
theorem blk12 (c : Dev nD) (t : Fin cfg0.N) :
    (iblk m c 12 t : S64x64.Idx → EReal) = (m ((c : Thread nD τ).loc main_arg11) : S64x64.Idx → EReal) := by
  obtain ⟨e0, e1⟩ := idx_zero_12 t
  funext y
  rw [← V_main_arg11 m c]
  show V m c main_arg11 (((cfg0.win 12).blk t).view.emb y) = V m c main_arg11 y
  refine congrArg _ (funext fun a => Fin.ext ?_)
  match a with
  | ⟨0, _⟩ => show win0_12.index t (0 : Fin 2) * 64 + 1 * (y 0).val = (y 0).val; omega
  | ⟨1, _⟩ => show win0_12.index t (1 : Fin 2) * 64 + 1 * (y 1).val = (y 1).val; omega

/-- Window 14 is the whole of its argument array at every grid point. -/
theorem blk14 (c : Dev nD) (t : Fin cfg0.N) :
    (iblk m c 14 t : S64x64.Idx → EReal) = (m ((c : Thread nD τ).loc main_arg13) : S64x64.Idx → EReal) := by
  obtain ⟨e0, e1⟩ := idx_zero_14 t
  funext y
  rw [← V_main_arg13 m c]
  show V m c main_arg13 (((cfg0.win 14).blk t).view.emb y) = V m c main_arg13 y
  refine congrArg _ (funext fun a => Fin.ext ?_)
  match a with
  | ⟨0, _⟩ => show win0_14.index t (0 : Fin 2) * 64 + 1 * (y 0).val = (y 0).val; omega
  | ⟨1, _⟩ => show win0_14.index t (1 : Fin 2) * 64 + 1 * (y 1).val = (y 1).val; omega

/-- The transposed first-layer weights, as the region finds them. -/
theorem V_v8 (c : Dev nD) :
    (V m c main_call0_v8 : S64x128.Idx → EReal)
      = transpose S64x128 [1, 0] (m ((c : Thread nD τ).loc main_arg3) : S128x64.Idx → EReal) transposes_S128x64_S64x128_1_0 := by
  dsimp only [Gen.V, Gen.V0]
  simp only [Gen.hostOps0, List.flatten_cons, List.flatten_nil, List.append_nil, List.cons_append, List.nil_append]
  after_results
  rfl

/-- Window 4 is the first-layer weights transposed, whole at every grid point. -/
theorem blk4 (c : Dev nD) (t : Fin cfg0.N) (j : Fin 64) (k : Fin 128) :
    (iblk m c 4 t : S64x128.Idx → EReal) (ix2 j k)
      = (m ((c : Thread nD τ).loc main_arg3) : S128x64.Idx → EReal) (ix2 k j) := by
  obtain ⟨e0, e1⟩ := idx_zero_4 t
  show V m c main_call0_v8 (((cfg0.win 4).blk t).view.emb (ix2 j k)) = _
  have hi : ((cfg0.win 4).blk t).view.emb (ix2 j k) = (ix2 j k : S64x128.Idx) := by
    funext a; apply Fin.ext
    match a with
    | ⟨0, _⟩ => show win0_4.index t (0 : Fin 2) * 64 + 1 * j.val = j.val; omega
    | ⟨1, _⟩ => show win0_4.index t (1 : Fin 2) * 128 + 1 * k.val = k.val; omega
  rw [hi, V_v8 m c]
  exact transpose_ix2_apply _ transposes_S128x64_S64x128_1_0 _ _

/-- The bias vector of `main_arg4` as a one-row matrix, as the region finds it. -/
theorem V_v0 (c : Dev nD) :
    (V m c main_call0_v0 : S1x64.Idx → EReal)
      = shapeCast S1x64 (m ((c : Thread nD τ).loc main_arg4) : S64.Idx → EReal) shapeCasts_S64_S1x64 := by
  dsimp only [Gen.V, Gen.V0]
  simp only [Gen.hostOps0, List.flatten_cons, List.flatten_nil, List.append_nil, List.cons_append, List.nil_append]
  after_results
  rfl

/-- Window 5 is that row, whole at every grid point: at `(0, j)` the bias's entry `j`. -/
theorem blk5 (c : Dev nD) (t : Fin cfg0.N) (j : Fin 64) :
    (iblk m c 5 t : S1x64.Idx → EReal) (ix2 (0 : Fin 1) j)
      = (m ((c : Thread nD τ).loc main_arg4) : S64.Idx → EReal) (ix1 j) := by
  obtain ⟨e0, e1⟩ := idx_zero_5 t
  show V m c main_call0_v0 (((cfg0.win 5).blk t).view.emb (ix2 (0 : Fin 1) j)) = _
  have hi : ((cfg0.win 5).blk t).view.emb (ix2 (0 : Fin 1) j) = (ix2 (0 : Fin 1) j : S1x64.Idx) := by
    funext a; apply Fin.ext
    match a with
    | ⟨0, _⟩ => show win0_5.index t (0 : Fin 2) * 1 + 1 * (0 : Fin 1).val = (0 : Fin 1).val; omega
    | ⟨1, _⟩ => show win0_5.index t (1 : Fin 2) * 64 + 1 * j.val = j.val; omega
  rw [hi, V_v0 m c]
  exact shapeCast_a_1a_apply _ shapeCasts_S64_S1x64 _ _

/-- The bias vector of `main_arg6` as a one-row matrix, as the region finds it. -/
theorem V_v1 (c : Dev nD) :
    (V m c main_call0_v1 : S1x64.Idx → EReal)
      = shapeCast S1x64 (m ((c : Thread nD τ).loc main_arg6) : S64.Idx → EReal) shapeCasts_S64_S1x64 := by
  dsimp only [Gen.V, Gen.V0]
  simp only [Gen.hostOps0, List.flatten_cons, List.flatten_nil, List.append_nil, List.cons_append, List.nil_append]
  after_results
  rfl

/-- Window 7 is that row, whole at every grid point: at `(0, j)` the bias's entry `j`. -/
theorem blk7 (c : Dev nD) (t : Fin cfg0.N) (j : Fin 64) :
    (iblk m c 7 t : S1x64.Idx → EReal) (ix2 (0 : Fin 1) j)
      = (m ((c : Thread nD τ).loc main_arg6) : S64.Idx → EReal) (ix1 j) := by
  obtain ⟨e0, e1⟩ := idx_zero_7 t
  show V m c main_call0_v1 (((cfg0.win 7).blk t).view.emb (ix2 (0 : Fin 1) j)) = _
  have hi : ((cfg0.win 7).blk t).view.emb (ix2 (0 : Fin 1) j) = (ix2 (0 : Fin 1) j : S1x64.Idx) := by
    funext a; apply Fin.ext
    match a with
    | ⟨0, _⟩ => show win0_7.index t (0 : Fin 2) * 1 + 1 * (0 : Fin 1).val = (0 : Fin 1).val; omega
    | ⟨1, _⟩ => show win0_7.index t (1 : Fin 2) * 64 + 1 * j.val = j.val; omega
  rw [hi, V_v1 m c]
  exact shapeCast_a_1a_apply _ shapeCasts_S64_S1x64 _ _

/-- The bias vector of `main_arg8` as a one-row matrix, as the region finds it. -/
theorem V_v2 (c : Dev nD) :
    (V m c main_call0_v2 : S1x64.Idx → EReal)
      = shapeCast S1x64 (m ((c : Thread nD τ).loc main_arg8) : S64.Idx → EReal) shapeCasts_S64_S1x64 := by
  dsimp only [Gen.V, Gen.V0]
  simp only [Gen.hostOps0, List.flatten_cons, List.flatten_nil, List.append_nil, List.cons_append, List.nil_append]
  after_results
  rfl

/-- Window 9 is that row, whole at every grid point: at `(0, j)` the bias's entry `j`. -/
theorem blk9 (c : Dev nD) (t : Fin cfg0.N) (j : Fin 64) :
    (iblk m c 9 t : S1x64.Idx → EReal) (ix2 (0 : Fin 1) j)
      = (m ((c : Thread nD τ).loc main_arg8) : S64.Idx → EReal) (ix1 j) := by
  obtain ⟨e0, e1⟩ := idx_zero_9 t
  show V m c main_call0_v2 (((cfg0.win 9).blk t).view.emb (ix2 (0 : Fin 1) j)) = _
  have hi : ((cfg0.win 9).blk t).view.emb (ix2 (0 : Fin 1) j) = (ix2 (0 : Fin 1) j : S1x64.Idx) := by
    funext a; apply Fin.ext
    match a with
    | ⟨0, _⟩ => show win0_9.index t (0 : Fin 2) * 1 + 1 * (0 : Fin 1).val = (0 : Fin 1).val; omega
    | ⟨1, _⟩ => show win0_9.index t (1 : Fin 2) * 64 + 1 * j.val = j.val; omega
  rw [hi, V_v2 m c]
  exact shapeCast_a_1a_apply _ shapeCasts_S64_S1x64 _ _

/-- The bias vector of `main_arg10` as a one-row matrix, as the region finds it. -/
theorem V_v3 (c : Dev nD) :
    (V m c main_call0_v3 : S1x64.Idx → EReal)
      = shapeCast S1x64 (m ((c : Thread nD τ).loc main_arg10) : S64.Idx → EReal) shapeCasts_S64_S1x64 := by
  dsimp only [Gen.V, Gen.V0]
  simp only [Gen.hostOps0, List.flatten_cons, List.flatten_nil, List.append_nil, List.cons_append, List.nil_append]
  after_results
  rfl

/-- Window 11 is that row, whole at every grid point: at `(0, j)` the bias's entry `j`. -/
theorem blk11 (c : Dev nD) (t : Fin cfg0.N) (j : Fin 64) :
    (iblk m c 11 t : S1x64.Idx → EReal) (ix2 (0 : Fin 1) j)
      = (m ((c : Thread nD τ).loc main_arg10) : S64.Idx → EReal) (ix1 j) := by
  obtain ⟨e0, e1⟩ := idx_zero_11 t
  show V m c main_call0_v3 (((cfg0.win 11).blk t).view.emb (ix2 (0 : Fin 1) j)) = _
  have hi : ((cfg0.win 11).blk t).view.emb (ix2 (0 : Fin 1) j) = (ix2 (0 : Fin 1) j : S1x64.Idx) := by
    funext a; apply Fin.ext
    match a with
    | ⟨0, _⟩ => show win0_11.index t (0 : Fin 2) * 1 + 1 * (0 : Fin 1).val = (0 : Fin 1).val; omega
    | ⟨1, _⟩ => show win0_11.index t (1 : Fin 2) * 64 + 1 * j.val = j.val; omega
  rw [hi, V_v3 m c]
  exact shapeCast_a_1a_apply _ shapeCasts_S64_S1x64 _ _

/-- The bias vector of `main_arg12` as a one-row matrix, as the region finds it. -/
theorem V_v4 (c : Dev nD) :
    (V m c main_call0_v4 : S1x64.Idx → EReal)
      = shapeCast S1x64 (m ((c : Thread nD τ).loc main_arg12) : S64.Idx → EReal) shapeCasts_S64_S1x64 := by
  dsimp only [Gen.V, Gen.V0]
  simp only [Gen.hostOps0, List.flatten_cons, List.flatten_nil, List.append_nil, List.cons_append, List.nil_append]
  after_results
  rfl

/-- Window 13 is that row, whole at every grid point: at `(0, j)` the bias's entry `j`. -/
theorem blk13 (c : Dev nD) (t : Fin cfg0.N) (j : Fin 64) :
    (iblk m c 13 t : S1x64.Idx → EReal) (ix2 (0 : Fin 1) j)
      = (m ((c : Thread nD τ).loc main_arg12) : S64.Idx → EReal) (ix1 j) := by
  obtain ⟨e0, e1⟩ := idx_zero_13 t
  show V m c main_call0_v4 (((cfg0.win 13).blk t).view.emb (ix2 (0 : Fin 1) j)) = _
  have hi : ((cfg0.win 13).blk t).view.emb (ix2 (0 : Fin 1) j) = (ix2 (0 : Fin 1) j : S1x64.Idx) := by
    funext a; apply Fin.ext
    match a with
    | ⟨0, _⟩ => show win0_13.index t (0 : Fin 2) * 1 + 1 * (0 : Fin 1).val = (0 : Fin 1).val; omega
    | ⟨1, _⟩ => show win0_13.index t (1 : Fin 2) * 64 + 1 * j.val = j.val; omega
  rw [hi, V_v4 m c]
  exact shapeCast_a_1a_apply _ shapeCasts_S64_S1x64 _ _

/-- The bias vector of `main_arg14` as a one-row matrix, as the region finds it. -/
theorem V_v5 (c : Dev nD) :
    (V m c main_call0_v5 : S1x64.Idx → EReal)
      = shapeCast S1x64 (m ((c : Thread nD τ).loc main_arg14) : S64.Idx → EReal) shapeCasts_S64_S1x64 := by
  dsimp only [Gen.V, Gen.V0]
  simp only [Gen.hostOps0, List.flatten_cons, List.flatten_nil, List.append_nil, List.cons_append, List.nil_append]
  after_results
  rfl

/-- Window 15 is that row, whole at every grid point: at `(0, j)` the bias's entry `j`. -/
theorem blk15 (c : Dev nD) (t : Fin cfg0.N) (j : Fin 64) :
    (iblk m c 15 t : S1x64.Idx → EReal) (ix2 (0 : Fin 1) j)
      = (m ((c : Thread nD τ).loc main_arg14) : S64.Idx → EReal) (ix1 j) := by
  obtain ⟨e0, e1⟩ := idx_zero_15 t
  show V m c main_call0_v5 (((cfg0.win 15).blk t).view.emb (ix2 (0 : Fin 1) j)) = _
  have hi : ((cfg0.win 15).blk t).view.emb (ix2 (0 : Fin 1) j) = (ix2 (0 : Fin 1) j : S1x64.Idx) := by
    funext a; apply Fin.ext
    match a with
    | ⟨0, _⟩ => show win0_15.index t (0 : Fin 2) * 1 + 1 * (0 : Fin 1).val = (0 : Fin 1).val; omega
    | ⟨1, _⟩ => show win0_15.index t (1 : Fin 2) * 64 + 1 * j.val = j.val; omega
  rw [hi, V_v5 m c]
  exact shapeCast_a_1a_apply _ shapeCasts_S64_S1x64 _ _

end Cert.KernelIdeal.Blocks

end
-- ==== Proof.LibBlockShift.lean ====
/-
  A block's part of a streamed sum depends only on the function's values on the block: a function that agrees, position
  by position on block 0, with another function on block k has, as block 0's part, the other's block k's part.
-/
import proofs.«152476_g41686952575157_cont_8to1_b_1251_30_alg».proof.Proof.LibBlockSum

namespace Cert.LibBlockShift

open Cert.LibBlockSum
open scoped BigOperators

universe u
variable {M : Type u} [AddCommMonoid M]

/-- If `g` at position `i` of block 0 is `f` at position `i` of block `k`, for every `i` below 5000, then block 0's part
    of `g` is block `k`'s part of `f`. -/
theorem part_shift (f g : ℕ → M) (k : ℕ) (h : ∀ i, i < 5000 → g i = f (k * 5000 + i)) : part g 0 = part f k := by
  rw [part_eq_range, part_eq_range]
  refine Finset.sum_congr rfl fun i hi => ?_
  rw [Nat.zero_mul, Nat.zero_add]
  exact h i (Finset.mem_range.mp hi)

end Cert.LibBlockShift
-- ==== Proof.Out.lean ====
/-
  The two results as whole arrays: the specification's functions read at the argument arrays' entries.
-/
import proofs.«152476_g41686952575157_cont_8to1_b_1251_30_alg».proof.Proof.Spec

noncomputable section

namespace Cert.Out

open Idealize.ShloMosaic Idealize.ShloMosaic.ValueIdx

/-- A matrix of extended reals, as an array indexed by its two coordinates. -/
abbrev M (a b : Nat) := (⟨2, ![a, b]⟩ : Shape).Idx → EReal
/-- A vector of extended reals. -/
abbrev V1 (a : Nat) := (⟨1, ![a]⟩ : Shape).Idx → EReal

/-- A matrix array by coordinates. -/
def mat {a b : Nat} (x : M a b) : Fin a → Fin b → EReal := fun p q => x (ix2 p q)
/-- A vector array by its coordinate. -/
def vec {a : Nat} (x : V1 a) : Fin a → EReal := fun p => x (ix1 p)

/-- The per-graph summaries as a 512×64 array. -/
def s1 (S : M 512 50000) (X : M 50000 128) (W1 : M 128 64) (b1 : V1 64) (W2 : M 64 64) (b2 : V1 64)
    (W3 : M 64 64) (b3 : V1 64) : M 512 64 :=
  fun i => Spec.s1 (mat S) (mat X) (mat W1) (vec b1) (mat W2) (vec b2) (mat W3) (vec b3) (i 0) (i 1)

/-- The running summaries as a 32×64 array. -/
def s2 (S : M 512 50000) (R : M 32 512) (X : M 50000 128) (W1 : M 128 64) (b1 : V1 64) (W2 : M 64 64) (b2 : V1 64)
    (W3 : M 64 64) (b3 : V1 64) (W4 : M 64 64) (b4 : V1 64) (W5 : M 64 64) (b5 : V1 64) (W6 : M 64 64) (b6 : V1 64) : M 32 64 :=
  fun i => Spec.s2 (mat R) (Spec.s1 (mat S) (mat X) (mat W1) (vec b1) (mat W2) (vec b2) (mat W3) (vec b3))
    (mat W4) (vec b4) (mat W5) (vec b5) (mat W6) (vec b6) (i 0) (i 1)

end Cert.Out

end
-- ==== Proof.AccReadI.lean ====
/-
  The accumulator across the ten grid points, read at an index in terms of the ARGUMENT arrays: entry (j, d) after
  point t is the streamed sum, over the first t + 1 blocks of 5000 nodes, of node(X n)(j) · S(d, n); after the last
  point that is the per-graph summary s1(d, j), and the second result is the specification's running summaries.
  Each point's blocks are read back to the arguments, a block's part of the sum is moved to its place in the whole sum,
  and the recursion over the points is an induction.
-/
import proofs.«152476_g41686952575157_cont_8to1_b_1251_30_alg».proof.Proof.PiecesI
import proofs.«152476_g41686952575157_cont_8to1_b_1251_30_alg».proof.Proof.PartReadI
import proofs.«152476_g41686952575157_cont_8to1_b_1251_30_alg».proof.Proof.BlocksI
import proofs.«152476_g41686952575157_cont_8to1_b_1251_30_alg».proof.Proof.LibBlockSum
import proofs.«152476_g41686952575157_cont_8to1_b_1251_30_alg».proof.Proof.LibBlockShift
import proofs.«152476_g41686952575157_cont_8to1_b_1251_30_alg».proof.Proof.Out

set_option maxRecDepth 16384

noncomputable section

namespace Cert.KernelIdeal.AccRead

open Cert.KernelIdeal Cert.KernelIdeal.Gen Idealize.ShloMosaic Idealize.ShloMosaic.TcCoe Idealize.SL.Sem
open Idealize.ShloMosaic.ValueIdx
open Cert.KernelIdeal.Blocks
open scoped BigOperators

variable (m : (ℓ : Loc nD τ sig) → Buf (Elt Ideal) ℓ)

/-- One summand of the per-graph summary, read at every natural number (zero past the last node): node `n`'s third-layer
    feature `j` times the summary matrix's entry `(d, n)`. -/
def fS (c : Dev nD) (j : Fin 64) (d : Fin 512) : ℕ → EReal :=
  Cert.LibBlockSum.ext (fun n : Fin 50000 =>
    Spec.node (Cert.Out.mat (m ((c : Thread nD τ).loc main_arg3) : S128x64.Idx → EReal)) (Cert.Out.vec (m ((c : Thread nD τ).loc main_arg4) : S64.Idx → EReal)) (Cert.Out.mat (m ((c : Thread nD τ).loc main_arg5) : S64x64.Idx → EReal)) (Cert.Out.vec (m ((c : Thread nD τ).loc main_arg6) : S64.Idx → EReal))
      (Cert.Out.mat (m ((c : Thread nD τ).loc main_arg7) : S64x64.Idx → EReal)) (Cert.Out.vec (m ((c : Thread nD τ).loc main_arg8) : S64.Idx → EReal)) (fun k => (m ((c : Thread nD τ).loc main_arg2) : S50000x128.Idx → EReal) (ix2 n k)) j
      * (m ((c : Thread nD τ).loc main_arg0) : S512x50000.Idx → EReal) (ix2 d n))

/-- The two halves of the summary block at point `t`, joined, are the summary matrix's entries at the point's nodes. -/
theorem half_eq (c : Dev nD) (t : Fin cfg0.N) (r : Fin 5000) (d : Fin 512) :
    PartRead.half (iblk m c 1 t) (iblk m c 2 t) r d = (m ((c : Thread nD τ).loc main_arg0) : S512x50000.Idx → EReal) (ix2 d ⟨t.val * 5000 + r.val, row_lt t r⟩) := by
  unfold PartRead.half
  by_cases h : d.val < 256
  · rw [dif_pos h]
    exact blk1 m c t r ⟨d.val, h⟩
  · rw [dif_neg h]
    refine (blk2 m c t r ⟨d.val - 256, by have := d.isLt; omega⟩).trans ?_
    exact congrArg (fun e : Fin 512 => (m ((c : Thread nD τ).loc main_arg0) : S512x50000.Idx → EReal) (ix2 e ⟨t.val * 5000 + r.val, row_lt t r⟩))
      (Fin.ext (show 256 + (d.val - 256) = d.val by omega))

/-- Row `r` of point `t`'s blocks contributes the summand of node `5000 t + r`. -/
theorem term_eq (c : Dev nD) (t : Fin cfg0.N) (j : Fin 64) (d : Fin 512) (r : Fin 5000) :
    PartRead.term (iblk m c 0 t) (iblk m c 1 t) (iblk m c 2 t) (iblk m c 4 t) (iblk m c 5 t) (iblk m c 6 t) (iblk m c 7 t) (iblk m c 8 t) (iblk m c 9 t) j d r = fS m c j d (t.val * 5000 + r.val) := by
  unfold fS
  rw [Cert.LibBlockSum.ext_of_lt _ _ (row_lt t r)]
  unfold PartRead.term
  rw [half_eq m c t r d]
  have e4 : (fun (k : Fin 128) (j : Fin 64) => (iblk m c 4 t : S64x128.Idx → EReal) (ix2 j k)) = Cert.Out.mat (m ((c : Thread nD τ).loc main_arg3) : S128x64.Idx → EReal) :=
    funext fun k => funext fun j => blk4 m c t j k
  have e5 : PayValue.row (iblk m c 5 t) = Cert.Out.vec (m ((c : Thread nD τ).loc main_arg4) : S64.Idx → EReal) := funext fun q => blk5 m c t q
  have e6 : PayValue.mat (iblk m c 6 t) = Cert.Out.mat (m ((c : Thread nD τ).loc main_arg5) : S64x64.Idx → EReal) := congrArg PayValue.mat (blk6 m c t)
  have e7 : PayValue.row (iblk m c 7 t) = Cert.Out.vec (m ((c : Thread nD τ).loc main_arg6) : S64.Idx → EReal) := funext fun q => blk7 m c t q
  have e8 : PayValue.mat (iblk m c 8 t) = Cert.Out.mat (m ((c : Thread nD τ).loc main_arg7) : S64x64.Idx → EReal) := congrArg PayValue.mat (blk8 m c t)
  have e9 : PayValue.row (iblk m c 9 t) = Cert.Out.vec (m ((c : Thread nD τ).loc main_arg8) : S64.Idx → EReal) := funext fun q => blk9 m c t q
  have e0 : (fun k : Fin 128 => (iblk m c 0 t : S5000x128.Idx → EReal) (ix2 r k))
      = fun k => (m ((c : Thread nD τ).loc main_arg2) : S50000x128.Idx → EReal) (ix2 ⟨t.val * 5000 + r.val, row_lt t r⟩ k) := funext fun k => blk0 m c t r k
  rw [e4, e5, e6, e7, e8, e9, e0]

/-- Point `t`'s partial sums are block `t`'s part of the summary's summands. -/
theorem part_at (c : Dev nD) (t : Fin cfg0.N) (j : Fin 64) (d : Fin 512) :
    (Body.part (F := Ideal) (iblk m c 0 t) (iblk m c 1 t) (iblk m c 2 t) (iblk m c 4 t) (iblk m c 5 t) (iblk m c 6 t) (iblk m c 7 t) (iblk m c 8 t) (iblk m c 9 t) : S64x512.Idx → EReal) (ix2 j d) = Cert.LibBlockSum.part (fS m c j d) t.val := by
  refine (PartRead.part_read (iblk m c 0 t) (iblk m c 1 t) (iblk m c 2 t) (iblk m c 4 t) (iblk m c 5 t) (iblk m c 6 t) (iblk m c 7 t) (iblk m c 8 t) (iblk m c 9 t) j d).trans ?_
  refine Cert.LibBlockShift.part_shift (fS m c j d) _ t.val fun i hi => ?_
  rw [Cert.LibBlockSum.ext_of_lt _ i hi]
  exact term_eq m c t j d ⟨i, hi⟩

/-- THE ACCUMULATOR after point `t`: entry `(j, d)` is the streamed sum of the summary's summands over the first `t + 1`
    blocks of nodes. By induction on the point. -/
theorem acc_read (c : Dev nD) (t : Fin cfg0.N) (j : Fin 64) (d : Fin 512) :
    (Body.acc m c t.val t.isLt : S64x512.Idx → EReal) (ix2 j d) = Cert.LibBlockSum.accum (fS m c j d) t.val := by
  obtain ⟨n, hn⟩ := t
  induction n with
  | zero =>
    exact (congrFun (Body.acc_zero m c ⟨0, hn⟩ rfl) (ix2 j d)).trans (part_at m c ⟨0, hn⟩ j d)
  | succ n ih =>
    refine (congrFun (Body.acc_succ m c ⟨n + 1, hn⟩ (Nat.succ_le_succ (Nat.zero_le n))) (ix2 j d)).trans ?_
    refine (PartRead.step_read (iblk m c 0 ⟨n + 1, hn⟩) (iblk m c 1 ⟨n + 1, hn⟩) (iblk m c 2 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (Body.acc m c n (Nat.lt_of_succ_lt hn)) j d).trans ?_
    show _ = Cert.LibBlockSum.accum (fS m c j d) n + Cert.LibBlockSum.part (fS m c j d) (n + 1)
    exact congrArg₂ (· + ·) (ih (Nat.lt_of_succ_lt hn)) (part_at m c ⟨n + 1, hn⟩ j d)

/-- After the last point the accumulator is the per-graph summaries, transposed. -/
theorem acc_last (c : Dev nD) (t : Fin cfg0.N) (h9 : t.val = 9) (j : Fin 64) (d : Fin 512) :
    (Body.acc m c t.val t.isLt : S64x512.Idx → EReal) (ix2 j d)
      = Cert.Out.s1 (m ((c : Thread nD τ).loc main_arg0) : S512x50000.Idx → EReal) (m ((c : Thread nD τ).loc main_arg2) : S50000x128.Idx → EReal) (m ((c : Thread nD τ).loc main_arg3) : S128x64.Idx → EReal) (m ((c : Thread nD τ).loc main_arg4) : S64.Idx → EReal) (m ((c : Thread nD τ).loc main_arg5) : S64x64.Idx → EReal) (m ((c : Thread nD τ).loc main_arg6) : S64.Idx → EReal) (m ((c : Thread nD τ).loc main_arg7) : S64x64.Idx → EReal) (m ((c : Thread nD τ).loc main_arg8) : S64.Idx → EReal) (ix2 d j) := by
  rw [acc_read m c t j d, h9, Cert.LibBlockSum.accum_nine]
  unfold fS Cert.Out.s1 Spec.s1
  refine Finset.sum_congr rfl fun n _ => ?_
  rw [Cert.LibBlockSum.ext_val]
  exact mul_comm _ _

/-- The second result after the last point: the running summaries of the specification. -/
theorem res2_read (c : Dev nD) (t : Fin cfg0.N) (h9 : t.val = 9) (q : Fin 32) (j : Fin 64) :
    (Body.res2 m c t : S32x64.Idx → EReal) (ix2 q j)
      = Cert.Out.s2 (m ((c : Thread nD τ).loc main_arg0) : S512x50000.Idx → EReal) (m ((c : Thread nD τ).loc main_arg1) : S32x512.Idx → EReal) (m ((c : Thread nD τ).loc main_arg2) : S50000x128.Idx → EReal) (m ((c : Thread nD τ).loc main_arg3) : S128x64.Idx → EReal) (m ((c : Thread nD τ).loc main_arg4) : S64.Idx → EReal) (m ((c : Thread nD τ).loc main_arg5) : S64x64.Idx → EReal) (m ((c : Thread nD τ).loc main_arg6) : S64.Idx → EReal) (m ((c : Thread nD τ).loc main_arg7) : S64x64.Idx → EReal) (m ((c : Thread nD τ).loc main_arg8) : S64.Idx → EReal) (m ((c : Thread nD τ).loc main_arg9) : S64x64.Idx → EReal) (m ((c : Thread nD τ).loc main_arg10) : S64.Idx → EReal) (m ((c : Thread nD τ).loc main_arg11) : S64x64.Idx → EReal) (m ((c : Thread nD τ).loc main_arg12) : S64.Idx → EReal) (m ((c : Thread nD τ).loc main_arg13) : S64x64.Idx → EReal) (m ((c : Thread nD τ).loc main_arg14) : S64.Idx → EReal) (ix2 q j) := by
  refine (congrFun (Body.res2_last m c t h9) (ix2 q j)).trans ?_
  refine (PartRead.epi_read (Body.acc m c t.val t.isLt) (iblk m c 10 t) (iblk m c 11 t) (iblk m c 12 t) (iblk m c 13 t) (iblk m c 14 t) (iblk m c 15 t) (iblk m c 3 t) q j).trans ?_
  have es : (fun (d : Fin 512) (i : Fin 64) => (Body.acc m c t.val t.isLt : S64x512.Idx → EReal) (ix2 i d))
      = Spec.s1 (Cert.Out.mat (m ((c : Thread nD τ).loc main_arg0) : S512x50000.Idx → EReal)) (Cert.Out.mat (m ((c : Thread nD τ).loc main_arg2) : S50000x128.Idx → EReal)) (Cert.Out.mat (m ((c : Thread nD τ).loc main_arg3) : S128x64.Idx → EReal)) (Cert.Out.vec (m ((c : Thread nD τ).loc main_arg4) : S64.Idx → EReal)) (Cert.Out.mat (m ((c : Thread nD τ).loc main_arg5) : S64x64.Idx → EReal)) (Cert.Out.vec (m ((c : Thread nD τ).loc main_arg6) : S64.Idx → EReal)) (Cert.Out.mat (m ((c : Thread nD τ).loc main_arg7) : S64x64.Idx → EReal)) (Cert.Out.vec (m ((c : Thread nD τ).loc main_arg8) : S64.Idx → EReal)) :=
    funext fun d => funext fun i => acc_last m c t h9 i d
  have e3 : PayValue.mat (iblk m c 3 t) = Cert.Out.mat (m ((c : Thread nD τ).loc main_arg1) : S32x512.Idx → EReal) := congrArg PayValue.mat (blk3 m c t)
  have e10 : PayValue.mat (iblk m c 10 t) = Cert.Out.mat (m ((c : Thread nD τ).loc main_arg9) : S64x64.Idx → EReal) := congrArg PayValue.mat (blk10 m c t)
  have e11 : PayValue.row (iblk m c 11 t) = Cert.Out.vec (m ((c : Thread nD τ).loc main_arg10) : S64.Idx → EReal) := funext fun p => blk11 m c t p
  have e12 : PayValue.mat (iblk m c 12 t) = Cert.Out.mat (m ((c : Thread nD τ).loc main_arg11) : S64x64.Idx → EReal) := congrArg PayValue.mat (blk12 m c t)
  have e13 : PayValue.row (iblk m c 13 t) = Cert.Out.vec (m ((c : Thread nD τ).loc main_arg12) : S64.Idx → EReal) := funext fun p => blk13 m c t p
  have e14 : PayValue.mat (iblk m c 14 t) = Cert.Out.mat (m ((c : Thread nD τ).loc main_arg13) : S64x64.Idx → EReal) := congrArg PayValue.mat (blk14 m c t)
  have e15 : PayValue.row (iblk m c 15 t) = Cert.Out.vec (m ((c : Thread nD τ).loc main_arg14) : S64.Idx → EReal) := funext fun p => blk15 m c t p
  rw [es, e3, e10, e11, e12, e13, e14, e15]
  rfl

end Cert.KernelIdeal.AccRead

end
-- ==== Proof.RefRun.lean ====
/-
  The reference program's run.

  The program is a straight line of 74 host operations once its six activation calls are written out at their
  call sites (each call: the zero constant and its broadcast, the comparison with it, the slope's conversion and
  broadcast, the product with the slope, and the choice between the input and the product). Every operation writes
  a buffer of its own and reads buffers written before it or arguments, so the contents after the line are the
  operations' composition over the arguments: the per-graph summary `R1` and the running summary `R2` below,
  with every argument buffer as it was. The line is read in seven consecutive stretches, one per dense layer (the
  fourth also holding the first summary product, the seventh only the last product): each stretch's result is a
  function of the buffers it reads, whatever the contents before it.
-/
import proofs.«152476_g41686952575157_cont_8to1_b_1251_30_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-! ## The composed terms -/

/-- A dense layer before its activation, on the 128 input features of every node: `X · W + b`, the bias over every row. -/
def lin128 (X : (⟨S50000x128, .f32⟩ : BufTy).Contents (Elt F)) (W : (⟨S128x64, .f32⟩ : BufTy).Contents (Elt F)) (b : (⟨S64, .f32⟩ : BufTy).Contents (Elt F)) : (⟨S50000x64, .f32⟩ : BufTy).Contents (Elt F) :=
  addf (Host.dotGeneral dot_S50000x128_S128x64_S50000x64_1_0_0_1_n_n none X W)
    (broadcastInDim S50000x64 ![0, 1] bcast_S1x64_S50000x64_0_1 (broadcastInDim S1x64 ![1] bcast_S64_S1x64_1 b))

/-- The same on 64 features of every node. -/
def linBig (X : (⟨S50000x64, .f32⟩ : BufTy).Contents (Elt F)) (W : (⟨S64x64, .f32⟩ : BufTy).Contents (Elt F)) (b : (⟨S64, .f32⟩ : BufTy).Contents (Elt F)) : (⟨S50000x64, .f32⟩ : BufTy).Contents (Elt F) :=
  addf (Host.dotGeneral dot_S50000x64_S64x64_S50000x64_1_0_0_1_n_n none X W)
    (broadcastInDim S50000x64 ![0, 1] bcast_S1x64_S50000x64_0_1 (broadcastInDim S1x64 ![1] bcast_S64_S1x64_1 b))

/-- The same on 64 features of every graph. -/
def linSm (X : (⟨S512x64, .f32⟩ : BufTy).Contents (Elt F)) (W : (⟨S64x64, .f32⟩ : BufTy).Contents (Elt F)) (b : (⟨S64, .f32⟩ : BufTy).Contents (Elt F)) : (⟨S512x64, .f32⟩ : BufTy).Contents (Elt F) :=
  addf (Host.dotGeneral dot_S512x64_S64x64_S512x64_1_0_0_1_n_n none X W)
    (broadcastInDim S512x64 ![0, 1] bcast_S1x64_S512x64_0_1 (broadcastInDim S1x64 ![1] bcast_S64_S1x64_1 b))

/-- The activation on the node features: where `v ≥ 0` holds `v`, elsewhere the slope times `v`. -/
def leakyBig (v : (⟨S50000x64, .f32⟩ : BufTy).Contents (Elt F)) : (⟨S50000x64, .f32⟩ : BufTy).Contents (Elt F) :=
  select (cmpf .oge v (broadcastInDim S50000x64 ![] bcast_S_S50000x64 (constant S_ .f32 0x00000000#32))) v
    (mulf (broadcastInDim S50000x64 ![] bcast_S_S50000x64 (id (constant S_ .f32 0x3C23D70A#32))) v)

/-- The activation on the graph features. -/
def leakySm (v : (⟨S512x64, .f32⟩ : BufTy).Contents (Elt F)) : (⟨S512x64, .f32⟩ : BufTy).Contents (Elt F) :=
  select (cmpf .oge v (broadcastInDim S512x64 ![] bcast_S_S512x64 (constant S_ .f32 0x00000000#32))) v
    (mulf (broadcastInDim S512x64 ![] bcast_S_S512x64 (id (constant S_ .f32 0x3C23D70A#32))) v)

/-- The three node layers. -/
def nodes (X : (⟨S50000x128, .f32⟩ : BufTy).Contents (Elt F)) (W1 : (⟨S128x64, .f32⟩ : BufTy).Contents (Elt F)) (b1 : (⟨S64, .f32⟩ : BufTy).Contents (Elt F)) (W2 : (⟨S64x64, .f32⟩ : BufTy).Contents (Elt F)) (b2 : (⟨S64, .f32⟩ : BufTy).Contents (Elt F))
    (W3 : (⟨S64x64, .f32⟩ : BufTy).Contents (Elt F)) (b3 : (⟨S64, .f32⟩ : BufTy).Contents (Elt F)) : (⟨S50000x64, .f32⟩ : BufTy).Contents (Elt F) :=
  leakyBig (linBig (leakyBig (linBig (leakyBig (lin128 X W1 b1)) W2 b2)) W3 b3)

/-- The first result: the summary matrix times the node features. -/
def R1 (S : (⟨S512x50000, .f32⟩ : BufTy).Contents (Elt F)) (X : (⟨S50000x128, .f32⟩ : BufTy).Contents (Elt F)) (W1 : (⟨S128x64, .f32⟩ : BufTy).Contents (Elt F)) (b1 : (⟨S64, .f32⟩ : BufTy).Contents (Elt F)) (W2 : (⟨S64x64, .f32⟩ : BufTy).Contents (Elt F)) (b2 : (⟨S64, .f32⟩ : BufTy).Contents (Elt F))
    (W3 : (⟨S64x64, .f32⟩ : BufTy).Contents (Elt F)) (b3 : (⟨S64, .f32⟩ : BufTy).Contents (Elt F)) : (⟨S512x64, .f32⟩ : BufTy).Contents (Elt F) :=
  Host.dotGeneral dot_S512x50000_S50000x64_S512x64_1_0_0_1_n_n none S (nodes X W1 b1 W2 b2 W3 b3)

/-- The three global layers on a summary. -/
def globs (s : (⟨S512x64, .f32⟩ : BufTy).Contents (Elt F)) (W4 : (⟨S64x64, .f32⟩ : BufTy).Contents (Elt F)) (b4 : (⟨S64, .f32⟩ : BufTy).Contents (Elt F)) (W5 : (⟨S64x64, .f32⟩ : BufTy).Contents (Elt F)) (b5 : (⟨S64, .f32⟩ : BufTy).Contents (Elt F))
    (W6 : (⟨S64x64, .f32⟩ : BufTy).Contents (Elt F)) (b6 : (⟨S64, .f32⟩ : BufTy).Contents (Elt F)) : (⟨S512x64, .f32⟩ : BufTy).Contents (Elt F) :=
  leakySm (linSm (leakySm (linSm (leakySm (linSm s W4 b4)) W5 b5)) W6 b6)

/-- The second result: the running matrix times the global features of the first result. -/
def R2 (S : (⟨S512x50000, .f32⟩ : BufTy).Contents (Elt F)) (R : (⟨S32x512, .f32⟩ : BufTy).Contents (Elt F)) (X : (⟨S50000x128, .f32⟩ : BufTy).Contents (Elt F)) (W1 : (⟨S128x64, .f32⟩ : BufTy).Contents (Elt F)) (b1 : (⟨S64, .f32⟩ : BufTy).Contents (Elt F))
    (W2 : (⟨S64x64, .f32⟩ : BufTy).Contents (Elt F)) (b2 : (⟨S64, .f32⟩ : BufTy).Contents (Elt F)) (W3 : (⟨S64x64, .f32⟩ : BufTy).Contents (Elt F)) (b3 : (⟨S64, .f32⟩ : BufTy).Contents (Elt F)) (W4 : (⟨S64x64, .f32⟩ : BufTy).Contents (Elt F)) (b4 : (⟨S64, .f32⟩ : BufTy).Contents (Elt F))
    (W5 : (⟨S64x64, .f32⟩ : BufTy).Contents (Elt F)) (b5 : (⟨S64, .f32⟩ : BufTy).Contents (Elt F)) (W6 : (⟨S64x64, .f32⟩ : BufTy).Contents (Elt F)) (b6 : (⟨S64, .f32⟩ : BufTy).Contents (Elt F)) : (⟨S32x64, .f32⟩ : BufTy).Contents (Elt F) :=
  Host.dotGeneral dot_S32x512_S512x64_S32x64_1_0_0_1_n_n none R (globs (R1 S X W1 b1 W2 b2 W3 b3) W4 b4 W5 b5 W6 b6)

/-! ## The operations -/

/-- The first node layer: the product with the first weight, its bias as a row and over every node, their sum, the slope, and the activation's seven operations (zero, its broadcast, the comparison, the slope converted and broadcast, the scaled input, the choice). -/
abbrev part1 : List (HloOp τ sig (Elt F)) :=
  [ binary main_arg2 main_arg3 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    nullary main_cst (constant S_ .f32 0x3C23D70A#32),
    nullary main_call0_cst (constant S_ .f32 0x00000000#32),
    unary main_call0_cst main_call0_v0 (broadcastInDim S50000x64 ![] bcast_S_S50000x64 : (⟨S_, .f32⟩ : BufTy).Contents (Elt F) → (⟨S50000x64, .f32⟩ : BufTy).Contents (Elt F)),
    binary main_v3 main_call0_v0 main_call0_v1 (cmpf .oge : (⟨S50000x64, .f32⟩ : BufTy).Contents (Elt F) → (⟨S50000x64, .f32⟩ : BufTy).Contents (Elt F) → (⟨S50000x64, .i1⟩ : BufTy).Contents (Elt F)),
    unary main_cst main_call0_v2 (id : (⟨S_, .f32⟩ : BufTy).Contents (Elt F) → (⟨S_, .f32⟩ : BufTy).Contents (Elt F)),
    unary main_call0_v2 main_call0_v3 (broadcastInDim S50000x64 ![] bcast_S_S50000x64 : (⟨S_, .f32⟩ : BufTy).Contents (Elt F) → (⟨S50000x64, .f32⟩ : BufTy).Contents (Elt F)),
    binary main_call0_v3 main_v3 main_call0_v4 (mulf : (⟨S50000x64, .f32⟩ : BufTy).Contents (Elt F) → (⟨S50000x64, .f32⟩ : BufTy).Contents (Elt F) → (⟨S50000x64, .f32⟩ : BufTy).Contents (Elt F)),
    ternary main_call0_v1 main_v3 main_call0_v4 main_v4 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ]

/-- The second node layer, likewise. -/
abbrev part2 : List (HloOp τ sig (Elt F)) :=
  [ binary main_v4 main_arg5 main_v5 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v6 (broadcastInDim S1x64 ![1] bcast_S64_S1x64_1 : (⟨S64, .f32⟩ : BufTy).Contents (Elt F) → (⟨S1x64, .f32⟩ : BufTy).Contents (Elt F)),
    unary main_v6 main_v7 (broadcastInDim S50000x64 ![0, 1] bcast_S1x64_S50000x64_0_1 : (⟨S1x64, .f32⟩ : BufTy).Contents (Elt F) → (⟨S50000x64, .f32⟩ : BufTy).Contents (Elt F)),
    binary main_v5 main_v7 main_v8 (addf : (⟨S50000x64, .f32⟩ : BufTy).Contents (Elt F) → (⟨S50000x64, .f32⟩ : BufTy).Contents (Elt F) → (⟨S50000x64, .f32⟩ : BufTy).Contents (Elt F)),
    nullary main_cst_0 (constant S_ .f32 0x3C23D70A#32),
    nullary main_call1_cst (constant S_ .f32 0x00000000#32),
    unary main_call1_cst main_call1_v0 (broadcastInDim S50000x64 ![] bcast_S_S50000x64 : (⟨S_, .f32⟩ : BufTy).Contents (Elt F) → (⟨S50000x64, .f32⟩ : BufTy).Contents (Elt F)),
    binary main_v8 main_call1_v0 main_call1_v1 (cmpf .oge : (⟨S50000x64, .f32⟩ : BufTy).Contents (Elt F) → (⟨S50000x64, .f32⟩ : BufTy).Contents (Elt F) → (⟨S50000x64, .i1⟩ : BufTy).Contents (Elt F)),
    unary main_cst_0 main_call1_v2 (id : (⟨S_, .f32⟩ : BufTy).Contents (Elt F) → (⟨S_, .f32⟩ : BufTy).Contents (Elt F)),
    unary main_call1_v2 main_call1_v3 (broadcastInDim S50000x64 ![] bcast_S_S50000x64 : (⟨S_, .f32⟩ : BufTy).Contents (Elt F) → (⟨S50000x64, .f32⟩ : BufTy).Contents (Elt F)),
    binary main_call1_v3 main_v8 main_call1_v4 (mulf : (⟨S50000x64, .f32⟩ : BufTy).Contents (Elt F) → (⟨S50000x64, .f32⟩ : BufTy).Contents (Elt F) → (⟨S50000x64, .f32⟩ : BufTy).Contents (Elt F)),
    ternary main_call1_v1 main_v8 main_call1_v4 main_v9 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ]

/-- The third node layer, likewise. -/
abbrev part3 : List (HloOp τ sig (Elt F)) :=
  [ binary main_v9 main_arg7 main_v10 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v11 (broadcastInDim S1x64 ![1] bcast_S64_S1x64_1 : (⟨S64, .f32⟩ : BufTy).Contents (Elt F) → (⟨S1x64, .f32⟩ : BufTy).Contents (Elt F)),
    unary main_v11 main_v12 (broadcastInDim S50000x64 ![0, 1] bcast_S1x64_S50000x64_0_1 : (⟨S1x64, .f32⟩ : BufTy).Contents (Elt F) → (⟨S50000x64, .f32⟩ : BufTy).Contents (Elt F)),
    binary main_v10 main_v12 main_v13 (addf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x3C23D70A#32),
    nullary main_call2_cst (constant S_ .f32 0x00000000#32),
    unary main_call2_cst main_call2_v0 (broadcastInDim S50000x64 ![] bcast_S_S50000x64 : (⟨S_, .f32⟩ : BufTy).Contents (Elt F) → (⟨S50000x64, .f32⟩ : BufTy).Contents (Elt F)),
    binary main_v13 main_call2_v0 main_call2_v1 (cmpf .oge : (⟨S50000x64, .f32⟩ : BufTy).Contents (Elt F) → (⟨S50000x64, .f32⟩ : BufTy).Contents (Elt F) → (⟨S50000x64, .i1⟩ : BufTy).Contents (Elt F)),
    unary main_cst_1 main_call2_v2 (id : (⟨S_, .f32⟩ : BufTy).Contents (Elt F) → (⟨S_, .f32⟩ : BufTy).Contents (Elt F)),
    unary main_call2_v2 main_call2_v3 (broadcastInDim S50000x64 ![] bcast_S_S50000x64 : (⟨S_, .f32⟩ : BufTy).Contents (Elt F) → (⟨S50000x64, .f32⟩ : BufTy).Contents (Elt F)),
    binary main_call2_v3 main_v13 main_call2_v4 (mulf : (⟨S50000x64, .f32⟩ : BufTy).Contents (Elt F) → (⟨S50000x64, .f32⟩ : BufTy).Contents (Elt F) → (⟨S50000x64, .f32⟩ : BufTy).Contents (Elt F)),
    ternary main_call2_v1 main_v13 main_call2_v4 main_v14 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)) ]

/-- The per-graph summary (the product of the summary matrix with the node features) and the first global layer on it. -/
abbrev part4 : List (HloOp τ sig (Elt F)) :=
  [ binary main_arg0 main_v14 main_v15 ((fun l r => Host.dotGeneral dot_S512x50000_S50000x64_S512x64_1_0_0_1_n_n none l r) : (⟨S512x50000, .f32⟩ : BufTy).Contents (Elt F) → (⟨S50000x64, .f32⟩ : BufTy).Contents (Elt F) → (⟨S512x64, .f32⟩ : BufTy).Contents (Elt F)),
    binary main_v15 main_arg9 main_v16 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg10 main_v17 (broadcastInDim S1x64 ![1] bcast_S64_S1x64_1 : (⟨S64, .f32⟩ : BufTy).Contents (Elt F) → (⟨S1x64, .f32⟩ : BufTy).Contents (Elt F)),
    unary main_v17 main_v18 (broadcastInDim S512x64 ![0, 1] bcast_S1x64_S512x64_0_1 : (⟨S1x64, .f32⟩ : BufTy).Contents (Elt F) → (⟨S512x64, .f32⟩ : BufTy).Contents (Elt F)),
    binary main_v16 main_v18 main_v19 (addf : (⟨S512x64, .f32⟩ : BufTy).Contents (Elt F) → (⟨S512x64, .f32⟩ : BufTy).Contents (Elt F) → (⟨S512x64, .f32⟩ : BufTy).Contents (Elt F)),
    nullary main_cst_2 (constant S_ .f32 0x3C23D70A#32),
    nullary main_call3_cst (constant S_ .f32 0x00000000#32),
    unary main_call3_cst main_call3_v0 (broadcastInDim S512x64 ![] bcast_S_S512x64 : (⟨S_, .f32⟩ : BufTy).Contents (Elt F) → (⟨S512x64, .f32⟩ : BufTy).Contents (Elt F)),
    binary main_v19 main_call3_v0 main_call3_v1 (cmpf .oge : (⟨S512x64, .f32⟩ : BufTy).Contents (Elt F) → (⟨S512x64, .f32⟩ : BufTy).Contents (Elt F) → (⟨S512x64, .i1⟩ : BufTy).Contents (Elt F)),
    unary main_cst_2 main_call3_v2 (id : (⟨S_, .f32⟩ : BufTy).Contents (Elt F) → (⟨S_, .f32⟩ : BufTy).Contents (Elt F)),
    unary main_call3_v2 main_call3_v3 (broadcastInDim S512x64 ![] bcast_S_S512x64 : (⟨S_, .f32⟩ : BufTy).Contents (Elt F) → (⟨S512x64, .f32⟩ : BufTy).Contents (Elt F)),
    binary main_call3_v3 main_v19 main_call3_v4 (mulf : (⟨S512x64, .f32⟩ : BufTy).Contents (Elt F) → (⟨S512x64, .f32⟩ : BufTy).Contents (Elt F) → (⟨S512x64, .f32⟩ : BufTy).Contents (Elt F)),
    ternary main_call3_v1 main_v19 main_call3_v4 main_v20 (select : (⟨S512x64, .i1⟩ : BufTy).Contents (Elt F) → (⟨S512x64, .f32⟩ : BufTy).Contents (Elt F) → (⟨S512x64, .f32⟩ : BufTy).Contents (Elt F) → (⟨S512x64, .f32⟩ : BufTy).Contents (Elt F)) ]

/-- The second global layer. -/
abbrev part5 : List (HloOp τ sig (Elt F)) :=
  [ binary main_v20 main_arg11 main_v21 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg12 main_v22 (broadcastInDim S1x64 ![1] bcast_S64_S1x64_1 : (⟨S64, .f32⟩ : BufTy).Contents (Elt F) → (⟨S1x64, .f32⟩ : BufTy).Contents (Elt F)),
    unary main_v22 main_v23 (broadcastInDim S512x64 ![0, 1] bcast_S1x64_S512x64_0_1 : (⟨S1x64, .f32⟩ : BufTy).Contents (Elt F) → (⟨S512x64, .f32⟩ : BufTy).Contents (Elt F)),
    binary main_v21 main_v23 main_v24 (addf : (⟨S512x64, .f32⟩ : BufTy).Contents (Elt F) → (⟨S512x64, .f32⟩ : BufTy).Contents (Elt F) → (⟨S512x64, .f32⟩ : BufTy).Contents (Elt F)),
    nullary main_cst_3 (constant S_ .f32 0x3C23D70A#32),
    nullary main_call4_cst (constant S_ .f32 0x00000000#32),
    unary main_call4_cst main_call4_v0 (broadcastInDim S512x64 ![] bcast_S_S512x64 : (⟨S_, .f32⟩ : BufTy).Contents (Elt F) → (⟨S512x64, .f32⟩ : BufTy).Contents (Elt F)),
    binary main_v24 main_call4_v0 main_call4_v1 (cmpf .oge : (⟨S512x64, .f32⟩ : BufTy).Contents (Elt F) → (⟨S512x64, .f32⟩ : BufTy).Contents (Elt F) → (⟨S512x64, .i1⟩ : BufTy).Contents (Elt F)),
    unary main_cst_3 main_call4_v2 (id : (⟨S_, .f32⟩ : BufTy).Contents (Elt F) → (⟨S_, .f32⟩ : BufTy).Contents (Elt F)),
    unary main_call4_v2 main_call4_v3 (broadcastInDim S512x64 ![] bcast_S_S512x64 : (⟨S_, .f32⟩ : BufTy).Contents (Elt F) → (⟨S512x64, .f32⟩ : BufTy).Contents (Elt F)),
    binary main_call4_v3 main_v24 main_call4_v4 (mulf : (⟨S512x64, .f32⟩ : BufTy).Contents (Elt F) → (⟨S512x64, .f32⟩ : BufTy).Contents (Elt F) → (⟨S512x64, .f32⟩ : BufTy).Contents (Elt F)),
    ternary main_call4_v1 main_v24 main_call4_v4 main_v25 (select : (⟨S512x64, .i1⟩ : BufTy).Contents (Elt F) → (⟨S512x64, .f32⟩ : BufTy).Contents (Elt F) → (⟨S512x64, .f32⟩ : BufTy).Contents (Elt F) → (⟨S512x64, .f32⟩ : BufTy).Contents (Elt F)) ]

/-- The third global layer. -/
abbrev part6 : List (HloOp τ sig (Elt F)) :=
  [ binary main_v25 main_arg13 main_v26 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg14 main_v27 (broadcastInDim S1x64 ![1] bcast_S64_S1x64_1 : (⟨S64, .f32⟩ : BufTy).Contents (Elt F) → (⟨S1x64, .f32⟩ : BufTy).Contents (Elt F)),
    unary main_v27 main_v28 (broadcastInDim S512x64 ![0, 1] bcast_S1x64_S512x64_0_1 : (⟨S1x64, .f32⟩ : BufTy).Contents (Elt F) → (⟨S512x64, .f32⟩ : BufTy).Contents (Elt F)),
    binary main_v26 main_v28 main_v29 (addf : (⟨S512x64, .f32⟩ : BufTy).Contents (Elt F) → (⟨S512x64, .f32⟩ : BufTy).Contents (Elt F) → (⟨S512x64, .f32⟩ : BufTy).Contents (Elt F)),
    nullary main_cst_4 (constant S_ .f32 0x3C23D70A#32),
    nullary main_call5_cst (constant S_ .f32 0x00000000#32),
    unary main_call5_cst main_call5_v0 (broadcastInDim S512x64 ![] bcast_S_S512x64 : (⟨S_, .f32⟩ : BufTy).Contents (Elt F) → (⟨S512x64, .f32⟩ : BufTy).Contents (Elt F)),
    binary main_v29 main_call5_v0 main_call5_v1 (cmpf .oge : (⟨S512x64, .f32⟩ : BufTy).Contents (Elt F) → (⟨S512x64, .f32⟩ : BufTy).Contents (Elt F) → (⟨S512x64, .i1⟩ : BufTy).Contents (Elt F)),
    unary main_cst_4 main_call5_v2 (id : (⟨S_, .f32⟩ : BufTy).Contents (Elt F) → (⟨S_, .f32⟩ : BufTy).Contents (Elt F)),
    unary main_call5_v2 main_call5_v3 (broadcastInDim S512x64 ![] bcast_S_S512x64 : (⟨S_, .f32⟩ : BufTy).Contents (Elt F) → (⟨S512x64, .f32⟩ : BufTy).Contents (Elt F)),
    binary main_call5_v3 main_v29 main_call5_v4 (mulf : (⟨S512x64, .f32⟩ : BufTy).Contents (Elt F) → (⟨S512x64, .f32⟩ : BufTy).Contents (Elt F) → (⟨S512x64, .f32⟩ : BufTy).Contents (Elt F)),
    ternary main_call5_v1 main_v29 main_call5_v4 main_v30 (select : (⟨S512x64, .i1⟩ : BufTy).Contents (Elt F) → (⟨S512x64, .f32⟩ : BufTy).Contents (Elt F) → (⟨S512x64, .f32⟩ : BufTy).Contents (Elt F) → (⟨S512x64, .f32⟩ : BufTy).Contents (Elt F)) ]

/-- The running summary: the product of the running matrix with the global features. -/
abbrev part7 : List (HloOp τ sig (Elt F)) :=
  [ binary main_arg1 main_v30 main_v31 ((fun l r => Host.dotGeneral dot_S32x512_S512x64_S32x64_1_0_0_1_n_n none l r) : (⟨S32x512, .f32⟩ : BufTy).Contents (Elt F) → (⟨S512x64, .f32⟩ : BufTy).Contents (Elt F) → (⟨S32x64, .f32⟩ : BufTy).Contents (Elt F)) ]

/-- @main's 74 operations, in order, the calls written out. -/
abbrev ops : List (HloOp τ sig (Elt F)) :=
  [ binary main_arg2 main_arg3 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg4 main_v1 (broadcastInDim S1x64 ![1] bcast_S64_S1x64_1 : (⟨S64, .f32⟩ : BufTy).Contents (Elt F) → (⟨S1x64, .f32⟩ : BufTy).Contents (Elt F)),
    unary main_v1 main_v2 (broadcastInDim S50000x64 ![0, 1] bcast_S1x64_S50000x64_0_1 : (⟨S1x64, .f32⟩ : BufTy).Contents (Elt F) → (⟨S50000x64, .f32⟩ : BufTy).Contents (Elt F)),
    binary main_v0 main_v2 main_v3 (addf : (⟨S50000x64, .f32⟩ : BufTy).Contents (Elt F) → (⟨S50000x64, .f32⟩ : BufTy).Contents (Elt F) → (⟨S50000x64, .f32⟩ : BufTy).Contents (Elt F)),
    nullary main_cst (constant S_ .f32 0x3C23D70A#32),
    nullary main_call0_cst (constant S_ .f32 0x00000000#32),
    unary main_call0_cst main_call0_v0 (broadcastInDim S50000x64 ![] bcast_S_S50000x64 : (⟨S_, .f32⟩ : BufTy).Contents (Elt F) → (⟨S50000x64, .f32⟩ : BufTy).Contents (Elt F)),
    binary main_v3 main_call0_v0 main_call0_v1 (cmpf .oge : (⟨S50000x64, .f32⟩ : BufTy).Contents (Elt F) → (⟨S50000x64, .f32⟩ : BufTy).Contents (Elt F) → (⟨S50000x64, .i1⟩ : BufTy).Contents (Elt F)),
    unary main_cst main_call0_v2 (id : (⟨S_, .f32⟩ : BufTy).Contents (Elt F) → (⟨S_, .f32⟩ : BufTy).Contents (Elt F)),
    unary main_call0_v2 main_call0_v3 (broadcastInDim S50000x64 ![] bcast_S_S50000x64 : (⟨S_, .f32⟩ : BufTy).Contents (Elt F) → (⟨S50000x64, .f32⟩ : BufTy).Contents (Elt F)),
    binary main_call0_v3 main_v3 main_call0_v4 (mulf : (⟨S50000x64, .f32⟩ : BufTy).Contents (Elt F) → (⟨S50000x64, .f32⟩ : BufTy).Contents (Elt F) → (⟨S50000x64, .f32⟩ : BufTy).Contents (Elt F)),
    ternary main_call0_v1 main_v3 main_call0_v4 main_v4 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    binary main_v4 main_arg5 main_v5 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg6 main_v6 (broadcastInDim S1x64 ![1] bcast_S64_S1x64_1 : (⟨S64, .f32⟩ : BufTy).Contents (Elt F) → (⟨S1x64, .f32⟩ : BufTy).Contents (Elt F)),
    unary main_v6 main_v7 (broadcastInDim S50000x64 ![0, 1] bcast_S1x64_S50000x64_0_1 : (⟨S1x64, .f32⟩ : BufTy).Contents (Elt F) → (⟨S50000x64, .f32⟩ : BufTy).Contents (Elt F)),
    binary main_v5 main_v7 main_v8 (addf : (⟨S50000x64, .f32⟩ : BufTy).Contents (Elt F) → (⟨S50000x64, .f32⟩ : BufTy).Contents (Elt F) → (⟨S50000x64, .f32⟩ : BufTy).Contents (Elt F)),
    nullary main_cst_0 (constant S_ .f32 0x3C23D70A#32),
    nullary main_call1_cst (constant S_ .f32 0x00000000#32),
    unary main_call1_cst main_call1_v0 (broadcastInDim S50000x64 ![] bcast_S_S50000x64 : (⟨S_, .f32⟩ : BufTy).Contents (Elt F) → (⟨S50000x64, .f32⟩ : BufTy).Contents (Elt F)),
    binary main_v8 main_call1_v0 main_call1_v1 (cmpf .oge : (⟨S50000x64, .f32⟩ : BufTy).Contents (Elt F) → (⟨S50000x64, .f32⟩ : BufTy).Contents (Elt F) → (⟨S50000x64, .i1⟩ : BufTy).Contents (Elt F)),
    unary main_cst_0 main_call1_v2 (id : (⟨S_, .f32⟩ : BufTy).Contents (Elt F) → (⟨S_, .f32⟩ : BufTy).Contents (Elt F)),
    unary main_call1_v2 main_call1_v3 (broadcastInDim S50000x64 ![] bcast_S_S50000x64 : (⟨S_, .f32⟩ : BufTy).Contents (Elt F) → (⟨S50000x64, .f32⟩ : BufTy).Contents (Elt F)),
    binary main_call1_v3 main_v8 main_call1_v4 (mulf : (⟨S50000x64, .f32⟩ : BufTy).Contents (Elt F) → (⟨S50000x64, .f32⟩ : BufTy).Contents (Elt F) → (⟨S50000x64, .f32⟩ : BufTy).Contents (Elt F)),
    ternary main_call1_v1 main_v8 main_call1_v4 main_v9 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    binary main_v9 main_arg7 main_v10 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v11 (broadcastInDim S1x64 ![1] bcast_S64_S1x64_1 : (⟨S64, .f32⟩ : BufTy).Contents (Elt F) → (⟨S1x64, .f32⟩ : BufTy).Contents (Elt F)),
    unary main_v11 main_v12 (broadcastInDim S50000x64 ![0, 1] bcast_S1x64_S50000x64_0_1 : (⟨S1x64, .f32⟩ : BufTy).Contents (Elt F) → (⟨S50000x64, .f32⟩ : BufTy).Contents (Elt F)),
    binary main_v10 main_v12 main_v13 (addf : (⟨S50000x64, .f32⟩ : BufTy).Contents (Elt F) → (⟨S50000x64, .f32⟩ : BufTy).Contents (Elt F) → (⟨S50000x64, .f32⟩ : BufTy).Contents (Elt F)),
    nullary main_cst_1 (constant S_ .f32 0x3C23D70A#32),
    nullary main_call2_cst (constant S_ .f32 0x00000000#32),
    unary main_call2_cst main_call2_v0 (broadcastInDim S50000x64 ![] bcast_S_S50000x64 : (⟨S_, .f32⟩ : BufTy).Contents (Elt F) → (⟨S50000x64, .f32⟩ : BufTy).Contents (Elt F)),
    binary main_v13 main_call2_v0 main_call2_v1 (cmpf .oge : (⟨S50000x64, .f32⟩ : BufTy).Contents (Elt F) → (⟨S50000x64, .f32⟩ : BufTy).Contents (Elt F) → (⟨S50000x64, .i1⟩ : BufTy).Contents (Elt F)),
    unary main_cst_1 main_call2_v2 (id : (⟨S_, .f32⟩ : BufTy).Contents (Elt F) → (⟨S_, .f32⟩ : BufTy).Contents (Elt F)),
    unary main_call2_v2 main_call2_v3 (broadcastInDim S50000x64 ![] bcast_S_S50000x64 : (⟨S_, .f32⟩ : BufTy).Contents (Elt F) → (⟨S50000x64, .f32⟩ : BufTy).Contents (Elt F)),
    binary main_call2_v3 main_v13 main_call2_v4 (mulf : (⟨S50000x64, .f32⟩ : BufTy).Contents (Elt F) → (⟨S50000x64, .f32⟩ : BufTy).Contents (Elt F) → (⟨S50000x64, .f32⟩ : BufTy).Contents (Elt F)),
    ternary main_call2_v1 main_v13 main_call2_v4 main_v14 (select : (⟨S50000x64, .i1⟩ : BufTy).Contents (Elt F) → (⟨S50000x64, .f32⟩ : BufTy).Contents (Elt F) → (⟨S50000x64, .f32⟩ : BufTy).Contents (Elt F) → (⟨S50000x64, .f32⟩ : BufTy).Contents (Elt F)),
    binary main_arg0 main_v14 main_v15 ((fun l r => Host.dotGeneral dot_S512x50000_S50000x64_S512x64_1_0_0_1_n_n none l r) : (⟨S512x50000, .f32⟩ : BufTy).Contents (Elt F) → (⟨S50000x64, .f32⟩ : BufTy).Contents (Elt F) → (⟨S512x64, .f32⟩ : BufTy).Contents (Elt F)),
    binary main_v15 main_arg9 main_v16 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg10 main_v17 (broadcastInDim S1x64 ![1] bcast_S64_S1x64_1 : (⟨S64, .f32⟩ : BufTy).Contents (Elt F) → (⟨S1x64, .f32⟩ : BufTy).Contents (Elt F)),
    unary main_v17 main_v18 (broadcastInDim S512x64 ![0, 1] bcast_S1x64_S512x64_0_1 : (⟨S1x64, .f32⟩ : BufTy).Contents (Elt F) → (⟨S512x64, .f32⟩ : BufTy).Contents (Elt F)),
    binary main_v16 main_v18 main_v19 (addf : (⟨S512x64, .f32⟩ : BufTy).Contents (Elt F) → (⟨S512x64, .f32⟩ : BufTy).Contents (Elt F) → (⟨S512x64, .f32⟩ : BufTy).Contents (Elt F)),
    nullary main_cst_2 (constant S_ .f32 0x3C23D70A#32),
    nullary main_call3_cst (constant S_ .f32 0x00000000#32),
    unary main_call3_cst main_call3_v0 (broadcastInDim S512x64 ![] bcast_S_S512x64 : (⟨S_, .f32⟩ : BufTy).Contents (Elt F) → (⟨S512x64, .f32⟩ : BufTy).Contents (Elt F)),
    binary main_v19 main_call3_v0 main_call3_v1 (cmpf .oge : (⟨S512x64, .f32⟩ : BufTy).Contents (Elt F) → (⟨S512x64, .f32⟩ : BufTy).Contents (Elt F) → (⟨S512x64, .i1⟩ : BufTy).Contents (Elt F)),
    unary main_cst_2 main_call3_v2 (id : (⟨S_, .f32⟩ : BufTy).Contents (Elt F) → (⟨S_, .f32⟩ : BufTy).Contents (Elt F)),
    unary main_call3_v2 main_call3_v3 (broadcastInDim S512x64 ![] bcast_S_S512x64 : (⟨S_, .f32⟩ : BufTy).Contents (Elt F) → (⟨S512x64, .f32⟩ : BufTy).Contents (Elt F)),
    binary main_call3_v3 main_v19 main_call3_v4 (mulf : (⟨S512x64, .f32⟩ : BufTy).Contents (Elt F) → (⟨S512x64, .f32⟩ : BufTy).Contents (Elt F) → (⟨S512x64, .f32⟩ : BufTy).Contents (Elt F)),
    ternary main_call3_v1 main_v19 main_call3_v4 main_v20 (select : (⟨S512x64, .i1⟩ : BufTy).Contents (Elt F) → (⟨S512x64, .f32⟩ : BufTy).Contents (Elt F) → (⟨S512x64, .f32⟩ : BufTy).Contents (Elt F) → (⟨S512x64, .f32⟩ : BufTy).Contents (Elt F)),
    binary main_v20 main_arg11 main_v21 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg12 main_v22 (broadcastInDim S1x64 ![1] bcast_S64_S1x64_1 : (⟨S64, .f32⟩ : BufTy).Contents (Elt F) → (⟨S1x64, .f32⟩ : BufTy).Contents (Elt F)),
    unary main_v22 main_v23 (broadcastInDim S512x64 ![0, 1] bcast_S1x64_S512x64_0_1 : (⟨S1x64, .f32⟩ : BufTy).Contents (Elt F) → (⟨S512x64, .f32⟩ : BufTy).Contents (Elt F)),
    binary main_v21 main_v23 main_v24 (addf : (⟨S512x64, .f32⟩ : BufTy).Contents (Elt F) → (⟨S512x64, .f32⟩ : BufTy).Contents (Elt F) → (⟨S512x64, .f32⟩ : BufTy).Contents (Elt F)),
    nullary main_cst_3 (constant S_ .f32 0x3C23D70A#32),
    nullary main_call4_cst (constant S_ .f32 0x00000000#32),
    unary main_call4_cst main_call4_v0 (broadcastInDim S512x64 ![] bcast_S_S512x64 : (⟨S_, .f32⟩ : BufTy).Contents (Elt F) → (⟨S512x64, .f32⟩ : BufTy).Contents (Elt F)),
    binary main_v24 main_call4_v0 main_call4_v1 (cmpf .oge : (⟨S512x64, .f32⟩ : BufTy).Contents (Elt F) → (⟨S512x64, .f32⟩ : BufTy).Contents (Elt F) → (⟨S512x64, .i1⟩ : BufTy).Contents (Elt F)),
    unary main_cst_3 main_call4_v2 (id : (⟨S_, .f32⟩ : BufTy).Contents (Elt F) → (⟨S_, .f32⟩ : BufTy).Contents (Elt F)),
    unary main_call4_v2 main_call4_v3 (broadcastInDim S512x64 ![] bcast_S_S512x64 : (⟨S_, .f32⟩ : BufTy).Contents (Elt F) → (⟨S512x64, .f32⟩ : BufTy).Contents (Elt F)),
    binary main_call4_v3 main_v24 main_call4_v4 (mulf : (⟨S512x64, .f32⟩ : BufTy).Contents (Elt F) → (⟨S512x64, .f32⟩ : BufTy).Contents (Elt F) → (⟨S512x64, .f32⟩ : BufTy).Contents (Elt F)),
    ternary main_call4_v1 main_v24 main_call4_v4 main_v25 (select : (⟨S512x64, .i1⟩ : BufTy).Contents (Elt F) → (⟨S512x64, .f32⟩ : BufTy).Contents (Elt F) → (⟨S512x64, .f32⟩ : BufTy).Contents (Elt F) → (⟨S512x64, .f32⟩ : BufTy).Contents (Elt F)),
    binary main_v25 main_arg13 main_v26 ((fun l r => Host.dotGeneral dot_S512x64_S64x64_S512x64_1_0_0_1_n_n none l r) : (⟨S512x64, .f32⟩ : BufTy).Contents (Elt F) → (⟨S64x64, .f32⟩ : BufTy).Contents (Elt F) → (⟨S512x64, .f32⟩ : BufTy).Contents (Elt F)),
    unary main_arg14 main_v27 (broadcastInDim S1x64 ![1] bcast_S64_S1x64_1 : (⟨S64, .f32⟩ : BufTy).Contents (Elt F) → (⟨S1x64, .f32⟩ : BufTy).Contents (Elt F)),
    unary main_v27 main_v28 (broadcastInDim S512x64 ![0, 1] bcast_S1x64_S512x64_0_1 : (⟨S1x64, .f32⟩ : BufTy).Contents (Elt F) → (⟨S512x64, .f32⟩ : BufTy).Contents (Elt F)),
    binary main_v26 main_v28 main_v29 (addf : (⟨S512x64, .f32⟩ : BufTy).Contents (Elt F) → (⟨S512x64, .f32⟩ : BufTy).Contents (Elt F) → (⟨S512x64, .f32⟩ : BufTy).Contents (Elt F)),
    nullary main_cst_4 (constant S_ .f32 0x3C23D70A#32),
    nullary main_call5_cst (constant S_ .f32 0x00000000#32),
    unary main_call5_cst main_call5_v0 (broadcastInDim S512x64 ![] bcast_S_S512x64 : (⟨S_, .f32⟩ : BufTy).Contents (Elt F) → (⟨S512x64, .f32⟩ : BufTy).Contents (Elt F)),
    binary main_v29 main_call5_v0 main_call5_v1 (cmpf .oge : (⟨S512x64, .f32⟩ : BufTy).Contents (Elt F) → (⟨S512x64, .f32⟩ : BufTy).Contents (Elt F) → (⟨S512x64, .i1⟩ : BufTy).Contents (Elt F)),
    unary main_cst_4 main_call5_v2 (id : (⟨S_, .f32⟩ : BufTy).Contents (Elt F) → (⟨S_, .f32⟩ : BufTy).Contents (Elt F)),
    unary main_call5_v2 main_call5_v3 (broadcastInDim S512x64 ![] bcast_S_S512x64 : (⟨S_, .f32⟩ : BufTy).Contents (Elt F) → (⟨S512x64, .f32⟩ : BufTy).Contents (Elt F)),
    binary main_call5_v3 main_v29 main_call5_v4 (mulf : (⟨S512x64, .f32⟩ : BufTy).Contents (Elt F) → (⟨S512x64, .f32⟩ : BufTy).Contents (Elt F) → (⟨S512x64, .f32⟩ : BufTy).Contents (Elt F)),
    ternary main_call5_v1 main_v29 main_call5_v4 main_v30 (select : (⟨S512x64, .i1⟩ : BufTy).Contents (Elt F) → (⟨S512x64, .f32⟩ : BufTy).Contents (Elt F) → (⟨S512x64, .f32⟩ : BufTy).Contents (Elt F) → (⟨S512x64, .f32⟩ : BufTy).Contents (Elt F)),
    binary main_arg1 main_v30 main_v31 ((fun l r => Host.dotGeneral dot_S32x512_S512x64_S32x64_1_0_0_1_n_n none l r) : (⟨S32x512, .f32⟩ : BufTy).Contents (Elt F) → (⟨S512x64, .f32⟩ : BufTy).Contents (Elt F) → (⟨S32x64, .f32⟩ : BufTy).Contents (Elt F)) ]

/-- The line is its seven stretches one after the other. -/
theorem ops_eq : (ops : List (HloOp τ sig (Elt F))) = part1 ++ (part2 ++ (part3 ++ (part4 ++ (part5 ++ (part6 ++ part7))))) := rfl

set_option maxRecDepth 8192 in
/-- @main is that straight line: with the two activation functions and the choice functions they call unfolded at
    their calls, a host step followed by the rest computes to the same chain of steps on both sides. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

/-- From any memory with zero counters, every weakly fair execution of @main terminates with every buffer at the
    line's fold over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-! ## The stretches, one after the other -/

/-- Running two lines one after the other. -/
theorem after_app (l₁ l₂ : List (HloOp τ sig (Elt F))) (V : Valuation τ sig (Elt F)) : after (l₁ ++ l₂) V = after l₂ (after l₁ V) := by
  induction l₁ generalizing V with
  | nil => rfl
  | cons op l ih => exact ih (op.result V)

/-- The contents after the first 1 stretch. -/
def val1 (V : Valuation τ sig (Elt F)) : Valuation τ sig (Elt F) := after part1 V
/-- The buffers stretch 1 writes. -/
abbrev part1_W : List (Ref sig .tc) := [main_v0, main_v1, main_v2, main_v3, main_cst, main_call0_cst, main_call0_v0, main_call0_v1, main_call0_v2, main_call0_v3, main_call0_v4, main_v4]
theorem part1_writes : (part1 : List (HloOp τ sig (Elt F))).Forall fun op => op.writes ⊆ (part1_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 1 does not write keeps its contents through it. -/
theorem val1_keep (V : Valuation τ sig (Elt F)) (r : Ref sig .tc) (h : r ∉ part1_W) :
    val1 V (Proc.devRef .tc r) = V (Proc.devRef .tc r) :=
  after_of_writes_sub part1 _ part1_writes h

/-- The contents after the first 2 stretches. -/
def val2 (V : Valuation τ sig (Elt F)) : Valuation τ sig (Elt F) := after part2 (val1 V)
/-- The buffers stretch 2 writes. -/
abbrev part2_W : List (Ref sig .tc) := [main_v5, main_v6, main_v7, main_v8, main_cst_0, main_call1_cst, main_call1_v0, main_call1_v1, main_call1_v2, main_call1_v3, main_call1_v4, main_v9]
theorem part2_writes : (part2 : List (HloOp τ sig (Elt F))).Forall fun op => op.writes ⊆ (part2_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 2 does not write keeps its contents through it. -/
theorem val2_keep (V : Valuation τ sig (Elt F)) (r : Ref sig .tc) (h : r ∉ part2_W) :
    val2 V (Proc.devRef .tc r) = (val1 V) (Proc.devRef .tc r) :=
  after_of_writes_sub part2 _ part2_writes h

/-- The contents after the first 3 stretches. -/
def val3 (V : Valuation τ sig (Elt F)) : Valuation τ sig (Elt F) := after part3 (val2 V)
/-- The buffers stretch 3 writes. -/
abbrev part3_W : List (Ref sig .tc) := [main_v10, main_v11, main_v12, main_v13, main_cst_1, main_call2_cst, main_call2_v0, main_call2_v1, main_call2_v2, main_call2_v3, main_call2_v4, main_v14]
theorem part3_writes : (part3 : List (HloOp τ sig (Elt F))).Forall fun op => op.writes ⊆ (part3_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 3 does not write keeps its contents through it. -/
theorem val3_keep (V : Valuation τ sig (Elt F)) (r : Ref sig .tc) (h : r ∉ part3_W) :
    val3 V (Proc.devRef .tc r) = (val2 V) (Proc.devRef .tc r) :=
  after_of_writes_sub part3 _ part3_writes h

/-- The contents after the first 4 stretches. -/
def val4 (V : Valuation τ sig (Elt F)) : Valuation τ sig (Elt F) := after part4 (val3 V)
/-- The buffers stretch 4 writes. -/
abbrev part4_W : List (Ref sig .tc) := [main_v15, main_v16, main_v17, main_v18, main_v19, main_cst_2, main_call3_cst, main_call3_v0, main_call3_v1, main_call3_v2, main_call3_v3, main_call3_v4, main_v20]
theorem part4_writes : (part4 : List (HloOp τ sig (Elt F))).Forall fun op => op.writes ⊆ (part4_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 4 does not write keeps its contents through it. -/
theorem val4_keep (V : Valuation τ sig (Elt F)) (r : Ref sig .tc) (h : r ∉ part4_W) :
    val4 V (Proc.devRef .tc r) = (val3 V) (Proc.devRef .tc r) :=
  after_of_writes_sub part4 _ part4_writes h

/-- The contents after the first 5 stretches. -/
def val5 (V : Valuation τ sig (Elt F)) : Valuation τ sig (Elt F) := after part5 (val4 V)
/-- The buffers stretch 5 writes. -/
abbrev part5_W : List (Ref sig .tc) := [main_v21, main_v22, main_v23, main_v24, main_cst_3, main_call4_cst, main_call4_v0, main_call4_v1, main_call4_v2, main_call4_v3, main_call4_v4, main_v25]
theorem part5_writes : (part5 : List (HloOp τ sig (Elt F))).Forall fun op => op.writes ⊆ (part5_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 5 does not write keeps its contents through it. -/
theorem val5_keep (V : Valuation τ sig (Elt F)) (r : Ref sig .tc) (h : r ∉ part5_W) :
    val5 V (Proc.devRef .tc r) = (val4 V) (Proc.devRef .tc r) :=
  after_of_writes_sub part5 _ part5_writes h

/-- The contents after the first 6 stretches. -/
def val6 (V : Valuation τ sig (Elt F)) : Valuation τ sig (Elt F) := after part6 (val5 V)
/-- The buffers stretch 6 writes. -/
abbrev part6_W : List (Ref sig .tc) := [main_v26, main_v27, main_v28, main_v29, main_cst_4, main_call5_cst, main_call5_v0, main_call5_v1, main_call5_v2, main_call5_v3, main_call5_v4, main_v30]
theorem part6_writes : (part6 : List (HloOp τ sig (Elt F))).Forall fun op => op.writes ⊆ (part6_W.map (Proc.devRef (τ := τ) .tc)).toFinset := by
  simp only [List.Forall]; exact ⟨by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide),
    by simp only [nullary_writes, unary_writes, binary_writes, ternary_writes, Finset.singleton_subset_iff, List.mem_toFinset]; exact List.mem_map_of_mem (by decide)⟩
/-- A buffer stretch 6 does not write keeps its contents through it. -/
theorem val6_keep (V : Valuation τ sig (Elt F)) (r : Ref sig .tc) (h : r ∉ part6_W) :
    val6 V (Proc.devRef .tc r) = (val5 V) (Proc.devRef .tc r) :=
  after_of_writes_sub part6 _ part6_writes h

/-- The contents after the first 7 stretches. -/
def val7 (V : Valuation τ sig (Elt F)) : Valuation τ sig (Elt F) := after part7 (val6 V)
/-- The buffers stretch 7 writes. -/
abbrev part7_W : List (Ref sig .tc) := [main_v31]
theorem part7_writes : (part7 : List (HloOp τ sig (Elt F))).Forall fun op => op.writes ⊆ (part7_W.map (Proc.devRef (τ := τ) .tc)).toFinset := by
  simp only [List.Forall]; exact (by simp only [nullary_writes, unary_writes, binary_writes, ternary_writes, Finset.singleton_subset_iff, List.mem_toFinset]; exact List.mem_map_of_mem (by decide))
/-- A buffer stretch 7 does not write keeps its contents through it. -/
theorem val7_keep (V : Valuation τ sig (Elt F)) (r : Ref sig .tc) (h : r ∉ part7_W) :
    val7 V (Proc.devRef .tc r) = (val6 V) (Proc.devRef .tc r) :=
  after_of_writes_sub part7 _ part7_writes h

theorem after_ops (V : Valuation τ sig (Elt F)) : after ops V = val7 V := by
  rw [ops_eq]
  simp only [after_app]
  rfl

/-! ## What each stretch computes, from any contents -/

theorem part1_out (V : Valuation τ sig (Elt F)) :
    after part1 V (Proc.devRef .tc main_v4) = leakyBig (lin128 (V (Proc.devRef .tc main_arg2)) (V (Proc.devRef .tc main_arg3)) (V (Proc.devRef .tc main_arg4))) := by
  simp only [part1]
  after_results_simp
  rfl

theorem part2_out (V : Valuation τ sig (Elt F)) :
    after part2 V (Proc.devRef .tc main_v9) = leakyBig (linBig (V (Proc.devRef .tc main_v4)) (V (Proc.devRef .tc main_arg5)) (V (Proc.devRef .tc main_arg6))) := by
  simp only [part2]
  after_results_simp
  rfl

theorem part3_out (V : Valuation τ sig (Elt F)) :
    after part3 V (Proc.devRef .tc main_v14) = leakyBig (linBig (V (Proc.devRef .tc main_v9)) (V (Proc.devRef .tc main_arg7)) (V (Proc.devRef .tc main_arg8))) := by
  simp only [part3]
  after_results_simp
  rfl

theorem part4_out15 (V : Valuation τ sig (Elt F)) :
    after part4 V (Proc.devRef .tc main_v15) = (Host.dotGeneral dot_S512x50000_S50000x64_S512x64_1_0_0_1_n_n none (V (Proc.devRef .tc main_arg0)) (V (Proc.devRef .tc main_v14))) := by
  simp only [part4]
  after_results_simp

theorem part4_out20 (V : Valuation τ sig (Elt F)) :
    after part4 V (Proc.devRef .tc main_v20) = leakySm (linSm (Host.dotGeneral dot_S512x50000_S50000x64_S512x64_1_0_0_1_n_n none (V (Proc.devRef .tc main_arg0)) (V (Proc.devRef .tc main_v14))) (V (Proc.devRef .tc main_arg9)) (V (Proc.devRef .tc main_arg10))) := by
  simp only [part4]
  after_results_simp
  rfl

theorem part5_out (V : Valuation τ sig (Elt F)) :
    after part5 V (Proc.devRef .tc main_v25) = leakySm (linSm (V (Proc.devRef .tc main_v20)) (V (Proc.devRef .tc main_arg11)) (V (Proc.devRef .tc main_arg12))) := by
  simp only [part5]
  after_results_simp
  rfl

theorem part6_out (V : Valuation τ sig (Elt F)) :
    after part6 V (Proc.devRef .tc main_v30) = leakySm (linSm (V (Proc.devRef .tc main_v25)) (V (Proc.devRef .tc main_arg13)) (V (Proc.devRef .tc main_arg14))) := by
  simp only [part6]
  after_results_simp
  rfl

theorem part7_out (V : Valuation τ sig (Elt F)) :
    after part7 V (Proc.devRef .tc main_v31) = (Host.dotGeneral dot_S32x512_S512x64_S32x64_1_0_0_1_n_n none (V (Proc.devRef .tc main_arg1)) (V (Proc.devRef .tc main_v30))) := by
  simp only [part7]
  after_results_simp

/-! ## The results over the arguments -/

theorem val1_v4 (V : Valuation τ sig (Elt F)) : val1 V (Proc.devRef .tc main_v4) = leakyBig (lin128 (V (Proc.devRef .tc main_arg2)) (V (Proc.devRef .tc main_arg3)) (V (Proc.devRef .tc main_arg4))) := part1_out V

theorem val2_v9 (V : Valuation τ sig (Elt F)) : val2 V (Proc.devRef .tc main_v9) = leakyBig (linBig (leakyBig (lin128 (V (Proc.devRef .tc main_arg2)) (V (Proc.devRef .tc main_arg3)) (V (Proc.devRef .tc main_arg4)))) (V (Proc.devRef .tc main_arg5)) (V (Proc.devRef .tc main_arg6))) := by
  show after part2 (val1 V) (Proc.devRef .tc main_v9) = _
  rw [part2_out, val1_v4, val1_keep V main_arg5 (by decide), val1_keep V main_arg6 (by decide)]

theorem val3_v14 (V : Valuation τ sig (Elt F)) : val3 V (Proc.devRef .tc main_v14) = nodes (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  show after part3 (val2 V) (Proc.devRef .tc main_v14) = _
  rw [part3_out, val2_v9, val2_keep V main_arg7 (by decide), val1_keep V main_arg7 (by decide), val2_keep V main_arg8 (by decide), val1_keep V main_arg8 (by decide)]
  rfl

theorem val4_v15 (V : Valuation τ sig (Elt F)) : val4 V (Proc.devRef .tc main_v15) = R1 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  show after part4 (val3 V) (Proc.devRef .tc main_v15) = _
  rw [part4_out15, val3_v14, val3_keep V main_arg0 (by decide), val2_keep V main_arg0 (by decide), val1_keep V main_arg0 (by decide)]
  rfl

theorem val4_v20 (V : Valuation τ sig (Elt F)) : val4 V (Proc.devRef .tc main_v20) = leakySm (linSm (R1 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg9)) (V (Proc.devRef .tc main_arg10))) := by
  show after part4 (val3 V) (Proc.devRef .tc main_v20) = _
  rw [part4_out20, val3_v14, val3_keep V main_arg0 (by decide), val2_keep V main_arg0 (by decide), val1_keep V main_arg0 (by decide), val3_keep V main_arg9 (by decide), val2_keep V main_arg9 (by decide), val1_keep V main_arg9 (by decide), val3_keep V main_arg10 (by decide), val2_keep V main_arg10 (by decide), val1_keep V main_arg10 (by decide)]
  rfl

theorem val5_v25 (V : Valuation τ sig (Elt F)) : val5 V (Proc.devRef .tc main_v25) = leakySm (linSm (leakySm (linSm (R1 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg9)) (V (Proc.devRef .tc main_arg10)))) (V (Proc.devRef .tc main_arg11)) (V (Proc.devRef .tc main_arg12))) := by
  show after part5 (val4 V) (Proc.devRef .tc main_v25) = _
  rw [part5_out, val4_v20, val4_keep V main_arg11 (by decide), val3_keep V main_arg11 (by decide), val2_keep V main_arg11 (by decide), val1_keep V main_arg11 (by decide), val4_keep V main_arg12 (by decide), val3_keep V main_arg12 (by decide), val2_keep V main_arg12 (by decide), val1_keep V main_arg12 (by decide)]

theorem val6_v30 (V : Valuation τ sig (Elt F)) : val6 V (Proc.devRef .tc main_v30) = globs (R1 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  show after part6 (val5 V) (Proc.devRef .tc main_v30) = _
  rw [part6_out, val5_v25, val5_keep V main_arg13 (by decide), val4_keep V main_arg13 (by decide), val3_keep V main_arg13 (by decide), val2_keep V main_arg13 (by decide), val1_keep V main_arg13 (by decide), val5_keep V main_arg14 (by decide), val4_keep V main_arg14 (by decide), val3_keep V main_arg14 (by decide), val2_keep V main_arg14 (by decide), val1_keep V main_arg14 (by decide)]
  rfl

theorem val7_v31 (V : Valuation τ sig (Elt F)) : val7 V (Proc.devRef .tc main_v31) = R2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  show after part7 (val6 V) (Proc.devRef .tc main_v31) = _
  rw [part7_out, val6_v30, val6_keep V main_arg1 (by decide), val5_keep V main_arg1 (by decide), val4_keep V main_arg1 (by decide), val3_keep V main_arg1 (by decide), val2_keep V main_arg1 (by decide), val1_keep V main_arg1 (by decide)]
  rfl

/-- After the whole line the first result's buffer holds `R1` of the arguments. -/
theorem after_v15 (V : Valuation τ sig (Elt F)) : after ops V (Proc.devRef .tc main_v15) = R1 (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops, val7_keep V main_v15 (by decide), val6_keep V main_v15 (by decide), val5_keep V main_v15 (by decide), val4_v15]

/-- After the whole line the second result's buffer holds `R2` of the arguments. -/
theorem after_v31 (V : Valuation τ sig (Elt F)) : after ops V (Proc.devRef .tc main_v31) = R2 (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) := by
  rw [after_ops, val7_v31]

/-- A buffer no stretch writes holds after the whole line what it held before. -/
theorem after_keep (V : Valuation τ sig (Elt F)) (r : Ref sig .tc) (h1 : r ∉ part1_W) (h2 : r ∉ part2_W) (h3 : r ∉ part3_W) (h4 : r ∉ part4_W)
    (h5 : r ∉ part5_W) (h6 : r ∉ part6_W) (h7 : r ∉ part7_W) : after ops V (Proc.devRef .tc r) = V (Proc.devRef .tc r) := by
  rw [after_ops, val7_keep V r h7, val6_keep V r h6, val5_keep V r h5, val4_keep V r h4, val3_keep V r h3, val2_keep V r h2, val1_keep V r h1]

/-- From any memory with zero counters, every weakly fair execution of @main terminates with the first result at
    `R1` of the arguments' launch contents, the second at `R2` of them, and every argument unchanged. -/
theorem run_terms (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v15) = R1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v31) = R2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v15).trans (after_v15 _), (h c main_v31).trans (after_v31 _),
      (h c main_arg0).trans (after_keep _ main_arg0 (by decide) (by decide) (by decide) (by decide) (by decide) (by decide) (by decide)),
      (h c main_arg1).trans (after_keep _ main_arg1 (by decide) (by decide) (by decide) (by decide) (by decide) (by decide) (by decide)),
      (h c main_arg2).trans (after_keep _ main_arg2 (by decide) (by decide) (by decide) (by decide) (by decide) (by decide) (by decide)),
      (h c main_arg3).trans (after_keep _ main_arg3 (by decide) (by decide) (by decide) (by decide) (by decide) (by decide) (by decide)),
      (h c main_arg4).trans (after_keep _ main_arg4 (by decide) (by decide) (by decide) (by decide) (by decide) (by decide) (by decide)),
      (h c main_arg5).trans (after_keep _ main_arg5 (by decide) (by decide) (by decide) (by decide) (by decide) (by decide) (by decide)),
      (h c main_arg6).trans (after_keep _ main_arg6 (by decide) (by decide) (by decide) (by decide) (by decide) (by decide) (by decide)),
      (h c main_arg7).trans (after_keep _ main_arg7 (by decide) (by decide) (by decide) (by decide) (by decide) (by decide) (by decide)),
      (h c main_arg8).trans (after_keep _ main_arg8 (by decide) (by decide) (by decide) (by decide) (by decide) (by decide) (by decide)),
      (h c main_arg9).trans (after_keep _ main_arg9 (by decide) (by decide) (by decide) (by decide) (by decide) (by decide) (by decide)),
      (h c main_arg10).trans (after_keep _ main_arg10 (by decide) (by decide) (by decide) (by decide) (by decide) (by decide) (by decide)),
      (h c main_arg11).trans (after_keep _ main_arg11 (by decide) (by decide) (by decide) (by decide) (by decide) (by decide) (by decide)),
      (h c main_arg12).trans (after_keep _ main_arg12 (by decide) (by decide) (by decide) (by decide) (by decide) (by decide) (by decide)),
      (h c main_arg13).trans (after_keep _ main_arg13 (by decide) (by decide) (by decide) (by decide) (by decide) (by decide) (by decide)),
      (h c main_arg14).trans (after_keep _ main_arg14 (by decide) (by decide) (by decide) (by decide) (by decide) (by decide) (by decide))⟩)
    (run_after m ρ)

end Cert.ReferenceIdeal.RefValue

end
-- ==== Proof.LibLeaky.lean ====
/-
  The leaky activation over the extended reals, in its two spellings.

  With a slope c ≤ 1, taking v where 0 ≤ v and c·v elsewhere is the larger of v and c·v, at every extended real:
  where 0 ≤ v, c·v ≤ 1·v = v; where v < 0, v = 1·v ≤ c·v, since multiplying c ≤ 1 by a number that is not
  positive turns the inequality round. The slope of this certificate is the f32 word 0x3C23D70A: sign 0,
  exponent field 120, fraction field 0x23D70A, the real (2²³ + 2348810) · 2^(120 − 127 − 23) = 10737418 · 2⁻³⁰,
  which lies between 0 and 1.
-/
import proofs.«152476_g41686952575157_cont_8to1_b_1251_30_alg».proof.Proof.Spec

noncomputable section

namespace Cert.LibLeaky

open Idealize.ShloMosaic

/-- Choosing `v` where `0 ≤ v` and `c * v` elsewhere is `max v (c * v)`, for any slope `c ≤ 1`, on all of `EReal`. -/
theorem ite_eq_max {c : EReal} (h1 : c ≤ 1) (v : EReal) :
    (if 0 ≤ v then v else c * v) = max v (c * v) := by
  split_ifs with hv
  · have h : c * v ≤ v := by
      have := mul_le_mul_of_nonneg_right h1 hv
      rwa [one_mul] at this
    exact (max_eq_left h).symm
  · have hv' : v ≤ 0 := (not_le.mp hv).le
    have h : v ≤ c * v := by
      have := EReal.mul_le_mul_of_nonpos_right h1 hv'
      rwa [one_mul] at this
    exact (max_eq_right h).symm

/-- The slope word as a real number: 10737418 · 2⁻³⁰. -/
theorem slope_eq : Cert.Spec.slope = ((10737418 * (2 : ℝ) ^ (-30 : Int) : ℝ) : EReal) := by
  simp [Cert.Spec.slope, Ideal.ofBits, Ideal.ieee]

/-- The slope is not negative. -/
theorem slope_nonneg : 0 ≤ Cert.Spec.slope := by
  rw [slope_eq]
  exact_mod_cast (by positivity : (0 : ℝ) ≤ 10737418 * (2 : ℝ) ^ (-30 : Int))

/-- The slope is at most one. -/
theorem slope_le_one : Cert.Spec.slope ≤ 1 := by
  rw [slope_eq]
  have h : (10737418 * (2 : ℝ) ^ (-30 : Int) : ℝ) ≤ 1 := by
    rw [zpow_neg]
    norm_num
  exact_mod_cast h

/-- The activation `max v (slope · v)` as a choice on the sign of `v`. -/
theorem act_eq_ite (v : EReal) : Cert.Spec.act v = if 0 ≤ v then v else Cert.Spec.slope * v :=
  (ite_eq_max slope_le_one v).symm

/-- The comparison-and-select spelling of the activation — compare `v ≥ 0`, keep `v` where it holds and take
    `slope · v` elsewhere — is `max v (slope · v)`. -/
theorem select_cmp_eq_act (v : EReal) :
    Scalar.select (FloatOps.cmpf (F := Ideal) (φ := .f32) .oge v 0) v (Cert.Spec.slope * v) = Cert.Spec.act v := by
  rw [act_eq_ite]
  show (if BitVec.ofBool (decide ((0 : EReal) ≤ v)) = 1 then v else Cert.Spec.slope * v) = _
  by_cases hv : (0 : EReal) ≤ v
  · simp [hv]
  · simp [hv]

end Cert.LibLeaky

end
-- ==== Proof.LibHostRead.lean ====
/-
  A jnp reference's host operations read at an index, on the extended reals, for any extents.

  The broadcasts a reduction with keepdims or a row / column operand prints: a vector kept as a one-column or one-row
  matrix, a one-column or one-row matrix spread over the other axis, the same with a trailing unit axis of a three-axis
  array; a literal splat to any shape; the host's sum over the last axis of a matrix or of a three-axis array from an
  initial value that is zero, as the plain sum over that axis's coordinates; the host's quotient, square root,
  reciprocal square root and logarithm entry by entry; and a reshape that splits the second axis of a matrix in two:
  entry (r, k, p) of the [a, c, d] array is entry (r, k · d + p) of the [a, c · d] matrix.
-/
import Idealize.ShloMosaic.Lib.ValueIdx
import Idealize.ShloMosaic.Lib.Pipeline.Value
import Idealize.ShloMosaic.PureOps.Ideal.Laws

noncomputable section

namespace Cert.LibHostRead

open Idealize.ShloMosaic Idealize.ShloMosaic.ValueIdx
open scoped BigOperators

/-! ## Host operations read at an index, for any extents -/

section Helpers
variable {α : Type}

/-- A splat of a literal, broadcast to any shape, is the literal's value at every index. -/
theorem bcastConst_apply {s t : Shape} (dims : Fin s.rank → Fin t.rank) (h : s.BroadcastsInDim t dims) (w : BitVec 32)
    (j : t.Idx) : broadcastInDim t dims h (constant (F := Ideal) s .f32 w) j = Ideal.ofBits .f32 w := rfl

/-- A vector kept as a one-column matrix reads, at `(r, z)`, entry `r`. -/
theorem bcast_a_a1_apply {a : ℕ} (x : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ (![0] : Fin 1 → Fin 2) h x (ix2 r z) = x (ix1 r) := by
  refine broadcastInDim_apply _ h x (ix2 r z) (ix1 r) fun ax => ?_
  match ax with
  | ⟨0, _⟩ =>
    show r.val = if a = 1 then 0 else r.val
    split
    · have := r.isLt; omega
    · rfl

/-- A one-column matrix spread over `b` columns reads, at `(r, d)`, the column's entry of row `r`. -/
theorem bcast_a1_ab_apply {a b : ℕ} (x : (⟨2, ![a, 1]⟩ : Shape).Idx → α)
    (h : (⟨2, ![a, 1]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 r (0 : Fin 1)) := by
  refine broadcastInDim_apply _ h x (ix2 r d) (ix2 r (0 : Fin 1)) fun ax => ?_
  match ax with
  | ⟨0, _⟩ =>
    show r.val = if a = 1 then 0 else r.val
    split
    · have := r.isLt; omega
    · rfl
  | ⟨1, _⟩ =>
    show (0 : ℕ) = if (1 : ℕ) = 1 then 0 else d.val
    rw [if_pos rfl]

/-- A vector kept as a one-row matrix reads, at `(z, d)`, entry `d`. -/
theorem bcast_b_1b_apply {b : ℕ} (x : (⟨1, ![b]⟩ : Shape).Idx → α)
    (h : (⟨1, ![b]⟩ : Shape).BroadcastsInDim ⟨2, ![1, b]⟩ (![1] : Fin 1 → Fin 2)) (z : Fin 1) (d : Fin b) :
    broadcastInDim ⟨2, ![1, b]⟩ (![1] : Fin 1 → Fin 2) h x (ix2 z d) = x (ix1 d) := by
  refine broadcastInDim_apply _ h x (ix2 z d) (ix1 d) fun ax => ?_
  match ax with
  | ⟨0, _⟩ =>
    show d.val = if b = 1 then 0 else d.val
    split
    · have := d.isLt; omega
    · rfl

/-- A one-row matrix spread over `a` rows reads, at `(r, d)`, the row's entry of column `d`. -/
theorem bcast_1b_ab_apply {a b : ℕ} (x : (⟨2, ![1, b]⟩ : Shape).Idx → α)
    (h : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h x (ix2 r d) = x (ix2 (0 : Fin 1) d) := by
  refine broadcastInDim_apply _ h x (ix2 r d) (ix2 (0 : Fin 1) d) fun ax => ?_
  match ax with
  | ⟨0, _⟩ =>
    show (0 : ℕ) = if (1 : ℕ) = 1 then 0 else r.val
    rw [if_pos rfl]
  | ⟨1, _⟩ =>
    show d.val = if b = 1 then 0 else d.val
    split
    · have := d.isLt; omega
    · rfl

/-- A vector spread over the rows of a matrix, through a one-row matrix: at `(r, d)`, entry `d`. -/
theorem bcastRow_apply {a b : ℕ} (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (d : Fin b) :
    broadcastInDim ⟨2, ![a, b]⟩ (![0, 1] : Fin 2 → Fin 2) h2 (broadcastInDim ⟨2, ![1, b]⟩ (![1] : Fin 1 → Fin 2) h1 x) (ix2 r d)
      = x (ix1 d) :=
  (bcast_1b_ab_apply _ h2 r d).trans (bcast_b_1b_apply x h1 0 d)

/-- An `[a, b]` array kept as `[a, b, 1]` reads, at `(i, j, z)`, entry `(i, j)`. -/
theorem bcast_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b) (z : Fin 1) :
    broadcastInDim ⟨3, ![a, b, 1]⟩ (![0, 1] : Fin 2 → Fin 3) h x (ix3 i j z) = x (ix2 i j) := by
  refine broadcastInDim_apply _ h x (ix3 i j z) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An `[a, b, 1]` array spread over `c` entries of the last axis reads, at `(i, j, k)`, entry `(i, j, 0)`. -/
theorem bcast_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a) (j : Fin b) (k : Fin c) :
    broadcastInDim ⟨3, ![a, b, c]⟩ (![0, 1, 2] : Fin 3 → Fin 3) h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- The host's sum of each row of a matrix, from an initial value that is zero: at row `r`, the sum over the columns. -/
theorem hostSumAxis1_apply {a b : ℕ} (x : (⟨2, ![a, b]⟩ : Shape).Idx → EReal) {u : Shape} (init : u.Idx → EReal)
    (h' : (⟨2, ![a, b]⟩ : Shape).ReducesTo [1] ⟨1, ![a]⟩) (hu : 0 < u.numel)
    (hinit : init (Shape.Idx.first hu) = 0) (r : Fin a) :
    Host.reduceAdd (F := Ideal) (φ := .f32) x init h' hu (ix1 r) = ∑ d : Fin b, x (ix2 r d) := by
  have h : (⟨2, ![a, b]⟩ : Shape).Reduces [1] ⟨1, ![a]⟩ := ⟨h'.1, Nat.one_pos, h'.2⟩
  show Ideal.hostReduceAdd h' x (init (Shape.Idx.first hu)) (ix1 r) = _
  rw [hinit, Ideal.hostReduceAdd_single h' h x 0 (ix1 r), zero_add]
  exact Finset.sum_congr rfl fun k _ => congrArg x (funext fun ax => Fin.ext (match ax with | ⟨0, _⟩ => rfl | ⟨1, _⟩ => rfl))

/-- The host's sum over the last axis of a three-axis array, from zero: at `(i, j)`, the sum over `k` of the entries `(i, j, k)`. -/
theorem hostSumAxis2_apply {a b c : ℕ} (x : (⟨3, ![a, b, c]⟩ : Shape).Idx → EReal) {u : Shape} (init : u.Idx → EReal)
    (h' : (⟨3, ![a, b, c]⟩ : Shape).ReducesTo [2] ⟨2, ![a, b]⟩) (hu : 0 < u.numel)
    (hinit : init (Shape.Idx.first hu) = 0) (i : Fin a) (j : Fin b) :
    Host.reduceAdd (F := Ideal) (φ := .f32) x init h' hu (ix2 i j) = ∑ k : Fin c, x (ix3 i j k) := by
  have h : (⟨3, ![a, b, c]⟩ : Shape).Reduces [2] ⟨2, ![a, b]⟩ := ⟨h'.1, Nat.two_pos, h'.2⟩
  show Ideal.hostReduceAdd h' x (init (Shape.Idx.first hu)) (ix2 i j) = _
  rw [hinit, Ideal.hostReduceAdd_single h' h x 0 (ix2 i j), zero_add]
  refine Finset.sum_congr rfl fun k _ => congrArg x (funext fun ax => Fin.ext ?_)
  match ax with
  | ⟨0, _⟩ => rfl
  | ⟨1, _⟩ => rfl
  | ⟨2, _⟩ => rfl

end Helpers

/-! ## Pointwise host operations at the extended reals -/

theorem hostDivf_apply {s : Shape} (x y : FVec Ideal s .f32) (i : s.Idx) : Host.divf x y i = Ideal.div (x i) (y i) := rfl
theorem hostSqrt_apply {s : Shape} (x : FVec Ideal s .f32) (i : s.Idx) : Host.sqrt x i = Ideal.sqrt (x i) := rfl
theorem hostRsqrt_apply {s : Shape} (x : FVec Ideal s .f32) (i : s.Idx) : Host.rsqrt x i = Ideal.rsqrt (x i) := rfl
theorem hostLog_apply {s : Shape} (x : FVec Ideal s .f32) (i : s.Idx) : Host.log x i = Ideal.log (x i) := rfl

/-- A matrix whose second axis is split in two reads, at `(r, k, p)`, the matrix at `(r, k · d + p)`. -/
theorem shapeCast_ab_acd_apply {α : Type} {a b c d : ℕ} (X : (⟨2, ![a, b]⟩ : Shape).Idx → α)
    (h : (⟨2, ![a, b]⟩ : Shape).ShapeCasts ⟨3, ![a, c, d]⟩) (hb : b = c * d) (r : Fin a) (k : Fin c) (p : Fin d) (kp : Fin b)
    (hkp : kp.val = k.val * d + p.val) : shapeCast ⟨3, ![a, c, d]⟩ X h (ix3 r k p) = X (ix2 r kp) :=
  shapeCast_apply X h _ _ (by
    rw [Shape.rowMajor_val_two, Shape.rowMajor_val_three]
    show r.val * b + kp.val = (r.val * c + k.val) * d + p.val
    rw [hkp, hb]; ring)

end Cert.LibHostRead

end
-- ==== Proof.RefRead.lean ====
/-
  The reference's two results read at an index, over the extended reals.

  A dense layer before its activation is, at (n, j), the sum over k of X(n, k) · W(k, j) plus b(j): the host
  product read as a sum over the contracted coordinate, the bias spread over the rows read at its column. The
  activation written as a comparison and a choice is max(v, c·v) entry by entry, since the slope c is at most one.
  So three layers on a row of node features are the specification's `node`, the first result at (d, j) is the
  sum over all nodes n of S(d, n) · node(X n)(j), three layers on a row of it are the specification's `glob`, and
  the second result at (q, j) is the sum over d of R(q, d) · glob(s1 d)(j). No sum is ever expanded.
-/
import proofs.«152476_g41686952575157_cont_8to1_b_1251_30_alg».proof.Proof.RefRun
import proofs.«152476_g41686952575157_cont_8to1_b_1251_30_alg».proof.Proof.Out
import proofs.«152476_g41686952575157_cont_8to1_b_1251_30_alg».proof.Proof.LibLeaky
import proofs.«152476_g41686952575157_cont_8to1_b_1251_30_alg».proof.Proof.LibDot
import proofs.«152476_g41686952575157_cont_8to1_b_1251_30_alg».proof.Proof.LibHostRead

noncomputable section

namespace Cert.ReferenceIdeal.RefValue

open Cert.ReferenceIdeal Cert.ReferenceIdeal.Gen Idealize.ShloMosaic Idealize.ShloMosaic.ValueIdx Idealize.ShloMosaic.TcCoe Idealize.SL.Sem
open Cert.Out (mat vec)
open scoped BigOperators

/-! ## A layer before its activation -/

theorem lin128_apply (X : Cert.Out.M 50000 128) (W : Cert.Out.M 128 64) (b : Cert.Out.V1 64) (n : Fin 50000) (j : Fin 64) :
    lin128 (F := Ideal) X W b (ix2 n j) = (∑ k : Fin 128, X (ix2 n k) * W (ix2 k j)) + b (ix1 j) := by
  unfold lin128
  rw [addf_apply, Cert.LibHostRead.bcastRow_apply]
  congr 1
  exact Cert.LibDot.dotGeneral_apply (m := 50000) (k := 128) (n := 64) _ none X W n j

theorem linBig_apply (X : Cert.Out.M 50000 64) (W : Cert.Out.M 64 64) (b : Cert.Out.V1 64) (n : Fin 50000) (j : Fin 64) :
    linBig (F := Ideal) X W b (ix2 n j) = (∑ k : Fin 64, X (ix2 n k) * W (ix2 k j)) + b (ix1 j) := by
  unfold linBig
  rw [addf_apply, Cert.LibHostRead.bcastRow_apply]
  congr 1
  exact Cert.LibDot.dotGeneral_apply (m := 50000) (k := 64) (n := 64) _ none X W n j

theorem linSm_apply (X : Cert.Out.M 512 64) (W : Cert.Out.M 64 64) (b : Cert.Out.V1 64) (d : Fin 512) (j : Fin 64) :
    linSm (F := Ideal) X W b (ix2 d j) = (∑ k : Fin 64, X (ix2 d k) * W (ix2 k j)) + b (ix1 j) := by
  unfold linSm
  rw [addf_apply, Cert.LibHostRead.bcastRow_apply]
  congr 1
  exact Cert.LibDot.dotGeneral_apply (m := 512) (k := 64) (n := 64) _ none X W d j

/-! ## The activation -/

theorem leakyBig_apply (v : Cert.Out.M 50000 64) (i : (⟨2, ![50000, 64]⟩ : Shape).Idx) :
    leakyBig (F := Ideal) v i = Cert.Spec.act (v i) := by
  show Scalar.select (FloatOps.cmpf (F := Ideal) (φ := .f32) .oge (v i) (Ideal.ofBits .f32 0x00000000#32)) (v i)
      (Cert.Spec.slope * v i) = _
  rw [Ideal.ofBits_zero_f32]
  exact Cert.LibLeaky.select_cmp_eq_act (v i)

theorem leakySm_apply (v : Cert.Out.M 512 64) (i : (⟨2, ![512, 64]⟩ : Shape).Idx) :
    leakySm (F := Ideal) v i = Cert.Spec.act (v i) := by
  show Scalar.select (FloatOps.cmpf (F := Ideal) (φ := .f32) .oge (v i) (Ideal.ofBits .f32 0x00000000#32)) (v i)
      (Cert.Spec.slope * v i) = _
  rw [Ideal.ofBits_zero_f32]
  exact Cert.LibLeaky.select_cmp_eq_act (v i)

/-! ## A layer with its activation, on one row, is the specification's layer -/

theorem layer128_row (X : Cert.Out.M 50000 128) (W : Cert.Out.M 128 64) (b : Cert.Out.V1 64) (n : Fin 50000) :
    (fun j : Fin 64 => leakyBig (F := Ideal) (lin128 X W b) (ix2 n j))
      = Cert.Spec.layer (mat W) (vec b) (fun k => X (ix2 n k)) := by
  funext j
  rw [leakyBig_apply, lin128_apply]
  rfl

theorem layerBig_row (X : Cert.Out.M 50000 64) (W : Cert.Out.M 64 64) (b : Cert.Out.V1 64) (n : Fin 50000) :
    (fun j : Fin 64 => leakyBig (F := Ideal) (linBig X W b) (ix2 n j))
      = Cert.Spec.layer (mat W) (vec b) (fun k => X (ix2 n k)) := by
  funext j
  rw [leakyBig_apply, linBig_apply]
  rfl

theorem layerSm_row (X : Cert.Out.M 512 64) (W : Cert.Out.M 64 64) (b : Cert.Out.V1 64) (d : Fin 512) :
    (fun j : Fin 64 => leakySm (F := Ideal) (linSm X W b) (ix2 d j))
      = Cert.Spec.layer (mat W) (vec b) (fun k => X (ix2 d k)) := by
  funext j
  rw [leakySm_apply, linSm_apply]
  rfl

/-- The three node layers on node `n`'s row are the specification's `node` of that row. -/
theorem nodes_row (X : Cert.Out.M 50000 128) (W1 : Cert.Out.M 128 64) (b1 : Cert.Out.V1 64) (W2 : Cert.Out.M 64 64) (b2 : Cert.Out.V1 64) (W3 : Cert.Out.M 64 64) (b3 : Cert.Out.V1 64) (n : Fin 50000) :
    (fun j : Fin 64 => nodes (F := Ideal) X W1 b1 W2 b2 W3 b3 (ix2 n j))
      = Cert.Spec.node (mat W1) (vec b1) (mat W2) (vec b2) (mat W3) (vec b3) (fun k => X (ix2 n k)) := by
  have h1 := layer128_row X W1 b1 n
  have h2 := layerBig_row (leakyBig (F := Ideal) (lin128 X W1 b1)) W2 b2 n
  have h3 := layerBig_row (leakyBig (F := Ideal) (linBig (leakyBig (lin128 X W1 b1)) W2 b2)) W3 b3 n
  rw [h1] at h2
  rw [h2] at h3
  unfold nodes Cert.Spec.node
  exact h3

/-- The three global layers on graph `d`'s row of a summary are the specification's `glob` of that row. -/
theorem globs_row (s : Cert.Out.M 512 64) (W4 : Cert.Out.M 64 64) (b4 : Cert.Out.V1 64) (W5 : Cert.Out.M 64 64) (b5 : Cert.Out.V1 64) (W6 : Cert.Out.M 64 64) (b6 : Cert.Out.V1 64) (d : Fin 512) :
    (fun j : Fin 64 => globs (F := Ideal) s W4 b4 W5 b5 W6 b6 (ix2 d j))
      = Cert.Spec.glob (mat W4) (vec b4) (mat W5) (vec b5) (mat W6) (vec b6) (fun k => s (ix2 d k)) := by
  have h1 := layerSm_row s W4 b4 d
  have h2 := layerSm_row (leakySm (F := Ideal) (linSm s W4 b4)) W5 b5 d
  have h3 := layerSm_row (leakySm (F := Ideal) (linSm (leakySm (linSm s W4 b4)) W5 b5)) W6 b6 d
  rw [h1] at h2
  rw [h2] at h3
  unfold globs Cert.Spec.glob
  exact h3

/-! ## The two results -/

/-- The first result at (d, j): the specification's per-graph summary. -/
theorem R1_apply (S : Cert.Out.M 512 50000) (X : Cert.Out.M 50000 128) (W1 : Cert.Out.M 128 64) (b1 : Cert.Out.V1 64) (W2 : Cert.Out.M 64 64) (b2 : Cert.Out.V1 64) (W3 : Cert.Out.M 64 64) (b3 : Cert.Out.V1 64) (d : Fin 512) (j : Fin 64) :
    R1 (F := Ideal) S X W1 b1 W2 b2 W3 b3 (ix2 d j)
      = Cert.Spec.s1 (mat S) (mat X) (mat W1) (vec b1) (mat W2) (vec b2) (mat W3) (vec b3) d j :=
  (Cert.LibDot.dotGeneral_apply (m := 512) (k := 50000) (n := 64) _ none S (nodes (F := Ideal) X W1 b1 W2 b2 W3 b3) d j).trans
    (Finset.sum_congr rfl fun n _ =>
      congrArg (fun f : Fin 64 → EReal => S (ix2 d n) * f j) (nodes_row X W1 b1 W2 b2 W3 b3 n))

theorem R1_row (S : Cert.Out.M 512 50000) (X : Cert.Out.M 50000 128) (W1 : Cert.Out.M 128 64) (b1 : Cert.Out.V1 64) (W2 : Cert.Out.M 64 64) (b2 : Cert.Out.V1 64) (W3 : Cert.Out.M 64 64) (b3 : Cert.Out.V1 64) (d : Fin 512) :
    (fun j : Fin 64 => R1 (F := Ideal) S X W1 b1 W2 b2 W3 b3 (ix2 d j))
      = Cert.Spec.s1 (mat S) (mat X) (mat W1) (vec b1) (mat W2) (vec b2) (mat W3) (vec b3) d :=
  funext fun j => R1_apply S X W1 b1 W2 b2 W3 b3 d j

/-- The second result at (q, j): the specification's running summary of the first. -/
theorem R2_apply (S : Cert.Out.M 512 50000) (R : Cert.Out.M 32 512) (X : Cert.Out.M 50000 128) (W1 : Cert.Out.M 128 64) (b1 : Cert.Out.V1 64) (W2 : Cert.Out.M 64 64) (b2 : Cert.Out.V1 64) (W3 : Cert.Out.M 64 64) (b3 : Cert.Out.V1 64) (W4 : Cert.Out.M 64 64) (b4 : Cert.Out.V1 64) (W5 : Cert.Out.M 64 64) (b5 : Cert.Out.V1 64) (W6 : Cert.Out.M 64 64) (b6 : Cert.Out.V1 64) (q : Fin 32) (j : Fin 64) :
    R2 (F := Ideal) S R X W1 b1 W2 b2 W3 b3 W4 b4 W5 b5 W6 b6 (ix2 q j)
      = Cert.Spec.s2 (mat R) (Cert.Spec.s1 (mat S) (mat X) (mat W1) (vec b1) (mat W2) (vec b2) (mat W3) (vec b3))
          (mat W4) (vec b4) (mat W5) (vec b5) (mat W6) (vec b6) q j := by
  have hd : ∀ d : Fin 512, (fun j : Fin 64 => globs (F := Ideal) (R1 S X W1 b1 W2 b2 W3 b3) W4 b4 W5 b5 W6 b6 (ix2 d j))
      = Cert.Spec.glob (mat W4) (vec b4) (mat W5) (vec b5) (mat W6) (vec b6) (Cert.Spec.s1 (mat S) (mat X) (mat W1) (vec b1) (mat W2) (vec b2) (mat W3) (vec b3) d) := fun d => by
    have h := globs_row (R1 (F := Ideal) S X W1 b1 W2 b2 W3 b3) W4 b4 W5 b5 W6 b6 d
    rw [R1_row S X W1 b1 W2 b2 W3 b3 d] at h
    exact h
  unfold R2 Cert.Spec.s2
  refine (Cert.LibDot.dotGeneral_apply (m := 32) (k := 512) (n := 64) _ none R _ q j).trans ?_
  refine Finset.sum_congr rfl fun d _ => ?_
  have h : globs (F := Ideal) (R1 S X W1 b1 W2 b2 W3 b3) W4 b4 W5 b5 W6 b6 (ix2 d j)
      = Cert.Spec.glob (mat W4) (vec b4) (mat W5) (vec b5) (mat W6) (vec b6) (Cert.Spec.s1 (mat S) (mat X) (mat W1) (vec b1) (mat W2) (vec b2) (mat W3) (vec b3) d) j := congrFun (hd d) j
  rw [h]
  rfl

/-- The first result as a whole array. -/
theorem R1_eq (S : Cert.Out.M 512 50000) (X : Cert.Out.M 50000 128) (W1 : Cert.Out.M 128 64) (b1 : Cert.Out.V1 64) (W2 : Cert.Out.M 64 64) (b2 : Cert.Out.V1 64) (W3 : Cert.Out.M 64 64) (b3 : Cert.Out.V1 64) :
    R1 (F := Ideal) S X W1 b1 W2 b2 W3 b3 = Cert.Out.s1 S X W1 b1 W2 b2 W3 b3 := by
  funext i
  show R1 (F := Ideal) S X W1 b1 W2 b2 W3 b3 i = Cert.Spec.s1 (mat S) (mat X) (mat W1) (vec b1) (mat W2) (vec b2) (mat W3) (vec b3) (i 0) (i 1)
  exact (congrArg (R1 (F := Ideal) S X W1 b1 W2 b2 W3 b3) (eq_ix2 i)).trans (R1_apply S X W1 b1 W2 b2 W3 b3 (i 0) (i 1))

/-- The second result as a whole array. -/
theorem R2_eq (S : Cert.Out.M 512 50000) (R : Cert.Out.M 32 512) (X : Cert.Out.M 50000 128) (W1 : Cert.Out.M 128 64) (b1 : Cert.Out.V1 64) (W2 : Cert.Out.M 64 64) (b2 : Cert.Out.V1 64) (W3 : Cert.Out.M 64 64) (b3 : Cert.Out.V1 64) (W4 : Cert.Out.M 64 64) (b4 : Cert.Out.V1 64) (W5 : Cert.Out.M 64 64) (b5 : Cert.Out.V1 64) (W6 : Cert.Out.M 64 64) (b6 : Cert.Out.V1 64) :
    R2 (F := Ideal) S R X W1 b1 W2 b2 W3 b3 W4 b4 W5 b5 W6 b6 = Cert.Out.s2 S R X W1 b1 W2 b2 W3 b3 W4 b4 W5 b5 W6 b6 := by
  funext i
  show R2 (F := Ideal) S R X W1 b1 W2 b2 W3 b3 W4 b4 W5 b5 W6 b6 i
      = Cert.Spec.s2 (mat R) (Cert.Spec.s1 (mat S) (mat X) (mat W1) (vec b1) (mat W2) (vec b2) (mat W3) (vec b3)) (mat W4) (vec b4) (mat W5) (vec b5) (mat W6) (vec b6) (i 0) (i 1)
  exact (congrArg (R2 (F := Ideal) S R X W1 b1 W2 b2 W3 b3 W4 b4 W5 b5 W6 b6) (eq_ix2 i)).trans
    (R2_apply S R X W1 b1 W2 b2 W3 b3 W4 b4 W5 b5 W6 b6 (i 0) (i 1))

/-! ## The run -/

/-- From any memory with zero counters, every weakly fair execution of the reference terminates with its first result
    the specification's per-graph summaries of the arguments' launch contents, its second the specification's running
    summaries of them, and every argument unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v15) = Cert.Out.s1 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))
      ∧ r.2.mem ((c.tc : Thread Cert.ReferenceIdeal.nD Cert.ReferenceIdeal.τ).loc Cert.ReferenceIdeal.main_v31) = Cert.Out.s2 (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)) :=
  (θ_run defs _ _).mono (fun _ h c => ⟨(h c).1.trans (R1_eq ..), (h c).2.1.trans (R2_eq ..), (h c).2.2⟩) (run_terms (F := Ideal) m ρ)

end Cert.ReferenceIdeal.RefValue

end
-- ==== Proof.AlgI.lean ====
/-
  The two programs end with equal results. The kernel's first result is the transposition of its accumulator,
  whose final contents are, entry by entry, the sum over all 50000 nodes the reference's one product takes; its
  second result the global layers of those sums. The reference's run ends at the same two arrays of its own
  arguments, which agree with the kernel's.
-/
import proofs.«152476_g41686952575157_cont_8to1_b_1251_30_alg».proof.Defs
import proofs.«152476_g41686952575157_cont_8to1_b_1251_30_alg».proof.Proof.OutputsI
import proofs.«152476_g41686952575157_cont_8to1_b_1251_30_alg».proof.Proof.AccReadI
import proofs.«152476_g41686952575157_cont_8to1_b_1251_30_alg».proof.Proof.RefRead
import Idealize.ShloMosaic.Lib.ValueLayout

noncomputable section

namespace Cert.Proof.Alg

open Idealize.ShloMosaic Idealize.ShloMosaic.TcCoe Idealize.SL.Sem Idealize.ShloMosaic.ValueIdx

variable (m : (ℓ : Loc Cert.KernelIdeal.nD Cert.KernelIdeal.τ Cert.KernelIdeal.sig) → Buf (Elt Ideal) ℓ) (ρ : Dev Cert.KernelIdeal.nD → PrngReg)

/-- The first result: the accumulator's final contents transposed are the per-graph summaries. -/
theorem first_eq (c : Dev Cert.KernelIdeal.nD) :
    transpose Cert.KernelIdeal.S512x64 [1, 0] (Cert.KernelIdeal.Body.result16 (F := Ideal) m c) Cert.KernelIdeal.Gen.transposes_S64x512_S512x64_1_0
      = Cert.Out.s1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
  funext i
  obtain ⟨d, j, rfl⟩ : ∃ (d : Fin 512) (j : Fin 64), i = ix2 d j := ⟨i 0, i 1, eq_ix2 i⟩
  refine (transpose_ix2_apply _ Cert.KernelIdeal.Gen.transposes_S64x512_S512x64_1_0 d j).trans ?_
  exact Cert.KernelIdeal.AccRead.acc_last m c Cert.KernelIdeal.Body.t9 rfl j d

/-- The second result: the global layers of the summaries against the running-summary matrix. -/
theorem second_eq (c : Dev Cert.KernelIdeal.nD) :
    Cert.KernelIdeal.Body.result17 (F := Ideal) m c = Cert.Out.s2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) := by
  funext i
  obtain ⟨q, j, rfl⟩ : ∃ (q : Fin 32) (j : Fin 64), i = ix2 q j := ⟨i 0, i 1, eq_ix2 i⟩
  exact Cert.KernelIdeal.AccRead.res2_read m c Cert.KernelIdeal.Body.t9 rfl q j

/-- The idealized kernel's run ends with the two specified arrays, its arguments unchanged. -/
theorem kernel_results : θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0_0) = Cert.Out.s1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      ∧ r.2.mem ((c.tc : Thread Cert.KernelIdeal.nD Cert.KernelIdeal.τ).loc Cert.KernelIdeal.main_v0_1) = Cert.Out.s2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run Cert.KernelIdeal.defs _ _).mono (fun _ h c => ⟨(h c).1.trans (first_eq m c), (h c).2.1.trans (second_eq m c), (h c).2.2⟩)
    (Cert.KernelIdeal.Body.run_results (F := Ideal) m ρ)

end Cert.Proof.Alg

end
-- ==== Proof.lean ====
/-
  The certificate. Both printed kernels run frame-safely at every grid point: the body's three control cases
  (the first point stores the point's partial sums, every later point adds its own to what the point before
  left, the last point also computes the global layers) each run on whole staging buffers, and the accumulator
  carried between points is named by recursion on the point. The idealization rewrote nothing. At the ideal
  values the kernel's accumulator sums, block by block and sub-chunk by sub-chunk, the same 50000 products the
  reference's one matrix product sums — addition of extended reals is commutative and associative, so no
  finiteness is used — and max(v, c·v) is the reference's leaky activation because 0 ≤ c ≤ 1.
-/
import proofs.«152476_g41686952575157_cont_8to1_b_1251_30_alg».proof.Defs
import proofs.«152476_g41686952575157_cont_8to1_b_1251_30_alg».proof.Proof.Gen.Kernel
import proofs.«152476_g41686952575157_cont_8to1_b_1251_30_alg».proof.Proof.Gen.KernelIdeal
import proofs.«152476_g41686952575157_cont_8to1_b_1251_30_alg».proof.Proof.Gen.ReferenceIdeal
import proofs.«152476_g41686952575157_cont_8to1_b_1251_30_alg».proof.Proof.Gen.Pre_finite_inputs
import proofs.«152476_g41686952575157_cont_8to1_b_1251_30_alg».proof.Proof.FrameK
import proofs.«152476_g41686952575157_cont_8to1_b_1251_30_alg».proof.Proof.FrameI
import proofs.«152476_g41686952575157_cont_8to1_b_1251_30_alg».proof.Proof.AlgI
import Idealize.ShloMosaic.Adequacy
import Idealize.ShloMosaic.Init

noncomputable section

namespace Cert.Proof

open Idealize.ShloMosaic Idealize.SL.Sem

/-- The printed kernel's frame, at the word-level values. -/
theorem frame_k : Cert.frame_Kernel := fun m ρ _ => Cert.Kernel.Body.frame (F := Bits) m ρ

/-- The idealized kernel's frame. -/
theorem frame_ki : Cert.frame_KernelIdeal := fun m ρ _ => Cert.KernelIdeal.Body.frame (F := Ideal) m ρ

/-- The reference's frame: its run with the results dropped. -/
theorem frame_ri : Cert.frame_ReferenceIdeal := fun m ρ _ =>
  (θ_run Cert.ReferenceIdeal.defs _ _).mono (fun _ h c => (h c).2.2) (Cert.ReferenceIdeal.RefValue.run m ρ)

/-- The ideal pass rewrote no operation. -/
theorem preserves : Cert.preserves_Kernel_KernelIdeal := trivial

/-- Both runs end at the same two arrays of arguments that agree. -/
theorem algebraic : Cert.algebraic_KernelIdeal_ReferenceIdeal := by
  intro m ρ m' ρ' _ hagree
  refine ⟨fun c => Cert.Out.s1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.Out.s2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)),
    Cert.Proof.Alg.kernel_results m ρ, ?_⟩
  refine (θ_run Cert.ReferenceIdeal.defs _ _).mono (fun r h c => ?_) (Cert.ReferenceIdeal.RefValue.run m' ρ')
  obtain ⟨h0, h1, hargs⟩ := h c
  obtain ⟨e0, e1, e2, e3, e4, e5, e6, e7, e8, e9, e10, e11, e12, e13, e14⟩ := hagree c
  refine ⟨h0.trans ?_, h1.trans ?_, hargs⟩
  · rw [e0, e2, e3, e4, e5, e6, e7, e8]
  · rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
